-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_arg6 : FVec F S512x256 .f32) (main_arg7 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x512 .f32) (main_arg1 : IVec S2x400000 32) (main_arg2 : FVec F S512x512 .f32) (main_arg3 : FVec F S512 .f32) (main_arg4 : FVec F S512x256 .f32) (main_arg5 : FVec F S256 .f32) (main_arg6 : FVec F S512x256 .f32) (main_arg7 : FVec F S256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_arg7 main_v13 main_v16
-- ==== Kernel.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x1 : Shape := ⟨2, ![50000, 1]⟩
abbrev S450000x512 : Shape := ⟨2, ![450000, 512]⟩
abbrev S1x512 : Shape := ⟨2, ![1, 512]⟩
abbrev S50000x256 : Shape := ⟨2, ![50000, 256]⟩
abbrev S2000x512 : Shape := ⟨2, ![2000, 512]⟩

abbrev nBuf : Space → Nat
  | .hbm => 77
  | .vmem => 11
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S50000, .i32⟩
  | .hbm, ⟨9, _⟩ => ⟨S1x400000, .i32⟩
  | .hbm, ⟨10, _⟩ => ⟨S400000, .i32⟩
  | .hbm, ⟨11, _⟩ => ⟨S450000, .i32⟩
  | .hbm, ⟨12, _⟩ => ⟨S1x400000, .i32⟩
  | .hbm, ⟨13, _⟩ => ⟨S400000, .i32⟩
  | .hbm, ⟨14, _⟩ => ⟨S450000, .i32⟩
  | .hbm, ⟨15, _⟩ => ⟨S_, .f32⟩
  | .hbm, ⟨16, _⟩ => ⟨S450000, .f32⟩
  | .hbm, ⟨17, _⟩ => ⟨S_, .f32⟩
  | .hbm, ⟨18, _⟩ => ⟨S50000, .f32⟩
  | .hbm, ⟨19, _⟩ => ⟨S450000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x512, .f32⟩
  | .hbm, ⟨30, _⟩ => ⟨S50000x1, .f32⟩
  | .hbm, ⟨31, _⟩ => ⟨S50000x512, .f32⟩
  | .hbm, ⟨32, _⟩ => ⟨S50000x512, .f32⟩
  | .hbm, ⟨33, _⟩ => ⟨S_, .i32⟩
  | .hbm, ⟨34, _⟩ => ⟨S450000, .i32⟩
  | .hbm, ⟨35, _⟩ => ⟨S450000, .i1⟩
  | .hbm, ⟨36, _⟩ => ⟨S_, .i32⟩
  | .hbm, ⟨37, _⟩ => ⟨S450000, .i32⟩
  | .hbm, ⟨38, _⟩ => ⟨S450000, .i32⟩
  | .hbm, ⟨39, _⟩ => ⟨S450000, .i32⟩
  | .hbm, ⟨40, _⟩ => ⟨S450000x1, .i32⟩
  | .hbm, ⟨41, _⟩ => ⟨S450000x512, .f32⟩
  | .hbm, ⟨42, _⟩ => ⟨S_, .f32⟩
  | .hbm, ⟨43, _⟩ => ⟨S50000x512, .f32⟩
  | .hbm, ⟨44, _⟩ => ⟨S450000x1, .i32⟩
  | .hbm, ⟨45, _⟩ => ⟨S50000x512, .f32⟩
  | .hbm, ⟨46, _⟩ => ⟨S50000x1, .f32⟩
  | .hbm, ⟨47, _⟩ => ⟨S50000x512, .f32⟩
  | .hbm, ⟨48, _⟩ => ⟨S50000x512, .f32⟩
  | .hbm, ⟨49, _⟩ => ⟨S1x512, .f32⟩
  | .hbm, ⟨50, _⟩ => ⟨S512x512, .f32⟩
  | .hbm, ⟨51, _⟩ => ⟨S50000x512, .f32⟩
  | .hbm, ⟨52, _⟩ => ⟨S50000x1, .f32⟩
  | .hbm, ⟨53, _⟩ => ⟨S50000x512, .f32⟩
  | .hbm, ⟨54, _⟩ => ⟨S50000x512, .f32⟩
  | .hbm, ⟨55, _⟩ => ⟨S_, .i32⟩
  | .hbm, ⟨56, _⟩ => ⟨S450000, .i32⟩
  | .hbm, ⟨57, _⟩ => ⟨S450000, .i1⟩
  | .hbm, ⟨58, _⟩ => ⟨S_, .i32⟩
  | .hbm, ⟨59, _⟩ => ⟨S450000, .i32⟩
  | .hbm, ⟨60, _⟩ => ⟨S450000, .i32⟩
  | .hbm, ⟨61, _⟩ => ⟨S450000, .i32⟩
  | .hbm, ⟨62, _⟩ => ⟨S450000x1, .i32⟩
  | .hbm, ⟨63, _⟩ => ⟨S450000x512, .f32⟩
  | .hbm, ⟨64, _⟩ => ⟨S_, .f32⟩
  | .hbm, ⟨65, _⟩ => ⟨S50000x512, .f32⟩
  | .hbm, ⟨66, _⟩ => ⟨S450000x1, .i32⟩
  | .hbm, ⟨67, _⟩ => ⟨S50000x512, .f32⟩
  | .hbm, ⟨68, _⟩ => ⟨S50000x1, .f32⟩
  | .hbm, ⟨69, _⟩ => ⟨S50000x512, .f32⟩
  | .hbm, ⟨70, _⟩ => ⟨S50000x512, .f32⟩
  | .hbm, ⟨71, _⟩ => ⟨S512, .f32⟩
  | .hbm, ⟨72, _⟩ => ⟨S1x512, .f32⟩
  | .hbm, ⟨73, _⟩ => ⟨S50000x512, .f32⟩
  | .hbm, ⟨74, _⟩ => ⟨S50000x512, .f32⟩
  | .hbm, ⟨75, _⟩ => ⟨S50000x256, .f32⟩
  | .hbm, ⟨76, _⟩ => ⟨S50000x256, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S1x512, .f32⟩
  | .local _ .vmem, ⟨8, _⟩ => ⟨S512x512, .f32⟩
  | .local _ .vmem, ⟨9, _⟩ => ⟨S2000x512, .f32⟩
  | .local _ .vmem, ⟨10, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst : Ref sig .tc := ⟨.hbm, 15, rfl⟩
abbrev main_call0_v7 : Ref sig .tc := ⟨.hbm, 16, rfl⟩
abbrev main_call0_cst_0 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_cst_1 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst_2 : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_c : Ref sig .tc := ⟨.hbm, 33, rfl⟩
abbrev main_call0_v19 : Ref sig .tc := ⟨.hbm, 34, rfl⟩
abbrev main_call0_v20 : Ref sig .tc := ⟨.hbm, 35, rfl⟩
abbrev main_call0_c_3 : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_cst_4 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_v31 : Ref sig .tc := ⟨.hbm, 48, rfl⟩
abbrev main_call0_v32 : Ref sig .tc := ⟨.hbm, 49, rfl⟩
abbrev main_call0_v33 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_v37 : Ref sig .tc := ⟨.hbm, 54, rfl⟩
abbrev main_call0_c_5 : Ref sig .tc := ⟨.hbm, 55, rfl⟩
abbrev main_call0_v38 : Ref sig .tc := ⟨.hbm, 56, rfl⟩
abbrev main_call0_v39 : Ref sig .tc := ⟨.hbm, 57, rfl⟩
abbrev main_call0_c_6 : Ref sig .tc := ⟨.hbm, 58, rfl⟩
abbrev main_call0_v40 : Ref sig .tc := ⟨.hbm, 59, rfl⟩
abbrev main_call0_v41 : Ref sig .tc := ⟨.hbm, 60, rfl⟩
abbrev main_call0_v42 : Ref sig .tc := ⟨.hbm, 61, rfl⟩
abbrev main_call0_v43 : Ref sig .tc := ⟨.hbm, 62, rfl⟩
abbrev main_call0_v44 : Ref sig .tc := ⟨.hbm, 63, rfl⟩
abbrev main_call0_cst_7 : Ref sig .tc := ⟨.hbm, 64, rfl⟩
abbrev main_call0_v45 : Ref sig .tc := ⟨.hbm, 65, rfl⟩
abbrev main_call0_v46 : Ref sig .tc := ⟨.hbm, 66, rfl⟩
abbrev main_call0_v47 : Ref sig .tc := ⟨.hbm, 67, rfl⟩
abbrev main_call0_v48 : Ref sig .tc := ⟨.hbm, 68, rfl⟩
abbrev main_call0_v49 : Ref sig .tc := ⟨.hbm, 69, rfl⟩
abbrev main_call0_v50 : Ref sig .tc := ⟨.hbm, 70, rfl⟩
abbrev main_call0_v51 : Ref sig .tc := ⟨.hbm, 71, rfl⟩
abbrev main_call0_v52 : Ref sig .tc := ⟨.hbm, 72, rfl⟩
abbrev main_call0_v53 : Ref sig .tc := ⟨.hbm, 73, rfl⟩
abbrev main_call0_v54 : Ref sig .tc := ⟨.hbm, 74, rfl⟩
abbrev main_v0_0 : Ref sig .tc := ⟨.hbm, 75, rfl⟩
abbrev main_v0_1 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x512 : S_.BroadcastsInDim S50000x512 (![] : Fin 0 → Fin S50000x512.rank)
  shapeCasts_S512_S1x512 : S512.ShapeCasts S1x512
  concatenates_S512x256_S512x256_S512x512_d1 : Shape.Concatenates [S512x256, S512x256] S512x512 1
  concatenates_S256_S256_S512_d0 : Shape.Concatenates [S256, S256] S512 0
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S50000x512_S50000x256_0_0 : S50000x512.Slices ![0, 0] S50000x256
  slices_S50000x512_S50000x256_0_256 : S50000x512.Slices ![0, 256] S50000x256
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  shapeCasts_S512x512_S512x512 : S512x512.ShapeCasts S512x512
  scatter_S50000_S450000x1_S450000_n_0_0_1_wf : ScatterDims.WF S50000 S450000x1 S450000 [] [0] [0] 1
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x512.size a ≤ S50000x512.size a
  hwx1_3 : ∀ i : grid1.Coords, EltTy.bits .f32 = 32 ∨ (Rect.block (s := S50000x512) S2000x512.size (cc1_transform_3 i) (hinb1_3 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v15) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v31) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v32) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v33) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v34) S2000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S450000x512 : Shape := ⟨2, ![450000, 512]⟩
abbrev S1x512 : Shape := ⟨2, ![1, 512]⟩
abbrev S50000x256 : Shape := ⟨2, ![50000, 256]⟩
abbrev S450000x256 : Shape := ⟨2, ![450000, 256]⟩
abbrev S1x256 : Shape := ⟨2, ![1, 256]⟩

abbrev nBuf : Space → Nat
  | .hbm => 113
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S50000, .i32⟩
  | .hbm, ⟨9, _⟩ => ⟨S1x400000, .i32⟩
  | .hbm, ⟨10, _⟩ => ⟨S400000, .i32⟩
  | .hbm, ⟨11, _⟩ => ⟨S450000, .i32⟩
  | .hbm, ⟨12, _⟩ => ⟨S1x400000, .i32⟩
  | .hbm, ⟨13, _⟩ => ⟨S400000, .i32⟩
  | .hbm, ⟨14, _⟩ => ⟨S450000, .i32⟩
  | .hbm, ⟨15, _⟩ => ⟨S_, .f32⟩
  | .hbm, ⟨16, _⟩ => ⟨S450000, .f32⟩
  | .hbm, ⟨17, _⟩ => ⟨S_, .f32⟩
  | .hbm, ⟨18, _⟩ => ⟨S50000, .f32⟩
  | .hbm, ⟨19, _⟩ => ⟨S450000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S450000, .i32⟩
  | .hbm, ⟨31, _⟩ => ⟨S450000, .i1⟩
  | .hbm, ⟨32, _⟩ => ⟨S_, .i32⟩
  | .hbm, ⟨33, _⟩ => ⟨S450000, .i32⟩
  | .hbm, ⟨34, _⟩ => ⟨S450000, .i32⟩
  | .hbm, ⟨35, _⟩ => ⟨S450000, .i32⟩
  | .hbm, ⟨36, _⟩ => ⟨S450000x1, .i32⟩
  | .hbm, ⟨37, _⟩ => ⟨S450000, .f32⟩
  | .hbm, ⟨38, _⟩ => ⟨S_, .i32⟩
  | .hbm, ⟨39, _⟩ => ⟨S450000, .i32⟩
  | .hbm, ⟨40, _⟩ => ⟨S450000, .i1⟩
  | .hbm, ⟨41, _⟩ => ⟨S_, .i32⟩
  | .hbm, ⟨42, _⟩ => ⟨S450000, .i32⟩
  | .hbm, ⟨43, _⟩ => ⟨S450000, .i32⟩
  | .hbm, ⟨44, _⟩ => ⟨S450000, .i32⟩
  | .hbm, ⟨45, _⟩ => ⟨S450000x1, .i32⟩
  | .hbm, ⟨46, _⟩ => ⟨S450000, .f32⟩
  | .hbm, ⟨47, _⟩ => ⟨S450000, .f32⟩
  | .hbm, ⟨48, _⟩ => ⟨S450000x1, .f32⟩
  | .hbm, ⟨49, _⟩ => ⟨S50000x512, .f32⟩
  | .hbm, ⟨50, _⟩ => ⟨S_, .i32⟩
  | .hbm, ⟨51, _⟩ => ⟨S450000, .i32⟩
  | .hbm, ⟨52, _⟩ => ⟨S450000, .i1⟩
  | .hbm, ⟨53, _⟩ => ⟨S_, .i32⟩
  | .hbm, ⟨54, _⟩ => ⟨S450000, .i32⟩
  | .hbm, ⟨55, _⟩ => ⟨S450000, .i32⟩
  | .hbm, ⟨56, _⟩ => ⟨S450000, .i32⟩
  | .hbm, ⟨57, _⟩ => ⟨S450000x1, .i32⟩
  | .hbm, ⟨58, _⟩ => ⟨S450000x512, .f32⟩
  | .hbm, ⟨59, _⟩ => ⟨S450000x512, .f32⟩
  | .hbm, ⟨60, _⟩ => ⟨S450000x512, .f32⟩
  | .hbm, ⟨61, _⟩ => ⟨S_, .f32⟩
  | .hbm, ⟨62, _⟩ => ⟨S50000x512, .f32⟩
  | .hbm, ⟨63, _⟩ => ⟨S450000x1, .i32⟩
  | .hbm, ⟨64, _⟩ => ⟨S50000x512, .f32⟩
  | .hbm, ⟨65, _⟩ => ⟨S1x512, .f32⟩
  | .hbm, ⟨66, _⟩ => ⟨S50000x512, .f32⟩
  | .hbm, ⟨67, _⟩ => ⟨S50000x512, .f32⟩
  | .hbm, ⟨68, _⟩ => ⟨S_, .f32⟩
  | .hbm, ⟨69, _⟩ => ⟨S50000x512, .f32⟩
  | .hbm, ⟨70, _⟩ => ⟨S50000x512, .i1⟩
  | .hbm, ⟨71, _⟩ => ⟨S_, .f32⟩
  | .hbm, ⟨72, _⟩ => ⟨S50000x512, .f32⟩
  | .hbm, ⟨73, _⟩ => ⟨S50000x512, .f32⟩
  | .hbm, ⟨74, _⟩ => ⟨S50000x512, .f32⟩
  | .hbm, ⟨75, _⟩ => ⟨S50000x256, .f32⟩
  | .hbm, ⟨76, _⟩ => ⟨S_, .i32⟩
  | .hbm, ⟨77, _⟩ => ⟨S450000, .i32⟩
  | .hbm, ⟨78, _⟩ => ⟨S450000, .i1⟩
  | .hbm, ⟨79, _⟩ => ⟨S_, .i32⟩
  | .hbm, ⟨80, _⟩ => ⟨S450000, .i32⟩
  | .hbm, ⟨81, _⟩ => ⟨S450000, .i32⟩
  | .hbm, ⟨82, _⟩ => ⟨S450000, .i32⟩
  | .hbm, ⟨83, _⟩ => ⟨S450000x1, .i32⟩
  | .hbm, ⟨84, _⟩ => ⟨S450000x256, .f32⟩
  | .hbm, ⟨85, _⟩ => ⟨S450000x256, .f32⟩
  | .hbm, ⟨86, _⟩ => ⟨S450000x256, .f32⟩
  | .hbm, ⟨87, _⟩ => ⟨S_, .f32⟩
  | .hbm, ⟨88, _⟩ => ⟨S50000x256, .f32⟩
  | .hbm, ⟨89, _⟩ => ⟨S450000x1, .i32⟩
  | .hbm, ⟨90, _⟩ => ⟨S50000x256, .f32⟩
  | .hbm, ⟨91, _⟩ => ⟨S1x256, .f32⟩
  | .hbm, ⟨92, _⟩ => ⟨S50000x256, .f32⟩
  | .hbm, ⟨93, _⟩ => ⟨S50000x256, .f32⟩
  | .hbm, ⟨94, _⟩ => ⟨S50000x256, .f32⟩
  | .hbm, ⟨95, _⟩ => ⟨S_, .i32⟩
  | .hbm, ⟨96, _⟩ => ⟨S450000, .i32⟩
  | .hbm, ⟨97, _⟩ => ⟨S450000, .i1⟩
  | .hbm, ⟨98, _⟩ => ⟨S_, .i32⟩
  | .hbm, ⟨99, _⟩ => ⟨S450000, .i32⟩
  | .hbm, ⟨100, _⟩ => ⟨S450000, .i32⟩
  | .hbm, ⟨101, _⟩ => ⟨S450000, .i32⟩
  | .hbm, ⟨102, _⟩ => ⟨S450000x1, .i32⟩
  | .hbm, ⟨103, _⟩ => ⟨S450000x256, .f32⟩
  | .hbm, ⟨104, _⟩ => ⟨S450000x256, .f32⟩
  | .hbm, ⟨105, _⟩ => ⟨S450000x256, .f32⟩
  | .hbm, ⟨106, _⟩ => ⟨S_, .f32⟩
  | .hbm, ⟨107, _⟩ => ⟨S50000x256, .f32⟩
  | .hbm, ⟨108, _⟩ => ⟨S450000x1, .i32⟩
  | .hbm, ⟨109, _⟩ => ⟨S50000x256, .f32⟩
  | .hbm, ⟨110, _⟩ => ⟨S1x256, .f32⟩
  | .hbm, ⟨111, _⟩ => ⟨S50000x256, .f32⟩
  | .hbm, ⟨112, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_12 : Ref sig .tc := ⟨.hbm, 95, rfl⟩
abbrev main_v65 : Ref sig .tc := ⟨.hbm, 96, rfl⟩
abbrev main_v66 : Ref sig .tc := ⟨.hbm, 97, rfl⟩
abbrev main_c_13 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x512_S512x512_S50000x512_1_0_0_1_n_n_wf : DotDims.WF S50000x512 S512x512 S50000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S50000x512_S512x256_S50000x256_1_0_0_1_n_n_wf : DotDims.WF S50000x512 S512x256 S50000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf

class Facts : Prop extends Facts₀ where

variable [Facts]
-- ==== Proof.KerRun.lean ====
/-
  The idealized kernel program, run from any launch memory: every weakly fair execution terminates without a fault, and
  every buffer of the program that lives outside the kernels' scratch space ends at the contents the program's five
  stretches leave in it — the host operations before the first matrix-product region, that region's write-backs, the host
  operations between the regions, the second region's write-backs, and the host operations after it, each folded over
  what the stretch before it left (`Gen.W5`). The two results are among those buffers, and so are the eight arguments,
  which no stretch writes.

  The run is the library's theorem for a program of several regions among host stretches, instantiated with the
  regions' generated proof data; here its conclusion is read at EVERY unscoped buffer rather than at the arguments only.
-/
import proofs.«168722_j46583215292646_2_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer at the last boundary's
    contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.KernelIdeal.KerRun

end
-- ==== Proof.LibRunWindows.lean ====
/-
  A long straight line of host operations, taken window by window.

  A printed host program past sixty statements comes as consecutive windows. Each window is a list of operations;
  the whole line is their concatenation. What a fold over the whole line does to the buffers is then read off the
  windows one at a time:

  * folding the operations of `l₁ ++ l₂` over buffer contents is folding `l₁`, then `l₂` (`after_append`);
  * so a buffer that neither window writes is kept by the concatenation (`kept_append`);
  * a property of every operation (its buffers are the TensorCore's; it determines its result) holds of the
    concatenation when it holds of both windows (`forall_mem_append`, `forall_append`).
-/
import Idealize.ShloMosaic.Lib.StableHlo.Run

noncomputable section

namespace Idealize.ShloMosaic.StableHlo

variable {τ : Topo} {sig : RefSig} {Val : EltTy → Type}

/-- Folding over a concatenation: first the first list, then the second. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer kept by two windows, whatever the contents they start from, is kept by their concatenation. -/
theorem kept_append {l₁ l₂ : List (HloOp τ sig Val)} {b : DevRef τ sig}
    (h₁ : ∀ V : Valuation τ sig Val, after l₁ V b = V b) (h₂ : ∀ V : Valuation τ sig Val, after l₂ V b = V b)
    (V : Valuation τ sig Val) : after (l₁ ++ l₂) V b = V b := by
  rw [after_append, h₂, h₁]

/-- A property of every operation of two windows is one of every operation of their concatenation. -/
theorem forall_mem_append {p : HloOp τ sig Val → Prop} {l₁ l₂ : List (HloOp τ sig Val)}
    (h₁ : ∀ op ∈ l₁, p op) (h₂ : ∀ op ∈ l₂, p op) : ∀ op ∈ l₁ ++ l₂, p op := by
  intro op h
  rcases List.mem_append.mp h with h | h
  · exact h₁ op h
  · exact h₂ op h

/-- The same, for the conjunction over the list that the run's side condition is stated with. -/
theorem forall_append {p : HloOp τ sig Val → Prop} {l₁ l₂ : List (HloOp τ sig Val)}
    (h₁ : l₁.Forall p) (h₂ : l₂.Forall p) : (l₁ ++ l₂).Forall p :=
  List.forall_iff_forall_mem.mpr
    (forall_mem_append (List.forall_iff_forall_mem.mp h₁) (List.forall_iff_forall_mem.mp h₂))

end Idealize.ShloMosaic.StableHlo

end
-- ==== Proof.RefOps.lean ====
/-
  The reference's @main as a straight line of host operations.

  The reference is a two-layer graph convolution. Its printed @main is ninety-seven host operations and the
  return, two of them calls of module-local functions: the `where` that keeps the inverse square root of the degree
  where the degree is positive (three operations: the scalar zero converted to its own type, its broadcast, the select), and
  the leaky rectifier (seven: the zero and its broadcast, the comparison with it, the slope and its broadcast, the
  product with the slope, and the inner `where`'s select). A call executes the callee's body on the operands, so with
  each callee's operations written at its call site, over the buffers the call names, @main is ONE line of
  operations. It is taken in the two windows it is printed in: `opsA` (the first sixty statements: the edge lists
  with the self-loops appended, the degrees and their inverse square roots, the edge weights, the first layer and the
  rectifier, and the dense product of the second layer's mean head — sixty-eight operations) and `opsB` (the rest of
  the mean head, and the log-deviation head — thirty-seven).

  Besides the lists: every operation touches TensorCore buffers only (`ops_sub`) and determines its result
  (`ops_fresh`), and the signature scopes no buffer and no semaphore — what the run of a straight line asks.
-/
import proofs.«168722_j46583215292646_2_alg».proof.ReferenceIdeal
import proofs.«168722_j46583215292646_2_alg».proof.Proof.LibRunWindows
import Idealize.ShloMosaic.Lib.StableHlo.Run

noncomputable section

namespace Cert.ReferenceIdeal.RefVal

open Cert.ReferenceIdeal Cert.ReferenceIdeal.Facts₀ Idealize.ShloMosaic Idealize.ShloMosaic.TcCoe
  Idealize.SL.Sem Idealize.ShloMosaic.StableHlo

variable {F : FTy → Type} [FloatOps F]
variable [Cert.ReferenceIdeal.Facts]

/-- The first window's operations, in order, the two calls' bodies at their call sites. -/
abbrev opsA : List (HloOp τ sig (Elt F)) :=
  [ StableHlo.nullary main_v0 (iotaInDim S50000 32 0),
    StableHlo.unary main_arg1 main_v1 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v1 main_v2 rfl shapeCasts_S1x400000_S400000,
    StableHlo.binary main_v2 main_v0 main_v3 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    StableHlo.unary main_arg1 main_v4 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v4 main_v5 rfl shapeCasts_S1x400000_S400000,
    StableHlo.binary main_v5 main_v0 main_v6 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    StableHlo.nullary main_cst (constant S_ .f32 0x3F800000#32),
    StableHlo.unary main_cst main_v7 (broadcastInDim S450000 ![] bcast_S_S450000 : (⟨S_, .f32⟩ : BufTy).Contents (Elt F) → (⟨S450000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S450000x1 ![0] bcast_S450000_S450000x1_0 : (⟨S450000, .i32⟩ : BufTy).Contents (Elt F) → (⟨S450000x1, .i32⟩ : BufTy).Contents (Elt F)),
    StableHlo.ternary main_v8 main_v9 main_v7 main_v10 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v13 : StableHlo.TRef sig ⟨S50000, .f32⟩) main_call0.v1 main_call0.v2 select,
    StableHlo.nullary main_c (constantI S_ 32 0#32),
    StableHlo.unary main_c main_v15 (broadcastInDim S450000 ![] bcast_S_S450000 : (⟨S_, .i32⟩ : BufTy).Contents (Elt F) → (⟨S450000, .i32⟩ : BufTy).Contents (Elt F)),
    StableHlo.binary main_v3 main_v15 main_v16 (cmpi .slt : (⟨S450000, .i32⟩ : BufTy).Contents (Elt F) → (⟨S450000, .i32⟩ : BufTy).Contents (Elt F) → (⟨S450000, .i1⟩ : BufTy).Contents (Elt F)),
    StableHlo.nullary main_c_3 (constantI S_ 32 50000#32),
    StableHlo.unary main_c_3 main_v17 (broadcastInDim S450000 ![] bcast_S_S450000 : (⟨S_, .i32⟩ : BufTy).Contents (Elt F) → (⟨S450000, .i32⟩ : BufTy).Contents (Elt F)),
    StableHlo.binary main_v3 main_v17 main_v18 (addi : (⟨S450000, .i32⟩ : BufTy).Contents (Elt F) → (⟨S450000, .i32⟩ : BufTy).Contents (Elt F) → (⟨S450000, .i32⟩ : BufTy).Contents (Elt F)),
    StableHlo.ternary main_v16 main_v18 main_v3 main_v19 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v19 main_v20 (broadcastInDim S450000x1 ![0] bcast_S450000_S450000x1_0 : (⟨S450000, .i32⟩ : BufTy).Contents (Elt F) → (⟨S450000x1, .i32⟩ : BufTy).Contents (Elt F)),
    StableHlo.binary main_v14 main_v20 main_v21 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    StableHlo.nullary main_c_4 (constantI S_ 32 0#32),
    StableHlo.unary main_c_4 main_v22 (broadcastInDim S450000 ![] bcast_S_S450000 : (⟨S_, .i32⟩ : BufTy).Contents (Elt F) → (⟨S450000, .i32⟩ : BufTy).Contents (Elt F)),
    StableHlo.binary main_v6 main_v22 main_v23 (cmpi .slt : (⟨S450000, .i32⟩ : BufTy).Contents (Elt F) → (⟨S450000, .i32⟩ : BufTy).Contents (Elt F) → (⟨S450000, .i1⟩ : BufTy).Contents (Elt F)),
    StableHlo.nullary main_c_5 (constantI S_ 32 50000#32),
    StableHlo.unary main_c_5 main_v24 (broadcastInDim S450000 ![] bcast_S_S450000 : (⟨S_, .i32⟩ : BufTy).Contents (Elt F) → (⟨S450000, .i32⟩ : BufTy).Contents (Elt F)),
    StableHlo.binary main_v6 main_v24 main_v25 (addi : (⟨S450000, .i32⟩ : BufTy).Contents (Elt F) → (⟨S450000, .i32⟩ : BufTy).Contents (Elt F) → (⟨S450000, .i32⟩ : BufTy).Contents (Elt F)),
    StableHlo.ternary main_v23 main_v25 main_v6 main_v26 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v26 main_v27 (broadcastInDim S450000x1 ![0] bcast_S450000_S450000x1_0 : (⟨S450000, .i32⟩ : BufTy).Contents (Elt F) → (⟨S450000x1, .i32⟩ : BufTy).Contents (Elt F)),
    StableHlo.binary main_v14 main_v27 main_v28 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    StableHlo.binary main_v21 main_v28 main_v29 (mulf : (⟨S450000, .f32⟩ : BufTy).Contents (Elt F) → (⟨S450000, .f32⟩ : BufTy).Contents (Elt F) → (⟨S450000, .f32⟩ : BufTy).Contents (Elt F)),
    StableHlo.unary main_v29 main_v30 (broadcastInDim S450000x1 ![0] bcast_S450000_S450000x1_0 : (⟨S450000, .f32⟩ : BufTy).Contents (Elt F) → (⟨S450000x1, .f32⟩ : BufTy).Contents (Elt F)),
    StableHlo.binary main_arg0 main_arg2 main_v31 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.nullary main_c_6 (constantI S_ 32 0#32),
    StableHlo.unary main_c_6 main_v32 (broadcastInDim S450000 ![] bcast_S_S450000 : (⟨S_, .i32⟩ : BufTy).Contents (Elt F) → (⟨S450000, .i32⟩ : BufTy).Contents (Elt F)),
    StableHlo.binary main_v3 main_v32 main_v33 (cmpi .slt : (⟨S450000, .i32⟩ : BufTy).Contents (Elt F) → (⟨S450000, .i32⟩ : BufTy).Contents (Elt F) → (⟨S450000, .i1⟩ : BufTy).Contents (Elt F)),
    StableHlo.nullary main_c_7 (constantI S_ 32 50000#32),
    StableHlo.unary main_c_7 main_v34 (broadcastInDim S450000 ![] bcast_S_S450000 : (⟨S_, .i32⟩ : BufTy).Contents (Elt F) → (⟨S450000, .i32⟩ : BufTy).Contents (Elt F)),
    StableHlo.binary main_v3 main_v34 main_v35 (addi : (⟨S450000, .i32⟩ : BufTy).Contents (Elt F) → (⟨S450000, .i32⟩ : BufTy).Contents (Elt F) → (⟨S450000, .i32⟩ : BufTy).Contents (Elt F)),
    StableHlo.ternary main_v33 main_v35 main_v3 main_v36 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v36 main_v37 (broadcastInDim S450000x1 ![0] bcast_S450000_S450000x1_0 : (⟨S450000, .i32⟩ : BufTy).Contents (Elt F) → (⟨S450000x1, .i32⟩ : BufTy).Contents (Elt F)),
    StableHlo.binary main_v31 main_v37 main_v38 ((fun x i => Host.gather gather_S50000x512_S450000x1_S450000x512_1_0_n_n_0_1_1512 x i) : (⟨S50000x512, .f32⟩ : BufTy).Contents (Elt F) → (⟨S450000x1, .i32⟩ : BufTy).Contents (Elt F) → (⟨S450000x512, .f32⟩ : BufTy).Contents (Elt F)),
    StableHlo.unary main_v30 main_v39 (broadcastInDim S450000x512 ![0, 1] bcast_S450000x1_S450000x512_0_1 : (⟨S450000x1, .f32⟩ : BufTy).Contents (Elt F) → (⟨S450000x512, .f32⟩ : BufTy).Contents (Elt F)),
    StableHlo.binary main_v38 main_v39 main_v40 (mulf : (⟨S450000x512, .f32⟩ : BufTy).Contents (Elt F) → (⟨S450000x512, .f32⟩ : BufTy).Contents (Elt F) → (⟨S450000x512, .f32⟩ : BufTy).Contents (Elt F)),
    StableHlo.nullary main_cst_8 (constant S_ .f32 0x00000000#32),
    StableHlo.unary main_cst_8 main_v41 (broadcastInDim S50000x512 ![] bcast_S_S50000x512 : (⟨S_, .f32⟩ : BufTy).Contents (Elt F) → (⟨S50000x512, .f32⟩ : BufTy).Contents (Elt F)),
    StableHlo.unary main_v6 main_v42 (broadcastInDim S450000x1 ![0] bcast_S450000_S450000x1_0 : (⟨S450000, .i32⟩ : BufTy).Contents (Elt F) → (⟨S450000x1, .i32⟩ : BufTy).Contents (Elt F)),
    StableHlo.ternary main_v41 main_v42 main_v40 main_v43 ((fun x i u => Host.scatterAdd scatter_S50000x512_S450000x1_S450000x512_1_0_0_1 x i u) : (⟨S50000x512, .f32⟩ : BufTy).Contents (Elt F) → (⟨S450000x1, .i32⟩ : BufTy).Contents (Elt F) → (⟨S450000x512, .f32⟩ : BufTy).Contents (Elt F) → (⟨S50000x512, .f32⟩ : BufTy).Contents (Elt F)),
    StableHlo.unary main_arg3 main_v44 (broadcastInDim S1x512 ![1] bcast_S512_S1x512_1 : (⟨S512, .f32⟩ : BufTy).Contents (Elt F) → (⟨S1x512, .f32⟩ : BufTy).Contents (Elt F)),
    StableHlo.unary main_v44 main_v45 (broadcastInDim S50000x512 ![0, 1] bcast_S1x512_S50000x512_0_1 : (⟨S1x512, .f32⟩ : BufTy).Contents (Elt F) → (⟨S50000x512, .f32⟩ : BufTy).Contents (Elt F)),
    StableHlo.binary main_v43 main_v45 main_v46 (addf : (⟨S50000x512, .f32⟩ : BufTy).Contents (Elt F) → (⟨S50000x512, .f32⟩ : BufTy).Contents (Elt F) → (⟨S50000x512, .f32⟩ : BufTy).Contents (Elt F)),
    StableHlo.TRef.nullary main_call1.cst (constant S_ .f32 0x00000000#32),
    StableHlo.TRef.unary main_call1.cst main_call1.v0 (broadcastInDim S50000x512 ![] bcast_S_S50000x512),
    StableHlo.TRef.binary (.of main_v46 : StableHlo.TRef sig ⟨S50000x512, .f32⟩) main_call1.v0 main_call1.v1 (cmpf .oge),
    StableHlo.TRef.nullary main_call1.cst_0 (constant S_ .f32 0x3C23D70A#32),
    StableHlo.TRef.unary main_call1.cst_0 main_call1.v2 (broadcastInDim S50000x512 ![] bcast_S_S50000x512),
    StableHlo.TRef.binary main_call1.v2 (.of main_v46 : StableHlo.TRef sig ⟨S50000x512, .f32⟩) main_call1.v3 mulf,
    StableHlo.TRef.ternary main_call1.v1 (.of main_v46 : StableHlo.TRef sig ⟨S50000x512, .f32⟩) main_call1.v3 main_call1.call0.v0 select,
    StableHlo.binary main_v47 main_arg4 main_v48 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)) ]

/-- The second window's operations, in order. -/
abbrev opsB : List (HloOp τ sig (Elt F)) :=
  [ StableHlo.nullary main_c_9 (constantI S_ 32 0#32),
    StableHlo.unary main_c_9 main_v49 (broadcastInDim S450000 ![] bcast_S_S450000 : (⟨S_, .i32⟩ : BufTy).Contents (Elt F) → (⟨S450000, .i32⟩ : BufTy).Contents (Elt F)),
    StableHlo.binary main_v3 main_v49 main_v50 (cmpi .slt : (⟨S450000, .i32⟩ : BufTy).Contents (Elt F) → (⟨S450000, .i32⟩ : BufTy).Contents (Elt F) → (⟨S450000, .i1⟩ : BufTy).Contents (Elt F)),
    StableHlo.nullary main_c_10 (constantI S_ 32 50000#32),
    StableHlo.unary main_c_10 main_v51 (broadcastInDim S450000 ![] bcast_S_S450000 : (⟨S_, .i32⟩ : BufTy).Contents (Elt F) → (⟨S450000, .i32⟩ : BufTy).Contents (Elt F)),
    StableHlo.binary main_v3 main_v51 main_v52 (addi : (⟨S450000, .i32⟩ : BufTy).Contents (Elt F) → (⟨S450000, .i32⟩ : BufTy).Contents (Elt F) → (⟨S450000, .i32⟩ : BufTy).Contents (Elt F)),
    StableHlo.ternary main_v50 main_v52 main_v3 main_v53 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v53 main_v54 (broadcastInDim S450000x1 ![0] bcast_S450000_S450000x1_0 : (⟨S450000, .i32⟩ : BufTy).Contents (Elt F) → (⟨S450000x1, .i32⟩ : BufTy).Contents (Elt F)),
    StableHlo.binary main_v48 main_v54 main_v55 ((fun x i => Host.gather gather_S50000x256_S450000x1_S450000x256_1_0_n_n_0_1_1256 x i) : (⟨S50000x256, .f32⟩ : BufTy).Contents (Elt F) → (⟨S450000x1, .i32⟩ : BufTy).Contents (Elt F) → (⟨S450000x256, .f32⟩ : BufTy).Contents (Elt F)),
    StableHlo.unary main_v30 main_v56 (broadcastInDim S450000x256 ![0, 1] bcast_S450000x1_S450000x256_0_1 : (⟨S450000x1, .f32⟩ : BufTy).Contents (Elt F) → (⟨S450000x256, .f32⟩ : BufTy).Contents (Elt F)),
    StableHlo.binary main_v55 main_v56 main_v57 (mulf : (⟨S450000x256, .f32⟩ : BufTy).Contents (Elt F) → (⟨S450000x256, .f32⟩ : BufTy).Contents (Elt F) → (⟨S450000x256, .f32⟩ : BufTy).Contents (Elt F)),
    StableHlo.nullary main_cst_11 (constant S_ .f32 0x00000000#32),
    StableHlo.unary main_cst_11 main_v58 (broadcastInDim S50000x256 ![] bcast_S_S50000x256 : (⟨S_, .f32⟩ : BufTy).Contents (Elt F) → (⟨S50000x256, .f32⟩ : BufTy).Contents (Elt F)),
    StableHlo.unary main_v6 main_v59 (broadcastInDim S450000x1 ![0] bcast_S450000_S450000x1_0 : (⟨S450000, .i32⟩ : BufTy).Contents (Elt F) → (⟨S450000x1, .i32⟩ : BufTy).Contents (Elt F)),
    StableHlo.ternary main_v58 main_v59 main_v57 main_v60 ((fun x i u => Host.scatterAdd scatter_S50000x256_S450000x1_S450000x256_1_0_0_1 x i u) : (⟨S50000x256, .f32⟩ : BufTy).Contents (Elt F) → (⟨S450000x1, .i32⟩ : BufTy).Contents (Elt F) → (⟨S450000x256, .f32⟩ : BufTy).Contents (Elt F) → (⟨S50000x256, .f32⟩ : BufTy).Contents (Elt F)),
    StableHlo.unary main_arg5 main_v61 (broadcastInDim S1x256 ![1] bcast_S256_S1x256_1 : (⟨S256, .f32⟩ : BufTy).Contents (Elt F) → (⟨S1x256, .f32⟩ : BufTy).Contents (Elt F)),
    StableHlo.unary main_v61 main_v62 (broadcastInDim S50000x256 ![0, 1] bcast_S1x256_S50000x256_0_1 : (⟨S1x256, .f32⟩ : BufTy).Contents (Elt F) → (⟨S50000x256, .f32⟩ : BufTy).Contents (Elt F)),
    StableHlo.binary main_v60 main_v62 main_v63 (addf : (⟨S50000x256, .f32⟩ : BufTy).Contents (Elt F) → (⟨S50000x256, .f32⟩ : BufTy).Contents (Elt F) → (⟨S50000x256, .f32⟩ : BufTy).Contents (Elt F)),
    StableHlo.binary main_v47 main_arg6 main_v64 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.nullary main_c_12 (constantI S_ 32 0#32),
    StableHlo.unary main_c_12 main_v65 (broadcastInDim S450000 ![] bcast_S_S450000 : (⟨S_, .i32⟩ : BufTy).Contents (Elt F) → (⟨S450000, .i32⟩ : BufTy).Contents (Elt F)),
    StableHlo.binary main_v3 main_v65 main_v66 (cmpi .slt : (⟨S450000, .i32⟩ : BufTy).Contents (Elt F) → (⟨S450000, .i32⟩ : BufTy).Contents (Elt F) → (⟨S450000, .i1⟩ : BufTy).Contents (Elt F)),
    StableHlo.nullary main_c_13 (constantI S_ 32 50000#32),
    StableHlo.unary main_c_13 main_v67 (broadcastInDim S450000 ![] bcast_S_S450000 : (⟨S_, .i32⟩ : BufTy).Contents (Elt F) → (⟨S450000, .i32⟩ : BufTy).Contents (Elt F)),
    StableHlo.binary main_v3 main_v67 main_v68 (addi : (⟨S450000, .i32⟩ : BufTy).Contents (Elt F) → (⟨S450000, .i32⟩ : BufTy).Contents (Elt F) → (⟨S450000, .i32⟩ : BufTy).Contents (Elt F)),
    StableHlo.ternary main_v66 main_v68 main_v3 main_v69 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v69 main_v70 (broadcastInDim S450000x1 ![0] bcast_S450000_S450000x1_0 : (⟨S450000, .i32⟩ : BufTy).Contents (Elt F) → (⟨S450000x1, .i32⟩ : BufTy).Contents (Elt F)),
    StableHlo.binary main_v64 main_v70 main_v71 ((fun x i => Host.gather gather_S50000x256_S450000x1_S450000x256_1_0_n_n_0_1_1256 x i) : (⟨S50000x256, .f32⟩ : BufTy).Contents (Elt F) → (⟨S450000x1, .i32⟩ : BufTy).Contents (Elt F) → (⟨S450000x256, .f32⟩ : BufTy).Contents (Elt F)),
    StableHlo.unary main_v30 main_v72 (broadcastInDim S450000x256 ![0, 1] bcast_S450000x1_S450000x256_0_1 : (⟨S450000x1, .f32⟩ : BufTy).Contents (Elt F) → (⟨S450000x256, .f32⟩ : BufTy).Contents (Elt F)),
    StableHlo.binary main_v71 main_v72 main_v73 (mulf : (⟨S450000x256, .f32⟩ : BufTy).Contents (Elt F) → (⟨S450000x256, .f32⟩ : BufTy).Contents (Elt F) → (⟨S450000x256, .f32⟩ : BufTy).Contents (Elt F)),
    StableHlo.nullary main_cst_14 (constant S_ .f32 0x00000000#32),
    StableHlo.unary main_cst_14 main_v74 (broadcastInDim S50000x256 ![] bcast_S_S50000x256 : (⟨S_, .f32⟩ : BufTy).Contents (Elt F) → (⟨S50000x256, .f32⟩ : BufTy).Contents (Elt F)),
    StableHlo.unary main_v6 main_v75 (broadcastInDim S450000x1 ![0] bcast_S450000_S450000x1_0 : (⟨S450000, .i32⟩ : BufTy).Contents (Elt F) → (⟨S450000x1, .i32⟩ : BufTy).Contents (Elt F)),
    StableHlo.ternary main_v74 main_v75 main_v73 main_v76 ((fun x i u => Host.scatterAdd scatter_S50000x256_S450000x1_S450000x256_1_0_0_1 x i u) : (⟨S50000x256, .f32⟩ : BufTy).Contents (Elt F) → (⟨S450000x1, .i32⟩ : BufTy).Contents (Elt F) → (⟨S450000x256, .f32⟩ : BufTy).Contents (Elt F) → (⟨S50000x256, .f32⟩ : BufTy).Contents (Elt F)),
    StableHlo.unary main_arg7 main_v77 (broadcastInDim S1x256 ![1] bcast_S256_S1x256_1 : (⟨S256, .f32⟩ : BufTy).Contents (Elt F) → (⟨S1x256, .f32⟩ : BufTy).Contents (Elt F)),
    StableHlo.unary main_v77 main_v78 (broadcastInDim S50000x256 ![0, 1] bcast_S1x256_S50000x256_0_1 : (⟨S1x256, .f32⟩ : BufTy).Contents (Elt F) → (⟨S50000x256, .f32⟩ : BufTy).Contents (Elt F)),
    StableHlo.binary main_v76 main_v78 main_v79 (addf : (⟨S50000x256, .f32⟩ : BufTy).Contents (Elt F) → (⟨S50000x256, .f32⟩ : BufTy).Contents (Elt F) → (⟨S50000x256, .f32⟩ : BufTy).Contents (Elt F)) ]

/-- @main's operations, in order. -/
abbrev ops : List (HloOp τ sig (Elt F)) := opsA ++ opsB

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., binary_bufs_sub ..⟩

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., unary_bufs_sub ..,
    binary_bufs_sub ..⟩

theorem ops_sub : (ops : List (HloOp τ sig (Elt F))).Forall fun op => op.bufs ⊆ tcRefs τ sig :=
  forall_append opsA_sub opsB_sub

/-- Every operation of the line determines its result. -/
theorem ops_fresh : ∀ op ∈ (ops : List (HloOp τ sig (Elt F))), op.fresh = ∅ :=
  forall_mem_append
    (by intro _ h; (repeat (cases h with | head => rfl | tail _ h => ?_)); exact nomatch h)
    (by intro _ h; (repeat (cases h with | head => rfl | tail _ h => ?_)); exact nomatch h)

end Cert.ReferenceIdeal.RefVal

end
-- ==== Proof.RefRun.lean ====
/-
  The run of the reference's @main.

  `main_eq`: @main is the straight line `ops` of its host operations (the two printed windows in order, the
  module-local functions' bodies at their calls). `run_main`: from any memory with zero counters every weakly fair
  execution of @main terminates, and every buffer of the TensorCore ends at the fold of the operations over what the
  launch dealt it.
-/
import proofs.«168722_j46583215292646_2_alg».proof.Proof.RefOps

noncomputable section

namespace Cert.ReferenceIdeal.RefVal

open Cert.ReferenceIdeal Cert.ReferenceIdeal.Facts₀ Idealize.ShloMosaic Idealize.ShloMosaic.TcCoe
  Idealize.SL.Sem Idealize.ShloMosaic.StableHlo

variable {F : FTy → Type} [FloatOps F]
variable [Cert.ReferenceIdeal.Facts]

set_option maxRecDepth 8192 in
/-- The first window is the line `opsA`, by computation: sequencing grafts the rest of the line onto the leaf of each
    step (the free monad's bind is structural), a callee's definition unfolds at its call and its record at the record's
    fields, so both sides are the same chain of steps. -/
theorem main_part0_eq (c : Dev nD) : main_part0 (F := F) c = seq opsA := rfl

/-- The second window is the line `opsB`. -/
theorem main_part1_eq (c : Dev nD) : main_part1 (F := F) c = seq opsB := rfl

/-- @main is the two windows in order: the line `ops`. -/
theorem main_eq (c : Dev nD) : main (F := F) c = seq ops := by
  show main (F := F) c = seq (opsA ++ opsB)
  rw [seq_append, ← main_part0_eq c, ← main_part1_eq c]
  rfl

/-- At the compiled mesh, for any float values, from any memory with zero counters: every weakly fair execution of
    @main on the TensorCore terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefVal

end
-- ==== Proof.RefDefs.lean ====
/-
  The two-layer graph convolution of the reference program, written as vector-level terms.

  The edge list `ei : [2, 400000]` holds the sources in row 0 and the targets in row 1. Each row is flattened and one
  self-loop per node (the numbers 0 … 49999) is appended: 450000 endpoints. An endpoint column is used in two ways:

  * to LOOK a row UP, the endpoint is first wrapped (a negative word has 50000 added) and then made a column
    (`srcN`, `dstN`);
  * to ADD INTO a node, the raw target is made a column (`dstC`) with no wrapping.

  The degree `deg` adds a one into every edge's target; `dinv` is `1 / √deg` where `deg > 0` and zero elsewhere; the
  edge weight `norm` is the product of `dinv` at the two (wrapped) endpoints. One aggregation (`agg512`, `agg256`)
  looks the rows of a node matrix up at the sources, scales each by its edge's weight and adds it into the edge's target,
  starting from zeros. The hidden layer `hid` is the aggregation of `x · W1` plus the bias `b1`, through the leaky
  rectifier; an output head (`head`) is the aggregation of `hid · W` plus the bias `b`, and the two results `mu` and `ls`
  are that head at the two pairs of weights.

  Every definition is the composition of the operations in the order the program lists them, over the program's own
  shapes, shape relations and dimension-number records, for any float values `F`.
-/
import proofs.«168722_j46583215292646_2_alg».proof.ReferenceIdeal

noncomputable section

namespace Cert.ReferenceIdeal.RefVal

open Idealize.ShloMosaic Idealize.SL.Sem
open Cert.ReferenceIdeal Cert.ReferenceIdeal.Facts₀

variable {F : FTy → Type} [FloatOps F]
variable [Cert.ReferenceIdeal.Facts]

/-! ## The endpoints -/

/-- The sources: row 0 of the edge list, flattened, followed by the self-loops 0 … 49999 (`main_v3`). -/
def srcRow (ei : IVec S2x400000 32) : IVec S450000 32 :=
  concatenate S450000 0
    [⟨S400000, shapeCast S400000 (extractStridedSlice S1x400000 ![0, 0] ei slices_S2x400000_S1x400000_0_0)
        shapeCasts_S1x400000_S400000⟩,
     ⟨S50000, iotaInDim S50000 32 0⟩]
    concatenates_S400000_S50000_S450000_d0

/-- The targets: row 1 of the edge list, flattened, followed by the self-loops 0 … 49999 (`main_v6`). -/
def dstRow (ei : IVec S2x400000 32) : IVec S450000 32 :=
  concatenate S450000 0
    [⟨S400000, shapeCast S400000 (extractStridedSlice S1x400000 ![1, 0] ei slices_S2x400000_S1x400000_1_0)
        shapeCasts_S1x400000_S400000⟩,
     ⟨S50000, iotaInDim S50000 32 0⟩]
    concatenates_S400000_S50000_S450000_d0

/-- An endpoint vector prepared for a lookup: where the word is negative (signed) 50000 is added, and the vector is
    made a column (`main_v20`, `main_v37`, `main_v54`, `main_v70` from the sources, `main_v27` from the targets). -/
def wrap (v : IVec S450000 32) : IVec S450000x1 32 :=
  broadcastInDim S450000x1 ![0] bcast_S450000_S450000x1_0
    (select (cmpi .slt v (broadcastInDim S450000 ![] bcast_S_S450000 (constantI S_ 32 0#32)))
      (addi v (broadcastInDim S450000 ![] bcast_S_S450000 (constantI S_ 32 50000#32)))
      v)

/-- The sources, wrapped, as a column. -/
def srcN (ei : IVec S2x400000 32) : IVec S450000x1 32 := wrap (srcRow ei)

/-- The targets, wrapped, as a column. -/
def dstN (ei : IVec S2x400000 32) : IVec S450000x1 32 := wrap (dstRow ei)

/-- The raw targets as a column: the scatter index of every accumulation (`main_v9`, `main_v42`, `main_v59`,
    `main_v75`). -/
def dstC (ei : IVec S2x400000 32) : IVec S450000x1 32 :=
  broadcastInDim S450000x1 ![0] bcast_S450000_S450000x1_0 (dstRow ei)

/-! ## The weights -/

/-- The degree: a one added into every edge's target, starting from zeros (`main_v10`). -/
def deg (ei : IVec S2x400000 32) : FVec F S50000 .f32 :=
  Host.scatterAdd scatter_S50000_S450000x1_S450000_n_0_0_1
    (broadcastInDim S50000 ![] bcast_S_S50000 (constant (F := F) S_ .f32 0x00000000#32))
    (dstC ei)
    (broadcastInDim S450000 ![] bcast_S_S450000 (constant (F := F) S_ .f32 0x3F800000#32))

/-- The node weight: `1 / √deg` where `deg > 0`, zero elsewhere (`main_v14`). -/
def dinv (ei : IVec S2x400000 32) : FVec F S50000 .f32 :=
  select (cmpf .ogt (deg (F := F) ei) (broadcastInDim S50000 ![] bcast_S_S50000 (constant (F := F) S_ .f32 0x00000000#32)))
    (Host.rsqrt (deg (F := F) ei))
    (broadcastInDim S50000 ![] bcast_S_S50000 (id (constant (F := F) S_ .f32 0x00000000#32)))

/-- The edge weight: the node weight at the wrapped source times the node weight at the wrapped target, as a column
    (`main_v30`). -/
def norm (ei : IVec S2x400000 32) : FVec F S450000x1 .f32 :=
  broadcastInDim S450000x1 ![0] bcast_S450000_S450000x1_0
    (mulf (Host.gather gather_S50000_S450000x1_S450000_n_0_n_n_0_1_1 (dinv (F := F) ei) (srcN ei))
      (Host.gather gather_S50000_S450000x1_S450000_n_0_n_n_0_1_1 (dinv (F := F) ei) (dstN ei)))

/-! ## One aggregation -/

/-- The rows of a 512-wide node matrix `h` looked up at the column `sN`, each scaled by its edge's weight `nrm`, added
    into the node its column `dC` names, starting from zeros (`main_v43`). -/
def agg512 (h : FVec F S50000x512 .f32) (sN : IVec S450000x1 32) (nrm : FVec F S450000x1 .f32) (dC : IVec S450000x1 32) :
    FVec F S50000x512 .f32 :=
  Host.scatterAdd scatter_S50000x512_S450000x1_S450000x512_1_0_0_1
    (broadcastInDim S50000x512 ![] bcast_S_S50000x512 (constant (F := F) S_ .f32 0x00000000#32))
    dC
    (mulf (Host.gather gather_S50000x512_S450000x1_S450000x512_1_0_n_n_0_1_1512 h sN)
      (broadcastInDim S450000x512 ![0, 1] bcast_S450000x1_S450000x512_0_1 nrm))

/-- The same for a 256-wide node matrix (`main_v60`, `main_v76`). -/
def agg256 (h : FVec F S50000x256 .f32) (sN : IVec S450000x1 32) (nrm : FVec F S450000x1 .f32) (dC : IVec S450000x1 32) :
    FVec F S50000x256 .f32 :=
  Host.scatterAdd scatter_S50000x256_S450000x1_S450000x256_1_0_0_1
    (broadcastInDim S50000x256 ![] bcast_S_S50000x256 (constant (F := F) S_ .f32 0x00000000#32))
    dC
    (mulf (Host.gather gather_S50000x256_S450000x1_S450000x256_1_0_n_n_0_1_1256 h sN)
      (broadcastInDim S450000x256 ![0, 1] bcast_S450000x1_S450000x256_0_1 nrm))

/-! ## The network -/

/-- The leaky rectifier, entrywise: `a` where `a ≥ 0`, the slope word `0x3C23D70A` times `a` elsewhere. -/
def leaky (a : FVec F S50000x512 .f32) : FVec F S50000x512 .f32 :=
  select (cmpf .oge a (broadcastInDim S50000x512 ![] bcast_S_S50000x512 (constant (F := F) S_ .f32 0x00000000#32)))
    a
    (mulf (broadcastInDim S50000x512 ![] bcast_S_S50000x512 (constant (F := F) S_ .f32 0x3C23D70A#32)) a)

/-- The first layer before the rectifier: `x · W1` aggregated, plus the bias spread over the rows (`main_v46`). -/
def pre1 (x : FVec F S50000x512 .f32) (ei : IVec S2x400000 32) (W1 : FVec F S512x512 .f32) (b1 : FVec F S512 .f32) :
    FVec F S50000x512 .f32 :=
  addf
    (agg512 (Host.dotGeneral dot_S50000x512_S512x512_S50000x512_1_0_0_1_n_n none x W1) (srcN ei) (norm (F := F) ei)
      (dstC ei))
    (broadcastInDim S50000x512 ![0, 1] bcast_S1x512_S50000x512_0_1 (broadcastInDim S1x512 ![1] bcast_S512_S1x512_1 b1))

/-- The hidden layer (`main_v47`). -/
def hid (x : FVec F S50000x512 .f32) (ei : IVec S2x400000 32) (W1 : FVec F S512x512 .f32) (b1 : FVec F S512 .f32) :
    FVec F S50000x512 .f32 :=
  leaky (pre1 x ei W1 b1)

/-- An output head over a hidden layer `h`: `h · W` aggregated, plus the bias spread over the rows. -/
def head (h : FVec F S50000x512 .f32) (ei : IVec S2x400000 32) (W : FVec F S512x256 .f32) (b : FVec F S256 .f32) :
    FVec F S50000x256 .f32 :=
  addf
    (agg256 (Host.dotGeneral dot_S50000x512_S512x256_S50000x256_1_0_0_1_n_n none h W) (srcN ei) (norm (F := F) ei)
      (dstC ei))
    (broadcastInDim S50000x256 ![0, 1] bcast_S1x256_S50000x256_0_1 (broadcastInDim S1x256 ![1] bcast_S256_S1x256_1 b))

/-- The first result (`main_v63`). -/
def mu (x : FVec F S50000x512 .f32) (ei : IVec S2x400000 32) (W1 : FVec F S512x512 .f32) (b1 : FVec F S512 .f32)
    (Wmu : FVec F S512x256 .f32) (bmu : FVec F S256 .f32) : FVec F S50000x256 .f32 :=
  head (hid x ei W1 b1) ei Wmu bmu

/-- The second result (`main_v79`). -/
def ls (x : FVec F S50000x512 .f32) (ei : IVec S2x400000 32) (W1 : FVec F S512x512 .f32) (b1 : FVec F S512 .f32)
    (Wls : FVec F S512x256 .f32) (bls : FVec F S256 .f32) : FVec F S50000x256 .f32 :=
  head (hid x ei W1 b1) ei Wls bls

end Cert.ReferenceIdeal.RefVal

end
-- ==== Proof.RefValue.lean ====
/-
  What the reference's @main leaves in its result buffers, and its run in final form.

  Folding @main's operations over any buffer contents `V` leaves, at the first result's buffer, the two-layer graph
  convolution's mean head `mu` of the contents of the argument buffers, and at the second result's its log-deviation
  head `ls`; and it leaves each argument buffer as it was. Each is a computation: the fold is unrolled, each
  operation's result is read at its own result buffer as its function of the operand buffers' contents and at any other
  buffer as what was there; what is left is the composition of the operations' functions in the program's order, which
  is how `mu` and `ls` are written. The lookups, the accumulations and the inverse square root are kept folded
  meanwhile: the equations never look inside them.

  `run_values`: at the real-number reading of the floats, from any memory with zero counters, every weakly fair
  execution of @main terminates with `mu` and `ls` of the arguments' launch contents in the two result buffers and the
  eight arguments unchanged.
-/
import proofs.«168722_j46583215292646_2_alg».proof.Proof.RefRun
import proofs.«168722_j46583215292646_2_alg».proof.Proof.RefDefs
import Idealize.ShloMosaic.PureOps.Ideal

noncomputable section

namespace Cert.ReferenceIdeal.RefVal

open Cert.ReferenceIdeal Cert.ReferenceIdeal.Facts₀ Idealize.ShloMosaic Idealize.ShloMosaic.TcCoe
  Idealize.SL.Sem Idealize.ShloMosaic.StableHlo

variable {F : FTy → Type} [FloatOps F]
variable [Cert.ReferenceIdeal.Facts]

attribute [local irreducible] Host.gather Host.scatterAdd Host.rsqrt

set_option maxRecDepth 8192 in
set_option maxHeartbeats 1600000 in
/-- The first result: the mean head of the arguments' contents. -/
theorem mu_eq (V : Valuation τ sig (Elt F)) :
    after ops V (main_v63 : DevRef τ sig)
      = mu (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  show after (opsA ++ opsB) V _ = _
  rw [after_append]
  after_results_simp
  rfl

set_option maxRecDepth 8192 in
set_option maxHeartbeats 1600000 in
/-- The second result: the log-deviation head of the arguments' contents. -/
theorem ls_eq (V : Valuation τ sig (Elt F)) :
    after ops V (main_v79 : DevRef τ sig)
      = ls (V (main_arg0 : DevRef τ sig)) (V (main_arg1 : DevRef τ sig)) (V (main_arg2 : DevRef τ sig))
          (V (main_arg3 : DevRef τ sig)) (V (main_arg6 : DevRef τ sig)) (V (main_arg7 : DevRef τ sig)) := by
  show after (opsA ++ opsB) V _ = _
  rw [after_append]
  after_results_simp
  rfl

/-- Argument 0 is kept: no operation writes its buffer. -/
theorem arg0_eq (V : Valuation τ sig (Elt F)) :
    after ops V (main_arg0 : DevRef τ sig) = V (main_arg0 : DevRef τ sig) := by
  show after (opsA ++ opsB) V _ = _
  rw [after_append]
  after_results_simp

/-- Argument 1 is kept: no operation writes its buffer. -/
theorem arg1_eq (V : Valuation τ sig (Elt F)) :
    after ops V (main_arg1 : DevRef τ sig) = V (main_arg1 : DevRef τ sig) := by
  show after (opsA ++ opsB) V _ = _
  rw [after_append]
  after_results_simp

/-- Argument 2 is kept: no operation writes its buffer. -/
theorem arg2_eq (V : Valuation τ sig (Elt F)) :
    after ops V (main_arg2 : DevRef τ sig) = V (main_arg2 : DevRef τ sig) := by
  show after (opsA ++ opsB) V _ = _
  rw [after_append]
  after_results_simp

/-- Argument 3 is kept: no operation writes its buffer. -/
theorem arg3_eq (V : Valuation τ sig (Elt F)) :
    after ops V (main_arg3 : DevRef τ sig) = V (main_arg3 : DevRef τ sig) := by
  show after (opsA ++ opsB) V _ = _
  rw [after_append]
  after_results_simp

/-- Argument 4 is kept: no operation writes its buffer. -/
theorem arg4_eq (V : Valuation τ sig (Elt F)) :
    after ops V (main_arg4 : DevRef τ sig) = V (main_arg4 : DevRef τ sig) := by
  show after (opsA ++ opsB) V _ = _
  rw [after_append]
  after_results_simp

/-- Argument 5 is kept: no operation writes its buffer. -/
theorem arg5_eq (V : Valuation τ sig (Elt F)) :
    after ops V (main_arg5 : DevRef τ sig) = V (main_arg5 : DevRef τ sig) := by
  show after (opsA ++ opsB) V _ = _
  rw [after_append]
  after_results_simp

/-- Argument 6 is kept: no operation writes its buffer. -/
theorem arg6_eq (V : Valuation τ sig (Elt F)) :
    after ops V (main_arg6 : DevRef τ sig) = V (main_arg6 : DevRef τ sig) := by
  show after (opsA ++ opsB) V _ = _
  rw [after_append]
  after_results_simp

/-- Argument 7 is kept: no operation writes its buffer. -/
theorem arg7_eq (V : Valuation τ sig (Elt F)) :
    after ops V (main_arg7 : DevRef τ sig) = V (main_arg7 : DevRef τ sig) := by
  show after (opsA ++ opsB) V _ = _
  rw [after_append]
  after_results_simp

/-- At the compiled mesh, at the real-number reading of the floats, from any memory with zero counters: every weakly
    fair execution of @main terminates with the mean head and the log-deviation head of the arguments' launch contents
    in the two result buffers, and the eight arguments unchanged. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63)
          = mu (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_v79)
          = ls (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v63).trans (mu_eq _), (h c main_v79).trans (ls_eq _),
        (h c main_arg0).trans (arg0_eq _), (h c main_arg1).trans (arg1_eq _), (h c main_arg2).trans (arg2_eq _), (h c main_arg3).trans (arg3_eq _),
        (h c main_arg4).trans (arg4_eq _), (h c main_arg5).trans (arg5_eq _), (h c main_arg6).trans (arg6_eq _), (h c main_arg7).trans (arg7_eq _)⟩)
    (run_main m ρ)

end Cert.ReferenceIdeal.RefVal

end
-- ==== Proof.LibGraphSum.lean ====
/-
  Sums over the edges into a node, on the extended reals.

  * A factor `D` with `0 ≤ D` and `D ≠ ⊤` distributes over any finite sum of extended reals — infinite summands of both
    signs included: multiplying by such a factor keeps every sign, so no `⊤ + ⊥` is created or destroyed.
  * Hence a sum of messages `h e · (d e · D' e)` whose second weight `D' e` is one and the same `D` for every edge of the sum
    is the sum of the messages `h e · d e`, times `D`: the normalisation by the target's degree may be applied per edge or
    once per node.
  * `1/√(max x 1)` is such a factor for EVERY extended real `x` (it is `0` at `x = ⊤`, and `(√r)⁻¹` with `r ≥ 1` otherwise).
-/
import Mathlib.Data.EReal.Operations
import Mathlib.Data.EReal.Inv
import Idealize.ShloMosaic.PureOps.Ideal

open scoped BigOperators
open Idealize.ShloMosaic

noncomputable section

namespace Cert.LibGraphSum

/-- A nonnegative factor other than `⊤` distributes over a finite sum of extended reals. -/
theorem sum_mul_of_nonneg_of_ne_top {ι : Type*} (S : Finset ι) (f : ι → EReal) {D : EReal} (h0 : 0 ≤ D) (ht : D ≠ ⊤) :
    (∑ e ∈ S, f e) * D = ∑ e ∈ S, f e * D := by
  classical
  refine Finset.induction_on S (by simp) (fun a S ha ih => ?_)
  rw [Finset.sum_insert ha, Finset.sum_insert ha, EReal.right_distrib_of_nonneg_of_ne_top h0 ht, ih]

/-- Messages weighted per edge by `d e · D' e`, the second weight being the same `D` on every edge of the sum: the sum is
    the sum of the messages weighted by `d e` alone, times `D`. (Both sums start from `0`, as a scatter into zeros does.) -/
theorem weighted_sum_factor {ι : Type*} (S : Finset ι) (h d D' : ι → EReal) {D : EReal} (h0 : 0 ≤ D) (ht : D ≠ ⊤)
    (hD : ∀ e ∈ S, D' e = D) :
    0 + ∑ e ∈ S, h e * (d e * D' e) = (0 + ∑ e ∈ S, h e * d e) * D := by
  rw [zero_add, zero_add, sum_mul_of_nonneg_of_ne_top S _ h0 ht]
  refine Finset.sum_congr rfl fun e he => ?_
  rw [hD e he, mul_assoc]

/-- `1/√r` of a real `r ≥ 1` is a nonnegative real. -/
theorem rsqrt_coe_of_one_le (r : ℝ) (hr : 1 ≤ r) :
    0 ≤ Ideal.rsqrt ((r : ℝ) : EReal) ∧ Ideal.rsqrt ((r : ℝ) : EReal) ≠ ⊤ := by
  have hr0 : ¬ r < 0 := by linarith
  have hr1 : ¬ r = 0 := fun h => by rw [h] at hr; norm_num at hr
  rw [Ideal.rsqrt_coe, if_neg hr0, if_neg hr1]
  exact ⟨EReal.coe_nonneg.mpr (inv_nonneg.mpr (Real.sqrt_nonneg r)), EReal.coe_ne_top _⟩

/-- `1/√(max x 1)` is nonnegative and not `⊤`, whatever the extended real `x`. -/
theorem rsqrt_max_one (x : EReal) : 0 ≤ Ideal.rsqrt (max x 1) ∧ Ideal.rsqrt (max x 1) ≠ ⊤ := by
  induction x using EReal.rec with
  | bot =>
    rw [max_eq_right bot_le, ← EReal.coe_one]
    exact rsqrt_coe_of_one_le 1 le_rfl
  | coe r =>
    rcases le_total ((r : ℝ) : EReal) 1 with h | h
    · rw [max_eq_right h, ← EReal.coe_one]
      exact rsqrt_coe_of_one_le 1 le_rfl
    · rw [max_eq_left h]
      exact rsqrt_coe_of_one_le r (by exact_mod_cast h)
  | top =>
    rw [max_eq_left le_top, Ideal.rsqrt_top]
    exact ⟨le_rfl, EReal.zero_ne_top⟩

end Cert.LibGraphSum

end
-- ==== Proof.Spec.lean ====
/-
  A two-layer graph convolution, written once, index by index, on the extended reals.

  Nodes are `Fin 50000`; the edge list has 450000 entries (the given edges followed by one self-loop per node). An
  edge's endpoint is stored in a column of 32-bit words. Looking a ROW up at an endpoint reads the word as a signed integer
  and clamps it into the node range (`node`); ADDING INTO a node only happens for the edges whose target word, read as a
  signed integer, is exactly that node (`into`): the other edges are dropped.

  One aggregation of a node-indexed column `g` with symmetric weights `D` can be written two ways:

  * `aggK`: scale every node's value by its own weight, add up over the edges into `n`, scale the sum by `D n`;
  * `aggR`: weight each edge's message by the product of its two endpoints' weights, and add up.

  They agree whenever every weight is nonnegative and not `⊤` and the target looked up for the weight is the target added
  into (`aggK_eq_aggR`): a nonnegative finite factor distributes over ANY finite sum of extended reals, so nothing
  need be known about the summands.

  The network (`out`) is: first layer `x · W1`, aggregated, plus a bias, through the leaky rectifier; second layer a
  product with one column of weights, aggregated, plus that column's bias. It is stated over an arbitrary aggregation,
  so the two spellings of the aggregation give the same network.
-/
import Idealize.ShloMosaic.PureOps.Ideal
import Idealize.ShloMosaic.Lib.ValueIdx
import proofs.«168722_j46583215292646_2_alg».proof.Proof.LibGraphSum

open scoped BigOperators
open Idealize.ShloMosaic Idealize.ShloMosaic.ValueIdx

noncomputable section

namespace Cert.Gcn

/-- A column of edge endpoints: one 32-bit word per edge. -/
abbrev Col : Type := IVec (⟨2, ![450000, 1]⟩ : Shape) 32

/-- A signed word clamped into `[0, N - 1]`, as an index below `N`. -/
def clampIdx {N : Nat} (hN : 0 < N) (w : BitVec 32) : Fin N := ⟨min w.toInt.toNat (N - 1), by omega⟩

theorem nodes_pos : 0 < 50000 := by norm_num

/-- The node a row lookup at edge `e`'s endpoint reads: the word as a signed integer, clamped into the node range. -/
def node (col : Col) (e : Fin 450000) : Fin 50000 := clampIdx nodes_pos (col (ix2 e (0 : Fin 1)))

/-- The edges whose endpoint word, read as a signed integer, is exactly node `n`. -/
def into (col : Col) (n : Fin 50000) : Finset (Fin 450000) :=
  Finset.univ.filter fun e => (col (ix2 e (0 : Fin 1))).toInt = (n.val : Int)

/-- Node-wise spelling: scale by the source's weight, add up over the edges into `n`, scale by `n`'s weight. -/
def aggK (D : Fin 50000 → EReal) (src dst : Col) (g : Fin 50000 → EReal) (n : Fin 50000) : EReal :=
  D n * (0 + ∑ e ∈ into dst n, D (node src e) * g (node src e))

/-- Edge-wise spelling: each message weighted by the product of its endpoints' weights (the target's weight looked up
    at `dstN`), added up over the edges into `n` (`dstC`). -/
def aggR (D : Fin 50000 → EReal) (srcN dstN dstC : Col) (g : Fin 50000 → EReal) (n : Fin 50000) : EReal :=
  0 + ∑ e ∈ into dstC n, g (node srcN e) * (D (node srcN e) * D (node dstN e))

/-- The two spellings agree when the weights are nonnegative and not `⊤`, and an edge added into `n` looks its target
    weight up at `n`. -/
theorem aggK_eq_aggR (D : Fin 50000 → EReal) (srcN dstN dstC : Col) (h0 : ∀ n, 0 ≤ D n) (ht : ∀ n, D n ≠ ⊤)
    (hdst : ∀ n, ∀ e ∈ into dstC n, node dstN e = n) :
    aggK D srcN dstC = aggR D srcN dstN dstC := by
  funext g n
  unfold aggK aggR
  rw [Cert.LibGraphSum.weighted_sum_factor (into dstC n) (fun e => g (node srcN e)) (fun e => D (node srcN e))
    (fun e => D (node dstN e)) (h0 n) (ht n) (fun e he => by rw [hdst n e he]), mul_comm (D n)]
  refine congrArg (fun s => (0 + s) * D n) ?_
  exact Finset.sum_congr rfl fun e _ => mul_comm _ _

/-- The leaky rectifier with the slope word `0x3C23D70A`: `v` where `v ≥ 0`, the slope times `v` elsewhere. -/
def leaky (v : EReal) : EReal :=
  Scalar.select (Ideal.cmp .oge v (Ideal.ofBits .f32 0x00000000#32)) v (Ideal.ofBits .f32 0x3C23D70A#32 * v)

/-- The hidden layer at node `r`, feature `k`: column `k` of `x · W1`, aggregated, plus the bias, rectified. -/
def hidden (agg : (Fin 50000 → EReal) → Fin 50000 → EReal) (x : Fin 50000 → Fin 512 → EReal)
    (W1 : Fin 512 → Fin 512 → EReal) (b1 : Fin 512 → EReal) (r : Fin 50000) (k : Fin 512) : EReal :=
  leaky (agg (fun r' => ∑ j : Fin 512, x r' j * W1 j k) r + b1 k)

/-- One output column at node `n`: the hidden layer times the column's weights, aggregated, plus the column's bias. -/
def out (agg : (Fin 50000 → EReal) → Fin 50000 → EReal) (x : Fin 50000 → Fin 512 → EReal)
    (W1 : Fin 512 → Fin 512 → EReal) (b1 : Fin 512 → EReal) (wcol : Fin 512 → EReal) (bias : EReal) (n : Fin 50000) : EReal :=
  agg (fun r => ∑ k : Fin 512, hidden agg x W1 b1 r k * wcol k) n + bias

end Cert.Gcn

end
-- ==== Proof.LibScatterRows.lean ====
/-
  The accumulating scatter at the extended reals, read at one index, for the two dimension-number patterns of a
  segment sum, every extent a variable.

  ROWS: operand `[N, H]`, scatter indices `[E, 1]`, updates `[E, H]`, the updates' window axis `1`, the operand's
  inserted axis `0`, the scatter index naming operand axis `0`, the index vector on axis `1`. Update `(e, c)` lands
  at row `idx[e, 0]` (read signed), column `c`, and is dropped when that row is outside `[0, N)`
  (`rows_resultIdx?_iff`); so the result at `(n, c)` is the operand's element plus the sum of `upd (e, c)` over the
  `e` whose index is `n` (`scatterRows_apply`).

  VECTOR: operand `[N]`, scatter indices `[E, 1]`, updates `[E]`, no window axis. Update `e` lands at `idx[e, 0]`
  (`vec_resultIdx?_iff`); the result at `n` is the operand's element plus the sum of `upd e` over the same set of
  `e` (`scatterVec_apply`).

  Both rest on one general fact: an update lands at `i` exactly when start plus window coordinate is `i`'s
  coordinate on every operand axis (`resultIdx?_eq_some_iff`).
-/
import Idealize.ShloMosaic.PureOps.Ideal
import Idealize.ShloMosaic.Lib.ValueIdx

open scoped BigOperators
open Idealize.ShloMosaic Idealize.ShloMosaic.ValueIdx

noncomputable section

namespace Cert.LibScatterRows

/-- An update lands at operand index `i` exactly when, on every operand axis, its window's start plus its window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      rw [← hi]
      simp only
      omega
    · intro hi
      funext a
      apply Fin.ext
      have h1 := h a
      have h2 := hi a
      simp only
      omega
  · rename_i h
    constructor
    · intro hn; exact absurd hn (by simp)
    · intro hi
      exfalso
      apply h
      intro a
      have h2 := hi a
      have h3 := (i a).isLt
      omega

variable (N E H : Nat)

/-- The row scatter's dimension numbers. -/
abbrev rowDims (hwf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ := ⟨[1], [0], [0], 1, hwf⟩

/-- A dependent index read at an axis equal to `a` has the value read at `a`. -/
theorem idx_val_congr {s : Shape} (j : s.Idx) {a b : Fin s.rank} (h : a = b) : (j a).val = (j b).val := by
  subst h; rfl

/-- A row update reads its scatter index at its own row, component `0`. -/
theorem rows_siIdx (hwf) (e : Fin E) (c' : Fin H) (c) :
    (rowDims N E H hwf).siIdx (ix2 e c') c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix2 e c') rfl
  | ⟨1, _⟩ =>
    apply Fin.ext
    simp only [ScatterDims.siIdx]
    rw [dif_pos trivial]
    have := c.isLt
    simp only [List.length_singleton] at this
    show c.val = 0
    omega

/-- On the row axis a row update's window starts at its scatter index, read signed. -/
theorem rows_start0 {w : Nat} (hwf) (e : Fin E) (c' : Fin H) (idx : IVec ⟨2, ![E, 1]⟩ w) :
    (rowDims N E H hwf).start (ix2 e c') idx (0 : Fin 2) = (idx (ix2 e (0 : Fin 1))).toInt := by
  unfold ScatterDims.start
  rw [dif_pos (show (0 : Fin 2) ∈ [(0 : Fin 2)] by decide)]
  rw [rows_siIdx]

/-- On the column axis a row update's window starts at `0`. -/
theorem rows_start1 {w : Nat} (hwf) (e : Fin E) (c' : Fin H) (idx : IVec ⟨2, ![E, 1]⟩ w) :
    (rowDims N E H hwf).start (ix2 e c') idx (1 : Fin 2) = 0 := by
  unfold ScatterDims.start
  rw [dif_neg (show (1 : Fin 2) ∉ [(0 : Fin 2)] by decide)]

/-- A row update has no window coordinate on the (inserted) row axis. -/
theorem rows_window0 (hwf) (e : Fin E) (c' : Fin H) :
    (rowDims N E H hwf).window (ix2 e c') (0 : Fin 2) = 0 := by
  unfold ScatterDims.window
  have h : (0 : Fin 2) ∉ (rowDims N E H hwf).sKept := (show (0 : Fin 2) ∉ [(1 : Fin 2)] by decide)
  rw [dif_neg h]

/-- A row update's window coordinate on the column axis is its own column. -/
theorem rows_window1 (hwf) (e : Fin E) (c' : Fin H) :
    (rowDims N E H hwf).window (ix2 e c') (1 : Fin 2) = c'.val := by
  unfold ScatterDims.window
  have h : (1 : Fin 2) ∈ (rowDims N E H hwf).sKept := (show (1 : Fin 2) ∈ [(1 : Fin 2)] by decide)
  rw [dif_pos h]
  exact idx_val_congr (ix2 e c') rfl

/-- A row update lands at row `n`, column `c` exactly when its scatter index, read signed, is `n` and its own
    column is `c`. -/
theorem rows_resultIdx?_iff {w : Nat} (hwf) (idx : IVec ⟨2, ![E, 1]⟩ w) (e : Fin E) (c' c : Fin H) (n : Fin N) :
    (rowDims N E H hwf).resultIdx? (ix2 e c') idx = some (ix2 n c)
      ↔ (idx (ix2 e (0 : Fin 1))).toInt = (n.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    change _ = (n.val : Int) at h0
    change _ = (c.val : Int) at h1
    exact ⟨by omega, Fin.ext (by omega)⟩
  · rintro ⟨h0, rfl⟩ a
    match a with
    | ⟨0, _⟩ =>
      show (rowDims N E H hwf).start (ix2 e c') idx (0 : Fin 2) + ((rowDims N E H hwf).window (ix2 e c') (0 : Fin 2) : Int)
        = (n.val : Int)
      rw [rows_start0, rows_window0]; omega
    | ⟨1, _⟩ =>
      show (rowDims N E H hwf).start (ix2 e c') idx (1 : Fin 2) + ((rowDims N E H hwf).window (ix2 e c') (1 : Fin 2) : Int)
        = (c'.val : Int)
      rw [rows_start1, rows_window1]; omega

/-- The row scatter read at row `n`, column `c`: the operand's element plus the sum, over the updates whose scatter
    index (read signed) is `n`, of their column-`c` elements. -/
theorem scatterRows_apply {w : Nat} (hwf : ScatterDims.WF ⟨2, ![N, H]⟩ ⟨2, ![E, 1]⟩ ⟨2, ![E, H]⟩ [1] [0] [0] 1)
    (x : (⟨2, ![N, H]⟩ : Shape).Idx → EReal) (idx : IVec ⟨2, ![E, 1]⟩ w) (upd : (⟨2, ![E, H]⟩ : Shape).Idx → EReal)
    (n : Fin N) (c : Fin H) :
    Ideal.hostScatterAdd (⟨[1], [0], [0], 1, hwf⟩ : ScatterDims ⟨2, ![N, H]⟩ ⟨2, ![E, 1]⟩ ⟨2, ![E, H]⟩) x idx upd (ix2 n c)
      = x (ix2 n c) + ∑ e ∈ Finset.univ.filter (fun e : Fin E => (idx (ix2 e (0 : Fin 1))).toInt = (n.val : Int)),
          upd (ix2 e c) := by
  show Ideal.hostScatterAdd (rowDims N E H hwf) x idx upd (ix2 n c) = _
  unfold Ideal.hostScatterAdd
  congr 1
  rw [Finset.sum_filter, sum_idx2, Finset.sum_filter]
  refine Finset.sum_congr rfl (fun e _ => ?_)
  by_cases h : (idx (ix2 e (0 : Fin 1))).toInt = (n.val : Int)
  · rw [if_pos h, Finset.sum_eq_single c]
    · rw [if_pos ((rows_resultIdx?_iff N E H hwf idx e c c n).2 ⟨h, rfl⟩)]
    · intro c' _ hc'
      rw [if_neg (fun hh => hc' ((rows_resultIdx?_iff N E H hwf idx e c' c n).1 hh).2)]
    · intro hc; exact absurd (Finset.mem_univ c) hc
  · rw [if_neg h]
    refine Finset.sum_eq_zero (fun c' _ => ?_)
    rw [if_neg (fun hh => h ((rows_resultIdx?_iff N E H hwf idx e c' c n).1 hh).1)]

/-- The vector scatter's dimension numbers. -/
abbrev vecDims (hwf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, hwf⟩

/-- A vector update reads its scatter index at its own position, component `0`. -/
theorem vec_siIdx (hwf) (e : Fin E) (c) :
    (vecDims N E hwf).siIdx (ix1 e) c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix1 e) rfl
  | ⟨1, _⟩ =>
    apply Fin.ext
    simp only [ScatterDims.siIdx]
    rw [dif_pos trivial]
    have := c.isLt
    simp only [List.length_singleton] at this
    show c.val = 0
    omega

/-- A vector update's window starts at its scatter index, read signed. -/
theorem vec_start0 {w : Nat} (hwf) (e : Fin E) (idx : IVec ⟨2, ![E, 1]⟩ w) :
    (vecDims N E hwf).start (ix1 e) idx (0 : Fin 1) = (idx (ix2 e (0 : Fin 1))).toInt := by
  unfold ScatterDims.start
  rw [dif_pos (show (0 : Fin 1) ∈ [(0 : Fin 1)] by decide)]
  rw [vec_siIdx]

/-- A vector update has no window coordinate on the one (inserted) axis. -/
theorem vec_window0 (hwf) (e : Fin E) :
    (vecDims N E hwf).window (ix1 e) (0 : Fin 1) = 0 := by
  unfold ScatterDims.window
  have h : (0 : Fin 1) ∉ (vecDims N E hwf).sKept := (show (0 : Fin 1) ∉ ([] : List (Fin 1)) by decide)
  rw [dif_neg h]

/-- A vector update lands at position `n` exactly when its scatter index, read signed, is `n`. -/
theorem vec_resultIdx?_iff {w : Nat} (hwf) (idx : IVec ⟨2, ![E, 1]⟩ w) (e : Fin E) (n : Fin N) :
    (vecDims N E hwf).resultIdx? (ix1 e) idx = some (ix1 n)
      ↔ (idx (ix2 e (0 : Fin 1))).toInt = (n.val : Int) := by
  rw [resultIdx?_eq_some_iff]
  constructor
  · intro h
    have h0 := h (0 : Fin 1)
    rw [vec_start0, vec_window0] at h0
    change _ = (n.val : Int) at h0
    omega
  · intro h0 a
    match a with
    | ⟨0, _⟩ =>
      show (vecDims N E hwf).start (ix1 e) idx (0 : Fin 1) + ((vecDims N E hwf).window (ix1 e) (0 : Fin 1) : Int)
        = (n.val : Int)
      rw [vec_start0, vec_window0]; omega

/-- A sum over a rank-1 index set is the sum over its coordinate. -/
theorem sum_idx1 {M : Type*} [AddCommMonoid M] {n0 : Nat} (f : (⟨1, ![n0]⟩ : Shape).Idx → M) :
    ∑ i, f i = ∑ a : Fin n0, f (ix1 a) := by
  refine Fintype.sum_equiv ⟨fun i => i 0, fun a => ix1 a, fun i => (eq_ix1 i).symm, fun _ => rfl⟩ _ _ (fun i => ?_)
  exact congrArg f (eq_ix1 i)

/-- The vector scatter read at position `n`: the operand's element plus the sum of the updates whose scatter index
    (read signed) is `n`. -/
theorem scatterVec_apply {w : Nat} (hwf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (⟨[], [0], [0], 1, hwf⟩ : ScatterDims ⟨1, ![N]⟩ ⟨2, ![E, 1]⟩ ⟨1, ![E]⟩) x idx upd (ix1 n)
      = x (ix1 n) + ∑ e ∈ Finset.univ.filter (fun e : Fin E => (idx (ix2 e (0 : Fin 1))).toInt = (n.val : Int)),
          upd (ix1 e) := by
  show Ideal.hostScatterAdd (vecDims N E hwf) x idx upd (ix1 n) = _
  unfold Ideal.hostScatterAdd
  congr 1
  rw [Finset.sum_filter, sum_idx1, Finset.sum_filter]
  refine Finset.sum_congr rfl (fun e _ => ?_)
  by_cases h : (idx (ix2 e (0 : Fin 1))).toInt = (n.val : Int)
  · rw [if_pos h, if_pos ((vec_resultIdx?_iff N E hwf idx e n).2 h)]
  · rw [if_neg h, if_neg (fun hh => h ((vec_resultIdx?_iff N E hwf idx e n).1 hh))]

end Cert.LibScatterRows
-- ==== Proof.LibGatherRows.lean ====
/-
  Looking whole rows of a matrix up at a column of indices, read at one position.

  `x[idx]` for a matrix `x : [N, D]` and an integer vector `idx : [R]` is lowered to a gather whose start indices are the
  vector written as a column `[R, 1]` (the index vector lies along axis 1), with the operand's row axis collapsed, its
  column axis the result's offset axis, and a slice of one whole row. Result entry `(t, j)` is `x` at the row
  `idx[t, 0]` — read as a signed integer and clamped into `[0, N - 1]`, as the gather clamps every start index — and at
  the column `j`. This is the rank-2 companion of the library's reading of a gather of a flat array
  (`ValueIdx.gather_take_apply`), proved the same way, one operand axis at a time.
-/
import Idealize.ShloMosaic.Lib.ValueIdx

noncomputable section

namespace Cert.LibGatherRows

open Idealize.ShloMosaic Idealize.ShloMosaic.ValueIdx

variable {α : Type}

/-- The dimension numbers of that gather for an operand `[N, D]`, start indices `[R, 1]` and a result `[R, D]`. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices position `[t, 0]` of result position `(t, j)`. -/
abbrev rowIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The gather read at `(t, j)`: the operand at the row `idx[t, 0]`, read signed and clamped into `[0, N - 1]`, and at
    the column `j`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowDims N D R wf) x idx y
      = x (ix2 ⟨min (idx (rowIdx y)).toInt.toNat (N - 1), by omega⟩ ⟨(y 1).val, idx2_lt1 y⟩) := by
  unfold Host.gather
  congr 1
  funext a
  refine Fin.ext ?_
  match a with
  | ⟨0, _⟩ =>
    show (rowDims N D R wf).start y idx 0 + (rowDims N D R wf).batchCoord y 0 + (rowDims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx y ⟨List.idxOf (0 : Fin 2) (rowDims N D R wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowDims N D R wf).start y idx 1 + (rowDims N D R wf).batchCoord y 1 + (rowDims N D R wf).offCoord y 1 = (y 1).val
    have h1 : (1 : Fin 2) ∉ (rowDims N D R wf).startIndexMap := show (1 : Fin 2) ∉ [(0 : Fin 2)] from by decide
    have hk : (1 : Fin 2) ∈ (rowDims N D R wf).sKept :=
      (GatherDims.mem_sKept _ _).mpr ⟨show (1 : Fin 2) ∉ [(0 : Fin 2)] from by decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Cert.LibGatherRows

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.KerVal.lean ====
/-
  The idealized kernel program's host stretches, as functions of the arrays they read.

  Before the first matrix-product region the program builds, from the edge list, the two endpoint rows (each with the
  50000 self-loops appended), the degree of every node (a segment sum of ones over the targets) and the weight
  `dinv = 1/√deg` where `deg > 0`, `0` elsewhere. Between and after the regions it applies one and the same
  aggregation (`layerK`) to a node-by-feature matrix `X`: scale row `r` by `dinv r`, look the scaled rows up at the edges'
  sources (a negative source word wrapped once by the node count, then clamped by the lookup), add each looked-up row
  into its edge's target row (edges whose target word is no node are dropped), and scale row `n` of the sums by `dinv n`.
  Read at `(n, c)` that is `Gcn.aggK` of column `c` (`layerK_apply`).
-/
import proofs.«168722_j46583215292646_2_alg».proof.KernelIdeal
import proofs.«168722_j46583215292646_2_alg».proof.Proof.Spec
import proofs.«168722_j46583215292646_2_alg».proof.Proof.LibScatterRows
import proofs.«168722_j46583215292646_2_alg».proof.Proof.LibGatherRows
import proofs.«168722_j46583215292646_2_alg».proof.Proof.LibHostBroadcast
import Idealize.ShloMosaic.Lib.ValueIdx
import Idealize.ShloMosaic.Lib.Pipeline.Value

open scoped BigOperators

noncomputable section

namespace Cert.KernelIdeal.KerVal

open Idealize.ShloMosaic Idealize.ShloMosaic.ValueIdx
open Cert.KernelIdeal Cert.KernelIdeal.Facts₀ Cert.KernelIdeal.Facts

variable {F : FTy → Type} [FloatOps F] [Cert.KernelIdeal.Facts]

/-- Row `k` of the edge list, with the self-loops `0, 1, …, 49999` appended. -/
def srcRow (ei : IVec S2x400000 32) : IVec S450000 32 :=
  concatenate S450000 0
    [⟨S400000, shapeCast S400000 (extractStridedSlice S1x400000 ![0, 0] ei slices_S2x400000_S1x400000_0_0) shapeCasts_S1x400000_S400000⟩,
      ⟨S50000, iotaInDim S50000 32 0⟩] concatenates_S400000_S50000_S450000_d0

def dstRow (ei : IVec S2x400000 32) : IVec S450000 32 :=
  concatenate S450000 0
    [⟨S400000, shapeCast S400000 (extractStridedSlice S1x400000 ![1, 0] ei slices_S2x400000_S1x400000_1_0) shapeCasts_S1x400000_S400000⟩,
      ⟨S50000, iotaInDim S50000 32 0⟩] concatenates_S400000_S50000_S450000_d0

/-- An endpoint row as a column of start indices. -/
def col (v : IVec S450000 32) : IVec S450000x1 32 := broadcastInDim S450000x1 ![0] bcast_S450000_S450000x1_0 v

/-- An endpoint row with every negative word wrapped once by the node count, as a column. -/
def wrap (v : IVec S450000 32) : IVec S450000x1 32 :=
  broadcastInDim S450000x1 ![0] bcast_S450000_S450000x1_0
    (select (cmpi .slt v (broadcastInDim S450000 ![] bcast_S_S450000 (constantI S_ 32 0#32)))
      (addi v (broadcastInDim S450000 ![] bcast_S_S450000 (constantI S_ 32 50000#32))) v)

/-- The degrees: ones added into the targets, from zero. -/
def deg (ei : IVec S2x400000 32) : FVec F S50000 .f32 :=
  Host.scatterAdd scatter_S50000_S450000x1_S450000_n_0_0_1
    (broadcastInDim S50000 ![] bcast_S_S50000 (constant S_ .f32 0x00000000#32)) (col (dstRow ei))
    (broadcastInDim S450000 ![] bcast_S_S450000 (constant S_ .f32 0x3F800000#32))

/-- The weights: `1/√deg` where `deg > 0`, zero elsewhere. -/
def dinv (ei : IVec S2x400000 32) : FVec F S50000 .f32 :=
  select (cmpf .ogt (deg (F := F) ei) (broadcastInDim S50000 ![] bcast_S_S50000 (constant S_ .f32 0x00000000#32)))
    (Host.rsqrt (deg (F := F) ei)) (broadcastInDim S50000 ![] bcast_S_S50000 (id (constant S_ .f32 0x00000000#32)))

/-- A node vector spread along the 512 features. -/
def spread (D : FVec F S50000 .f32) : FVec F S50000x512 .f32 :=
  broadcastInDim S50000x512 ![0, 1] bcast_S50000x1_S50000x512_0_1 (broadcastInDim S50000x1 ![0] bcast_S50000_S50000x1_0 D)

/-- One aggregation, node-wise: scale, look up at the sources, add into the targets, scale. -/
def layerK (D : FVec F S50000 .f32) (s d : IVec S450000 32) (X : FVec F S50000x512 .f32) : FVec F S50000x512 .f32 :=
  mulf (spread D)
    (Host.scatterAdd scatter_S50000x512_S450000x1_S450000x512_1_0_0_1
      (broadcastInDim S50000x512 ![] bcast_S_S50000x512 (constant S_ .f32 0x00000000#32)) (col d)
      (Host.gather gather_S50000x512_S450000x1_S450000x512_1_0_n_n_0_1_1512 (mulf (spread D) X) (wrap s)))

/-- The bias row and the two weight matrices side by side, as the second region reads them. -/
def biasRow (b1 : FVec F S512 .f32) : FVec F S1x512 .f32 := shapeCast S1x512 b1 shapeCasts_S512_S1x512
def wcat (Wmu Wls : FVec F S512x256 .f32) : FVec F S512x512 .f32 :=
  concatenate S512x512 1 [⟨S512x256, Wmu⟩, ⟨S512x256, Wls⟩] concatenates_S512x256_S512x256_S512x512_d1

/-- The last stretch: aggregate, add the two biases end to end along the features, cut the left or right half. -/
def tail (D : FVec F S50000 .f32) (s d : IVec S450000 32) (X : FVec F S50000x512 .f32) (bmu bls : FVec F S256 .f32) :
    FVec F S50000x512 .f32 :=
  addf (layerK D s d X)
    (broadcastInDim S50000x512 ![0, 1] bcast_S1x512_S50000x512_0_1
      (broadcastInDim S1x512 ![1] bcast_S512_S1x512_1
        (concatenate S512 0 [⟨S256, bmu⟩, ⟨S256, bls⟩] concatenates_S256_S256_S512_d0)))
def outL (Y : FVec F S50000x512 .f32) : FVec F S50000x256 .f32 :=
  extractStridedSlice S50000x256 ![0, 0] Y slices_S50000x512_S50000x256_0_0
def outR (Y : FVec F S50000x512 .f32) : FVec F S50000x256 .f32 :=
  extractStridedSlice S50000x256 ![0, 256] Y slices_S50000x512_S50000x256_0_256

end Cert.KernelIdeal.KerVal

end
-- ==== Proof.Sides.lean ====
/-
  The two programs build the same weights and the same endpoint columns: each side's definitions are the same operations
  over the same shapes, so they are one and the same function of the edge list.
-/
import proofs.«168722_j46583215292646_2_alg».proof.Proof.KerVal
import proofs.«168722_j46583215292646_2_alg».proof.Proof.RefDefs
import proofs.«168722_j46583215292646_2_alg».proof.Proof.Gen.KernelIdeal
import proofs.«168722_j46583215292646_2_alg».proof.Proof.Gen.ReferenceIdeal

noncomputable section

namespace Cert.Sides

open Idealize.ShloMosaic

theorem srcN_eq (ei : IVec Cert.KernelIdeal.S2x400000 32) :
    Cert.KernelIdeal.KerVal.wrap (Cert.KernelIdeal.KerVal.srcRow ei) = Cert.ReferenceIdeal.RefVal.srcN ei := rfl

theorem dstN_eq (ei : IVec Cert.KernelIdeal.S2x400000 32) :
    Cert.KernelIdeal.KerVal.wrap (Cert.KernelIdeal.KerVal.dstRow ei) = Cert.ReferenceIdeal.RefVal.dstN ei := rfl

theorem dstC_eq (ei : IVec Cert.KernelIdeal.S2x400000 32) :
    Cert.KernelIdeal.KerVal.col (Cert.KernelIdeal.KerVal.dstRow ei) = Cert.ReferenceIdeal.RefVal.dstC ei := rfl

attribute [local irreducible] Host.scatterAdd Host.rsqrt in
theorem dinv_eq (ei : IVec Cert.KernelIdeal.S2x400000 32) :
    Cert.KernelIdeal.KerVal.dinv (F := Ideal) ei = Cert.ReferenceIdeal.RefVal.dinv (F := Ideal) ei := rfl

end Cert.Sides

end
-- ==== Proof.LibGatherColumn.lean ====
/-
  Looking entries of a flat array up at a column of indices, read at one position.

  `x[idx]` for a flat array `x : [N]` and an integer vector `idx : [R]` is lowered to a gather whose start indices are the
  vector written as a column `[R, 1]` (the index vector lies along axis 1), with the operand's one axis collapsed and a
  slice of one entry. Result entry `t` is `x` at the start index `idx[t, 0]`, read as a signed integer and clamped
  into `[0, N - 1]`, as the gather clamps every start index. This is the rank-1 companion of the library's reading of a
  gather at a rank-2 array of start indices (`ValueIdx.gather_take_apply`), proved the same way.
-/
import Idealize.ShloMosaic.Lib.ValueIdx

noncomputable section

namespace Cert.LibGatherColumn

open Idealize.ShloMosaic Idealize.ShloMosaic.ValueIdx

variable {α : Type}

/-- The dimension numbers of that gather for an operand `[N]`, start indices `[R, 1]` and a result `[R]`. -/
abbrev colDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The start-indices position `[t, 0]` of result position `t`. -/
abbrev colIdx {R : Nat} (y : (⟨1, ![R]⟩ : Shape).Idx) : (⟨2, ![R, 1]⟩ : Shape).Idx :=
  fun a => match a with | ⟨0, _⟩ => ⟨(y 0).val, (y 0).isLt⟩ | ⟨1, _⟩ => ⟨0, Nat.one_pos⟩

/-- The gather read at `t`: the operand at the start index `idx[t, 0]`, read signed and clamped into `[0, N - 1]`. -/
theorem gather_col_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (colDims N R wf) x idx y = x (ix1 ⟨min (idx (colIdx y)).toInt.toNat (N - 1), by omega⟩) := by
  unfold Host.gather
  congr 1
  funext a
  obtain rfl : a = 0 := Subsingleton.elim _ _
  refine Fin.ext ?_
  show (colDims N R wf).start y idx 0 + (colDims N R wf).batchCoord y 0 + (colDims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N R wf).startIndexMap from List.mem_singleton.mpr rfl)]
  have hsi : (colDims N R wf).siIdx y ⟨List.idxOf (0 : Fin 1) (colDims N R wf).startIndexMap,
      List.idxOf_lt_length_iff.2 (List.mem_singleton.mpr rfl)⟩ = colIdx y := by
    funext b; refine Fin.ext ?_
    match b with
    | ⟨0, _⟩ => rfl
    | ⟨1, _⟩ => rfl
  rw [hsi]
  rfl

end Cert.LibGatherColumn

end
-- ==== Proof.RefReadAgg.lean ====
/-
  One aggregation of the reference network, read at an index on the extended reals.

  The rows of a node matrix `h` are looked up at a column `sN` of endpoints (each read signed and clamped into the node
  range), scaled by a column `nrm` of edge weights and added into the nodes a column `dC` names, starting from zeros.
  At node `n`, column `c`, that is zero plus the sum, over the edges whose `dC` word read signed is `n`, of
  `h (node sN e, c) · nrm e`. With the edge weight the product of a node weight `D` at two looked-up endpoints this is the
  edge-wise spelling `Cert.Gcn.aggR` of the aggregation of column `c` of `h`.
-/
import proofs.«168722_j46583215292646_2_alg».proof.Proof.RefDefs
import proofs.«168722_j46583215292646_2_alg».proof.Proof.Spec
import proofs.«168722_j46583215292646_2_alg».proof.Proof.LibScatterRows
import proofs.«168722_j46583215292646_2_alg».proof.Proof.LibGatherRows
import proofs.«168722_j46583215292646_2_alg».proof.Proof.LibGatherColumn
import proofs.«168722_j46583215292646_2_alg».proof.Proof.LibHostBroadcast
import Idealize.ShloMosaic.PureOps.Ideal.Laws

open scoped BigOperators

noncomputable section

namespace Cert.ReferenceIdeal.RefVal

open Idealize.ShloMosaic Idealize.ShloMosaic.ValueIdx
open Cert.ReferenceIdeal Cert.ReferenceIdeal.Facts₀

variable [Cert.ReferenceIdeal.Facts]

/-- The start-indices position of the result position `(e, c)` of a row lookup is `(e, 0)`. -/
theorem rowIdx_ix2 {R D : Nat} (e : Fin R) (c : Fin D) : Cert.LibGatherRows.rowIdx (ix2 e c) = ix2 e (0 : Fin 1) := by
  funext a
  match a with
  | ⟨0, _⟩ => rfl
  | ⟨1, _⟩ => rfl

/-- The start-indices position of the result position `e` of an entry lookup is `(e, 0)`. -/
theorem colIdx_ix1 {R : Nat} (e : Fin R) : Cert.LibGatherColumn.colIdx (ix1 e) = ix2 e (0 : Fin 1) := by
  funext a
  match a with
  | ⟨0, _⟩ => rfl
  | ⟨1, _⟩ => rfl

/-- A 512-wide row lookup at `(e, c)`: the matrix at the node the endpoint names, column `c`. -/
theorem gather512_apply {α : Type} (h : S50000x512.Idx → α) (sN : IVec S450000x1 32) (e : Fin 450000) (c : Fin 512) :
    Host.gather gather_S50000x512_S450000x1_S450000x512_1_0_n_n_0_1_1512 h sN (ix2 e c) = h (ix2 (Cert.Gcn.node sN e) c) := by
  refine (Cert.LibGatherRows.gather_rows_apply (N := 50000) (D := 512) (R := 450000) (by norm_num)
    gather_S50000x512_S450000x1_S450000x512_1_0_n_n_0_1_1512_wf h sN (ix2 e c)).trans ?_
  exact congrArg (fun z => h (ix2 (Cert.Gcn.clampIdx Cert.Gcn.nodes_pos (sN z)) c)) (rowIdx_ix2 e c)

/-- A 256-wide row lookup at `(e, c)`. -/
theorem gather256_apply {α : Type} (h : S50000x256.Idx → α) (sN : IVec S450000x1 32) (e : Fin 450000) (c : Fin 256) :
    Host.gather gather_S50000x256_S450000x1_S450000x256_1_0_n_n_0_1_1256 h sN (ix2 e c) = h (ix2 (Cert.Gcn.node sN e) c) := by
  refine (Cert.LibGatherRows.gather_rows_apply (N := 50000) (D := 256) (R := 450000) (by norm_num)
    gather_S50000x256_S450000x1_S450000x256_1_0_n_n_0_1_1256_wf h sN (ix2 e c)).trans ?_
  exact congrArg (fun z => h (ix2 (Cert.Gcn.clampIdx Cert.Gcn.nodes_pos (sN z)) c)) (rowIdx_ix2 e c)

/-- An entry lookup in a node vector at `e`: the vector at the node the endpoint names. -/
theorem gatherVec_apply {α : Type} (D : S50000.Idx → α) (sN : IVec S450000x1 32) (e : Fin 450000) :
    Host.gather gather_S50000_S450000x1_S450000_n_0_n_n_0_1_1 D sN (ix1 e) = D (ix1 (Cert.Gcn.node sN e)) := by
  refine (Cert.LibGatherColumn.gather_col_apply (N := 50000) (R := 450000) (by norm_num)
    gather_S50000_S450000x1_S450000_n_0_n_n_0_1_1_wf D sN (ix1 e)).trans ?_
  exact congrArg (fun z => D (ix1 (Cert.Gcn.clampIdx Cert.Gcn.nodes_pos (sN z)))) (colIdx_ix1 e)

/-- The 512-wide accumulation at node `n`, column `c`: the operand's entry plus the sum of the updates of the edges added
    into `n`. -/
theorem scatter512_apply (x : FVec Ideal S50000x512 .f32) (dC : IVec S450000x1 32) (u : FVec Ideal S450000x512 .f32)
    (n : Fin 50000) (c : Fin 512) :
    Host.scatterAdd (F := Ideal) scatter_S50000x512_S450000x1_S450000x512_1_0_0_1 x dC u (ix2 n c)
      = x (ix2 n c) + ∑ e ∈ Cert.Gcn.into dC n, u (ix2 e c) :=
  Cert.LibScatterRows.scatterRows_apply 50000 450000 512 scatter_S50000x512_S450000x1_S450000x512_1_0_0_1_wf x dC u n c

/-- The 256-wide accumulation at node `n`, column `c`. -/
theorem scatter256_apply (x : FVec Ideal S50000x256 .f32) (dC : IVec S450000x1 32) (u : FVec Ideal S450000x256 .f32)
    (n : Fin 50000) (c : Fin 256) :
    Host.scatterAdd (F := Ideal) scatter_S50000x256_S450000x1_S450000x256_1_0_0_1 x dC u (ix2 n c)
      = x (ix2 n c) + ∑ e ∈ Cert.Gcn.into dC n, u (ix2 e c) :=
  Cert.LibScatterRows.scatterRows_apply 50000 450000 256 scatter_S50000x256_S450000x1_S450000x256_1_0_0_1_wf x dC u n c

/-- The 512-wide aggregation at node `n`, column `c`. -/
theorem agg512_apply (h : FVec Ideal S50000x512 .f32) (sN : IVec S450000x1 32) (nrm : FVec Ideal S450000x1 .f32)
    (dC : IVec S450000x1 32) (n : Fin 50000) (c : Fin 512) :
    agg512 (F := Ideal) h sN nrm dC (ix2 n c)
      = 0 + ∑ e ∈ Cert.Gcn.into dC n, h (ix2 (Cert.Gcn.node sN e) c) * nrm (ix2 e (0 : Fin 1)) := by
  unfold agg512
  rw [scatter512_apply, Cert.LibHostBroadcast.scalar_to_any, constant_apply, Ideal.ofBits_zero_f32]
  refine congrArg (fun s : EReal => 0 + s) (Finset.sum_congr rfl fun e _ => ?_)
  rw [mulf_apply, gather512_apply, Cert.LibHostBroadcast.col_to_mat]

/-- The 256-wide aggregation at node `n`, column `c`. -/
theorem agg256_apply (h : FVec Ideal S50000x256 .f32) (sN : IVec S450000x1 32) (nrm : FVec Ideal S450000x1 .f32)
    (dC : IVec S450000x1 32) (n : Fin 50000) (c : Fin 256) :
    agg256 (F := Ideal) h sN nrm dC (ix2 n c)
      = 0 + ∑ e ∈ Cert.Gcn.into dC n, h (ix2 (Cert.Gcn.node sN e) c) * nrm (ix2 e (0 : Fin 1)) := by
  unfold agg256
  rw [scatter256_apply, Cert.LibHostBroadcast.scalar_to_any, constant_apply, Ideal.ofBits_zero_f32]
  refine congrArg (fun s : EReal => 0 + s) (Finset.sum_congr rfl fun e _ => ?_)
  rw [mulf_apply, gather256_apply, Cert.LibHostBroadcast.col_to_mat]

/-- An edge weight column built from a node weight `D` at two endpoint columns, at edge `e`: the product of `D` at the
    two looked-up nodes. -/
theorem normOf_apply (D : FVec Ideal S50000 .f32) (sN dN : IVec S450000x1 32) (e : Fin 450000) (u : Fin 1) :
    broadcastInDim S450000x1 ![0] bcast_S450000_S450000x1_0
        (mulf (Host.gather gather_S50000_S450000x1_S450000_n_0_n_n_0_1_1 D sN)
          (Host.gather gather_S50000_S450000x1_S450000_n_0_n_n_0_1_1 D dN)) (ix2 e u)
      = D (ix1 (Cert.Gcn.node sN e)) * D (ix1 (Cert.Gcn.node dN e)) := by
  rw [Cert.LibHostBroadcast.vec_to_col, mulf_apply, gatherVec_apply, gatherVec_apply]

/-- The program's edge weight at edge `e`: the node weight at the wrapped source times the node weight at the wrapped
    target. -/
theorem norm_apply (ei : IVec S2x400000 32) (e : Fin 450000) (u : Fin 1) :
    norm (F := Ideal) ei (ix2 e u)
      = dinv (F := Ideal) ei (ix1 (Cert.Gcn.node (srcN ei) e)) * dinv (F := Ideal) ei (ix1 (Cert.Gcn.node (dstN ei) e)) :=
  normOf_apply (dinv (F := Ideal) ei) (srcN ei) (dstN ei) e u

/-- The 512-wide aggregation with the program's endpoints and edge weight is the edge-wise aggregation of a column. -/
theorem layer512_apply (h : FVec Ideal S50000x512 .f32) (ei : IVec S2x400000 32) (n : Fin 50000) (c : Fin 512) :
    agg512 (F := Ideal) h (srcN ei) (norm (F := Ideal) ei) (dstC ei) (ix2 n c)
      = Cert.Gcn.aggR (fun n' => dinv (F := Ideal) ei (ix1 n')) (srcN ei) (dstN ei) (dstC ei) (fun r => h (ix2 r c)) n := by
  rw [agg512_apply]
  unfold Cert.Gcn.aggR
  refine congrArg (fun s : EReal => 0 + s) (Finset.sum_congr rfl fun e _ => ?_)
  rw [norm_apply]

/-- The 256-wide aggregation with the program's endpoints and edge weight is the edge-wise aggregation of a column. -/
theorem layer256_apply (h : FVec Ideal S50000x256 .f32) (ei : IVec S2x400000 32) (n : Fin 50000) (c : Fin 256) :
    agg256 (F := Ideal) h (srcN ei) (norm (F := Ideal) ei) (dstC ei) (ix2 n c)
      = Cert.Gcn.aggR (fun n' => dinv (F := Ideal) ei (ix1 n')) (srcN ei) (dstN ei) (dstC ei) (fun r => h (ix2 r c)) n := by
  rw [agg256_apply]
  unfold Cert.Gcn.aggR
  refine congrArg (fun s : EReal => 0 + s) (Finset.sum_congr rfl fun e _ => ?_)
  rw [norm_apply]

end Cert.ReferenceIdeal.RefVal

end
-- ==== Proof.RefReadDst.lean ====
/-
  An edge added into node `n` looks its target weight up at `n`.

  The column the accumulation reads (`dstC`) holds the raw target words; the column the lookup reads (`dstN`) holds the
  same words with 50000 added where the word is negative. An edge is added into node `n` only when its raw target word,
  read signed, is exactly `n`: then the word is not negative, so it is not changed, and clamping it into the node range
  keeps `n`, which is below 50000.
-/
import proofs.«168722_j46583215292646_2_alg».proof.Proof.RefDefs
import proofs.«168722_j46583215292646_2_alg».proof.Proof.Spec
import proofs.«168722_j46583215292646_2_alg».proof.Proof.LibHostBroadcast
import Idealize.ShloMosaic.Lib.ValueIdx

noncomputable section

namespace Cert.ReferenceIdeal.RefVal

open Idealize.ShloMosaic Idealize.ShloMosaic.ValueIdx
open Cert.ReferenceIdeal Cert.ReferenceIdeal.Facts₀

variable [Cert.ReferenceIdeal.Facts]

/-- The raw target column at edge `e` is the target vector at `e`. -/
theorem dstC_entry (ei : IVec S2x400000 32) (e : Fin 450000) : dstC ei (ix2 e (0 : Fin 1)) = dstRow ei (ix1 e) := by
  unfold dstC
  exact Cert.LibHostBroadcast.vec_to_col _ _ e 0

/-- A wrapped column at edge `e`: the word plus 50000 where the word is negative, the word elsewhere. -/
theorem wrap_entry (v : IVec S450000 32) (e : Fin 450000) :
    wrap v (ix2 e (0 : Fin 1))
      = Scalar.select (IntOp.cmpi .slt (v (ix1 e)) 0#32) (IntOp.addi (v (ix1 e)) 50000#32) (v (ix1 e)) := by
  unfold wrap
  rw [Cert.LibHostBroadcast.vec_to_col, select_apply]
  show Scalar.select
      (IntOp.cmpi .slt (v (ix1 e)) (broadcastInDim S450000 ![] bcast_S_S450000 (constantI S_ 32 0#32) (ix1 e)))
      (IntOp.addi (v (ix1 e)) (broadcastInDim S450000 ![] bcast_S_S450000 (constantI S_ 32 50000#32) (ix1 e)))
      (v (ix1 e)) = _
  rw [Cert.LibHostBroadcast.scalar_to_any, Cert.LibHostBroadcast.scalar_to_any]
  rfl

/-- A word that is not negative is left alone by the wrapping. -/
theorem wrap_of_nonneg (w : BitVec 32) (h : 0 ≤ w.toInt) :
    Scalar.select (IntOp.cmpi .slt w 0#32) (IntOp.addi w 50000#32) w = w := by
  have hs : w.slt 0#32 = false := by
    simp only [BitVec.slt, BitVec.toInt_zero, decide_eq_false_iff_not, not_lt]
    exact h
  have hc : IntOp.cmpi .slt w 0#32 = 0#1 := by
    show BitVec.ofBool (w.slt 0#32) = 0#1
    rw [hs]
    rfl
  rw [hc]
  exact select_zero _ _

/-- An edge whose raw target word, read signed, is `n` looks its target up at `n`. -/
theorem dst_lookup (ei : IVec S2x400000 32) (n : Fin 50000) :
    ∀ e ∈ Cert.Gcn.into (dstC ei) n, Cert.Gcn.node (dstN ei) e = n := by
  intro e he
  have h1 : (dstC ei (ix2 e (0 : Fin 1))).toInt = (n.val : Int) := (Finset.mem_filter.mp he).2
  rw [dstC_entry] at h1
  have h2 : dstN ei (ix2 e (0 : Fin 1)) = dstRow ei (ix1 e) := by
    unfold dstN
    rw [wrap_entry]
    exact wrap_of_nonneg _ (by omega)
  refine Fin.ext ?_
  show min ((dstN ei (ix2 e (0 : Fin 1))).toInt.toNat) (50000 - 1) = n.val
  rw [h2, h1]
  have := n.isLt
  omega

end Cert.ReferenceIdeal.RefVal

end
-- ==== Proof.RefReadDinv.lean ====
/-
  The node weight of the reference network is nonnegative and never `⊤`.

  Entrywise the weight is `1 / √d` where the degree entry `d` is positive and the zero word elsewhere. On the extended
  reals `1 / √⊤ = 0` and `1 / √r` for a positive real `r` is the positive real `(√r)⁻¹`; so whatever the degree entry
  is, the weight is a nonnegative real. Nothing about the degree itself is used.
-/
import proofs.«168722_j46583215292646_2_alg».proof.Proof.RefDefs
import proofs.«168722_j46583215292646_2_alg».proof.Proof.LibHostBroadcast
import Idealize.ShloMosaic.PureOps.Ideal.Laws
import Idealize.ShloMosaic.Lib.ValueIdx

noncomputable section

namespace Cert.ReferenceIdeal.RefVal

open Idealize.ShloMosaic Idealize.ShloMosaic.ValueIdx
open Cert.ReferenceIdeal Cert.ReferenceIdeal.Facts₀

variable [Cert.ReferenceIdeal.Facts]

/-- A choice on the comparison `d > 0` is the choice on the proposition `0 < d`. -/
theorem select_ogt_zero (d a b : EReal) : Scalar.select (Ideal.cmp .ogt d 0) a b = if 0 < d then a else b := by
  unfold Scalar.select Ideal.cmp
  by_cases h : (0 : EReal) < d
  · simp [h]
  · simp [h]

/-- `1 / √d` where `d > 0`, zero elsewhere, is nonnegative and not `⊤`, for every extended real `d`. -/
theorem weight_entry (d : EReal) :
    0 ≤ Scalar.select (Ideal.cmp .ogt d 0) (Ideal.rsqrt d) 0 ∧ Scalar.select (Ideal.cmp .ogt d 0) (Ideal.rsqrt d) 0 ≠ ⊤ := by
  rw [select_ogt_zero]
  by_cases h : (0 : EReal) < d
  · rw [if_pos h]
    induction d using EReal.rec with
    | bot => exact absurd h (by simp)
    | top => rw [Ideal.rsqrt_top]; exact ⟨le_refl _, EReal.zero_ne_top⟩
    | coe r =>
      have hr : 0 < r := EReal.coe_pos.mp h
      rw [Ideal.rsqrt_coe, if_neg (not_lt.mpr hr.le), if_neg hr.ne']
      exact ⟨EReal.coe_nonneg.mpr (inv_nonneg.mpr (Real.sqrt_nonneg r)), EReal.coe_ne_top _⟩
  · rw [if_neg h]
    exact ⟨le_refl _, EReal.zero_ne_top⟩

/-- The host's reciprocal square root at an index. -/
theorem hostRsqrt_apply {s : Shape} (x : FVec Ideal s .f32) (i : s.Idx) : Host.rsqrt x i = Ideal.rsqrt (x i) := rfl

/-- The comparison of two values is the comparison of the linear order. -/
theorem cmpf_ideal (p : CmpFPredicate) (a b : Ideal .f32) : FloatOps.cmpf p a b = Ideal.cmp p a b := rfl

/-- The node weight at node `n`, in terms of the degree entry. -/
theorem dinv_entry (ei : IVec S2x400000 32) (n : Fin 50000) :
    dinv (F := Ideal) ei (ix1 n)
      = Scalar.select (Ideal.cmp .ogt (deg (F := Ideal) ei (ix1 n)) 0) (Ideal.rsqrt (deg (F := Ideal) ei (ix1 n))) 0 := by
  unfold dinv
  rw [select_apply, cmpf_apply, hostRsqrt_apply, cmpf_ideal, Cert.LibHostBroadcast.scalar_to_any,
    Cert.LibHostBroadcast.scalar_to_any, id_eq, constant_apply, Ideal.ofBits_zero_f32]

/-- The node weight is nonnegative. -/
theorem dinv_nonneg (ei : IVec S2x400000 32) (n : Fin 50000) : 0 ≤ dinv (F := Ideal) ei (ix1 n) := by
  rw [dinv_entry]
  exact (weight_entry _).1

/-- The node weight is never `⊤`. -/
theorem dinv_ne_top (ei : IVec S2x400000 32) (n : Fin 50000) : dinv (F := Ideal) ei (ix1 n) ≠ ⊤ := by
  rw [dinv_entry]
  exact (weight_entry _).2

end Cert.ReferenceIdeal.RefVal

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.RefRead.lean ====
/-
  The two results of the reference network, read at an index on the extended reals, are the two-layer graph convolution
  of the shared specification with the edge-wise aggregation.

  At node `n`, output column `c`: the hidden layer is the edge-wise aggregation of each column of `x · W1`, plus the bias,
  through the leaky rectifier; the result is the edge-wise aggregation of the hidden layer times column `c` of the head's
  weights, plus that column's bias. The node weight and the three endpoint columns stay folded: only the shape of the
  network is read here.
-/
import proofs.«168722_j46583215292646_2_alg».proof.Proof.RefDefs
import proofs.«168722_j46583215292646_2_alg».proof.Proof.Spec
import proofs.«168722_j46583215292646_2_alg».proof.Proof.RefReadAgg
import proofs.«168722_j46583215292646_2_alg».proof.Proof.RefReadDst
import proofs.«168722_j46583215292646_2_alg».proof.Proof.RefReadDinv
import proofs.«168722_j46583215292646_2_alg».proof.Proof.LibHostBroadcast
import proofs.«168722_j46583215292646_2_alg».proof.Proof.LibPlainDot

open scoped BigOperators

noncomputable section

namespace Cert.ReferenceIdeal.RefVal

open Idealize.ShloMosaic Idealize.ShloMosaic.ValueIdx
open Cert.ReferenceIdeal Cert.ReferenceIdeal.Facts₀

variable [Cert.ReferenceIdeal.Facts]

/-- The first layer's product at `(r, k)`: row `r` of `x` against column `k` of `W1`. -/
theorem dot1_apply (x : FVec Ideal S50000x512 .f32) (W1 : FVec Ideal S512x512 .f32) (r : Fin 50000) (k : Fin 512) :
    Host.dotGeneral (F := Ideal) dot_S50000x512_S512x512_S50000x512_1_0_0_1_n_n none x W1 (ix2 r k)
      = ∑ j : Fin 512, x (ix2 r j) * W1 (ix2 j k) :=
  Cert.LibPlainDot.dotGeneral_plain 50000 512 512 none x W1 (ix2 r k)

/-- A head's product at `(r, c)`: row `r` of the hidden layer against column `c` of the head's weights. -/
theorem dot2_apply (h : FVec Ideal S50000x512 .f32) (W : FVec Ideal S512x256 .f32) (r : Fin 50000) (c : Fin 256) :
    Host.dotGeneral (F := Ideal) dot_S50000x512_S512x256_S50000x256_1_0_0_1_n_n none h W (ix2 r c)
      = ∑ k : Fin 512, h (ix2 r k) * W (ix2 k c) :=
  Cert.LibPlainDot.dotGeneral_plain 50000 512 256 none h W (ix2 r c)

/-- The leaky rectifier at an index. -/
theorem leaky_apply (a : FVec Ideal S50000x512 .f32) (i : S50000x512.Idx) :
    leaky (F := Ideal) a i = Cert.Gcn.leaky (a i) := by
  unfold leaky Cert.Gcn.leaky
  rw [select_apply, cmpf_apply, mulf_apply, Cert.LibHostBroadcast.scalar_to_any, Cert.LibHostBroadcast.scalar_to_any,
    constant_apply, constant_apply]
  rfl

/-- The first layer before the rectifier at `(r, k)`: the edge-wise aggregation of column `k` of `x · W1`, plus the bias. -/
theorem pre1_apply (x : FVec Ideal S50000x512 .f32) (ei : IVec S2x400000 32) (W1 : FVec Ideal S512x512 .f32)
    (b1 : FVec Ideal S512 .f32) (r : Fin 50000) (k : Fin 512) :
    pre1 (F := Ideal) x ei W1 b1 (ix2 r k)
      = Cert.Gcn.aggR (fun n' => dinv (F := Ideal) ei (ix1 n')) (srcN ei) (dstN ei) (dstC ei)
          (fun r' => ∑ j : Fin 512, x (ix2 r' j) * W1 (ix2 j k)) r + b1 (ix1 k) := by
  unfold pre1
  rw [addf_apply, layer512_apply, Cert.LibHostBroadcast.vec_along_cols]
  refine congrArg (fun s : EReal => s + b1 (ix1 k)) ?_
  exact congrArg
    (fun g => Cert.Gcn.aggR (fun n' => dinv (F := Ideal) ei (ix1 n')) (srcN ei) (dstN ei) (dstC ei) g r)
    (funext fun r' => dot1_apply x W1 r' k)

/-- The hidden layer at `(r, k)` is the specification's hidden layer over the edge-wise aggregation. -/
theorem hid_apply (x : FVec Ideal S50000x512 .f32) (ei : IVec S2x400000 32) (W1 : FVec Ideal S512x512 .f32)
    (b1 : FVec Ideal S512 .f32) (r : Fin 50000) (k : Fin 512) :
    hid (F := Ideal) x ei W1 b1 (ix2 r k)
      = Cert.Gcn.hidden (Cert.Gcn.aggR (fun n' => dinv (F := Ideal) ei (ix1 n')) (srcN ei) (dstN ei) (dstC ei))
          (fun r j => x (ix2 r j)) (fun j k => W1 (ix2 j k)) (fun k => b1 (ix1 k)) r k := by
  unfold hid Cert.Gcn.hidden
  rw [leaky_apply, pre1_apply]

/-- An output head at `(n, c)`: the edge-wise aggregation of column `c` of `h · W`, plus the column's bias. -/
theorem head_apply (h : FVec Ideal S50000x512 .f32) (ei : IVec S2x400000 32) (W : FVec Ideal S512x256 .f32)
    (b : FVec Ideal S256 .f32) (n : Fin 50000) (c : Fin 256) :
    head (F := Ideal) h ei W b (ix2 n c)
      = Cert.Gcn.aggR (fun n' => dinv (F := Ideal) ei (ix1 n')) (srcN ei) (dstN ei) (dstC ei)
          (fun r => ∑ k : Fin 512, h (ix2 r k) * W (ix2 k c)) n + b (ix1 c) := by
  unfold head
  rw [addf_apply, layer256_apply, Cert.LibHostBroadcast.vec_along_cols]
  refine congrArg (fun s : EReal => s + b (ix1 c)) ?_
  exact congrArg
    (fun g => Cert.Gcn.aggR (fun n' => dinv (F := Ideal) ei (ix1 n')) (srcN ei) (dstN ei) (dstC ei) g n)
    (funext fun r => dot2_apply h W r c)

/-- A head over the program's hidden layer at `(n, c)` is the specification's network over the edge-wise aggregation. -/
theorem net_apply (x : FVec Ideal S50000x512 .f32) (ei : IVec S2x400000 32) (W1 : FVec Ideal S512x512 .f32)
    (b1 : FVec Ideal S512 .f32) (W : FVec Ideal S512x256 .f32) (b : FVec Ideal S256 .f32) (n : Fin 50000) (c : Fin 256) :
    head (F := Ideal) (hid (F := Ideal) x ei W1 b1) ei W b (ix2 n c)
      = Cert.Gcn.out (Cert.Gcn.aggR (fun n' => dinv (F := Ideal) ei (ix1 n')) (srcN ei) (dstN ei) (dstC ei))
          (fun r j => x (ix2 r j)) (fun j k => W1 (ix2 j k)) (fun k => b1 (ix1 k)) (fun k => W (ix2 k c)) (b (ix1 c)) n := by
  rw [head_apply]
  unfold Cert.Gcn.out
  refine congrArg (fun s : EReal => s + b (ix1 c)) ?_
  refine congrArg
    (fun g => Cert.Gcn.aggR (fun n' => dinv (F := Ideal) ei (ix1 n')) (srcN ei) (dstN ei) (dstC ei) g n)
    (funext fun r => Finset.sum_congr rfl fun k _ => ?_)
  rw [hid_apply]

/-- The first result at node `n`, column `c`. -/
theorem mu_apply (x : FVec Ideal S50000x512 .f32) (ei : IVec S2x400000 32) (W1 : FVec Ideal S512x512 .f32)
    (b1 : FVec Ideal S512 .f32) (Wmu : FVec Ideal S512x256 .f32) (bmu : FVec Ideal S256 .f32) (n : Fin 50000) (c : Fin 256) :
    mu (F := Ideal) x ei W1 b1 Wmu bmu (ix2 n c)
      = Cert.Gcn.out (Cert.Gcn.aggR (fun n' => dinv (F := Ideal) ei (ix1 n')) (srcN ei) (dstN ei) (dstC ei))
          (fun r j => x (ix2 r j)) (fun j k => W1 (ix2 j k)) (fun k => b1 (ix1 k)) (fun k => Wmu (ix2 k c)) (bmu (ix1 c)) n :=
  net_apply x ei W1 b1 Wmu bmu n c

/-- The second result at node `n`, column `c`. -/
theorem ls_apply (x : FVec Ideal S50000x512 .f32) (ei : IVec S2x400000 32) (W1 : FVec Ideal S512x512 .f32)
    (b1 : FVec Ideal S512 .f32) (Wls : FVec Ideal S512x256 .f32) (bls : FVec Ideal S256 .f32) (n : Fin 50000) (c : Fin 256) :
    ls (F := Ideal) x ei W1 b1 Wls bls (ix2 n c)
      = Cert.Gcn.out (Cert.Gcn.aggR (fun n' => dinv (F := Ideal) ei (ix1 n')) (srcN ei) (dstN ei) (dstC ei))
          (fun r j => x (ix2 r j)) (fun j k => W1 (ix2 j k)) (fun k => b1 (ix1 k)) (fun k => Wls (ix2 k c)) (bls (ix1 c)) n :=
  net_apply x ei W1 b1 Wls bls n c

end Cert.ReferenceIdeal.RefVal

end
-- ==== Proof.KerHost0.lean ====
/-
  The host operations before the first region, folded over any buffer contents: the weights, the two endpoint rows, and the arguments, which they do not write.
-/
import proofs.«168722_j46583215292646_2_alg».proof.Proof.Gen.KernelIdeal.Launch
import proofs.«168722_j46583215292646_2_alg».proof.Proof.KerVal
import Idealize.ShloMosaic.Lib.StableHlo.Run

noncomputable section

namespace Cert.KernelIdeal.KerHost

open Idealize.ShloMosaic Idealize.ShloMosaic.TcCoe Idealize.ShloMosaic.StableHlo Idealize.SL.Sem
open Cert.KernelIdeal Cert.KernelIdeal.Gen

variable {F : FTy → Type} [FloatOps F]

theorem h0_dinv (V : Valuation τ sig (Elt F)) :
    after (hostOps0 (F := F)) V (Proc.devRef .tc main_call0_v14) = KerVal.dinv (F := F) (V (Proc.devRef .tc main_arg1)) := by
  after_results; rfl

theorem h0_src (V : Valuation τ sig (Elt F)) :
    after (hostOps0 (F := F)) V (Proc.devRef .tc main_call0_v3) = KerVal.srcRow (V (Proc.devRef .tc main_arg1)) := by
  after_results; rfl

theorem h0_dst (V : Valuation τ sig (Elt F)) :
    after (hostOps0 (F := F)) V (Proc.devRef .tc main_call0_v6) = KerVal.dstRow (V (Proc.devRef .tc main_arg1)) := by
  after_results; rfl

theorem h0_arg0 (V : Valuation τ sig (Elt F)) : after (hostOps0 (F := F)) V (Proc.devRef .tc main_arg0) = V (Proc.devRef .tc main_arg0) := by after_results
theorem h0_arg2 (V : Valuation τ sig (Elt F)) : after (hostOps0 (F := F)) V (Proc.devRef .tc main_arg2) = V (Proc.devRef .tc main_arg2) := by after_results
theorem h0_arg3 (V : Valuation τ sig (Elt F)) : after (hostOps0 (F := F)) V (Proc.devRef .tc main_arg3) = V (Proc.devRef .tc main_arg3) := by after_results
theorem h0_arg4 (V : Valuation τ sig (Elt F)) : after (hostOps0 (F := F)) V (Proc.devRef .tc main_arg4) = V (Proc.devRef .tc main_arg4) := by after_results
theorem h0_arg5 (V : Valuation τ sig (Elt F)) : after (hostOps0 (F := F)) V (Proc.devRef .tc main_arg5) = V (Proc.devRef .tc main_arg5) := by after_results
theorem h0_arg6 (V : Valuation τ sig (Elt F)) : after (hostOps0 (F := F)) V (Proc.devRef .tc main_arg6) = V (Proc.devRef .tc main_arg6) := by after_results
theorem h0_arg7 (V : Valuation τ sig (Elt F)) : after (hostOps0 (F := F)) V (Proc.devRef .tc main_arg7) = V (Proc.devRef .tc main_arg7) := by after_results

end Cert.KernelIdeal.KerHost

end
-- ==== Proof.KerHost1.lean ====
/-
  The host operations between the two regions, folded over any buffer contents: the aggregated first layer, the bias as a row, the two weight matrices side by side; and the buffers they keep.
-/
import proofs.«168722_j46583215292646_2_alg».proof.Proof.Gen.KernelIdeal.Launch
import proofs.«168722_j46583215292646_2_alg».proof.Proof.KerVal
import Idealize.ShloMosaic.Lib.StableHlo.Run

noncomputable section

namespace Cert.KernelIdeal.KerHost

open Idealize.ShloMosaic Idealize.ShloMosaic.TcCoe Idealize.ShloMosaic.StableHlo Idealize.SL.Sem
open Cert.KernelIdeal Cert.KernelIdeal.Gen

variable {F : FTy → Type} [FloatOps F]

attribute [local irreducible] Host.gather Host.scatterAdd in
set_option maxHeartbeats 2000000 in
theorem h1_agg (V : Valuation τ sig (Elt F)) :
    after (hostOps1 (F := F)) V (Proc.devRef .tc main_call0_v31)
      = KerVal.layerK (F := F) (V (Proc.devRef .tc main_call0_v14)) (V (Proc.devRef .tc main_call0_v3))
          (V (Proc.devRef .tc main_call0_v6)) (V (Proc.devRef .tc main_call0_v15)) := by
  after_results_simp
  rfl

theorem h1_bias (V : Valuation τ sig (Elt F)) :
    after (hostOps1 (F := F)) V (Proc.devRef .tc main_call0_v32) = KerVal.biasRow (F := F) (V (Proc.devRef .tc main_arg3)) := by
  after_results; rfl

theorem h1_wcat (V : Valuation τ sig (Elt F)) :
    after (hostOps1 (F := F)) V (Proc.devRef .tc main_call0_v33)
      = KerVal.wcat (F := F) (V (Proc.devRef .tc main_arg4)) (V (Proc.devRef .tc main_arg6)) := by
  after_results; rfl

theorem h1_dinv (V : Valuation τ sig (Elt F)) : after (hostOps1 (F := F)) V (Proc.devRef .tc main_call0_v14) = V (Proc.devRef .tc main_call0_v14) := by after_results
theorem h1_src (V : Valuation τ sig (Elt F)) : after (hostOps1 (F := F)) V (Proc.devRef .tc main_call0_v3) = V (Proc.devRef .tc main_call0_v3) := by after_results
theorem h1_dst (V : Valuation τ sig (Elt F)) : after (hostOps1 (F := F)) V (Proc.devRef .tc main_call0_v6) = V (Proc.devRef .tc main_call0_v6) := by after_results
theorem h1_arg5 (V : Valuation τ sig (Elt F)) : after (hostOps1 (F := F)) V (Proc.devRef .tc main_arg5) = V (Proc.devRef .tc main_arg5) := by after_results
theorem h1_arg7 (V : Valuation τ sig (Elt F)) : after (hostOps1 (F := F)) V (Proc.devRef .tc main_arg7) = V (Proc.devRef .tc main_arg7) := by after_results

end Cert.KernelIdeal.KerHost

end
-- ==== Proof.KerHost2.lean ====
/-
  The host operations after the second region, folded over any buffer contents: the two results.
-/
import proofs.«168722_j46583215292646_2_alg».proof.Proof.Gen.KernelIdeal.Launch
import proofs.«168722_j46583215292646_2_alg».proof.Proof.KerVal
import Idealize.ShloMosaic.Lib.StableHlo.Run

noncomputable section

namespace Cert.KernelIdeal.KerHost

open Idealize.ShloMosaic Idealize.ShloMosaic.TcCoe Idealize.ShloMosaic.StableHlo Idealize.SL.Sem
open Cert.KernelIdeal Cert.KernelIdeal.Gen

variable {F : FTy → Type} [FloatOps F]

attribute [local irreducible] Host.gather Host.scatterAdd in
set_option maxHeartbeats 2000000 in
theorem h2_out0 (V : Valuation τ sig (Elt F)) :
    after (hostOps2 (F := F)) V (Proc.devRef .tc main_v0_0)
      = KerVal.outL (F := F) (KerVal.tail (V (Proc.devRef .tc main_call0_v14)) (V (Proc.devRef .tc main_call0_v3))
          (V (Proc.devRef .tc main_call0_v6)) (V (Proc.devRef .tc main_call0_v34)) (V (Proc.devRef .tc main_arg5)) (V (Proc.devRef .tc main_arg7))) := by
  after_results_simp
  rfl

attribute [local irreducible] Host.gather Host.scatterAdd in
set_option maxHeartbeats 2000000 in
theorem h2_out1 (V : Valuation τ sig (Elt F)) :
    after (hostOps2 (F := F)) V (Proc.devRef .tc main_v0_1)
      = KerVal.outR (F := F) (KerVal.tail (V (Proc.devRef .tc main_call0_v14)) (V (Proc.devRef .tc main_call0_v3))
          (V (Proc.devRef .tc main_call0_v6)) (V (Proc.devRef .tc main_call0_v34)) (V (Proc.devRef .tc main_arg5)) (V (Proc.devRef .tc main_arg7))) := by
  after_results_simp
  rfl

end Cert.KernelIdeal.KerHost

end
-- ==== Proof.KerChain.lean ====
/-
  The kernel program's buffers at the boundaries of its five stretches, traced back to the launch memory.

  The weights and the two endpoint rows are computed before the first region and written by nothing afterwards, so
  every later stretch reads them as functions of the edge list alone; the arguments are written by nothing at all. The
  first region's output is read by the middle stretch only, the second region's by the last stretch only. So each
  result is: the last stretch's function of (weights, endpoint rows, the second region's output, the two output
  biases); the second region reads the middle stretch's three arrays (the aggregated first layer, the bias row, the two
  weight matrices side by side); and the first region reads the two arguments `x` and `W1`.
-/
import proofs.«168722_j46583215292646_2_alg».proof.Proof.Gen.KernelIdeal.Frame
import proofs.«168722_j46583215292646_2_alg».proof.Proof.KerHost0
import proofs.«168722_j46583215292646_2_alg».proof.Proof.KerHost1
import proofs.«168722_j46583215292646_2_alg».proof.Proof.KerHost2

noncomputable section

namespace Cert.KernelIdeal.KerChain

open Idealize.ShloMosaic Idealize.ShloMosaic.TcCoe Idealize.ShloMosaic.StableHlo Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-! ## At the first region's entry -/

theorem w1_dinv : W1 m ρ c (Proc.devRef .tc main_call0_v14) = KerVal.dinv (F := F) (m ((c : Thread nD τ).loc main_arg1)) :=
  KerHost.h0_dinv (W0 m ρ c)
theorem w1_src : W1 m ρ c (Proc.devRef .tc main_call0_v3) = KerVal.srcRow (m ((c : Thread nD τ).loc main_arg1)) :=
  KerHost.h0_src (W0 m ρ c)
theorem w1_dst : W1 m ρ c (Proc.devRef .tc main_call0_v6) = KerVal.dstRow (m ((c : Thread nD τ).loc main_arg1)) :=
  KerHost.h0_dst (W0 m ρ c)
theorem v1_arg0 : V1 m ρ c main_arg0 = m ((c : Thread nD τ).loc main_arg0) := KerHost.h0_arg0 (W0 m ρ c)
theorem v1_arg2 : V1 m ρ c main_arg2 = m ((c : Thread nD τ).loc main_arg2) := KerHost.h0_arg2 (W0 m ρ c)
theorem w1_arg3 : W1 m ρ c (Proc.devRef .tc main_arg3) = m ((c : Thread nD τ).loc main_arg3) := KerHost.h0_arg3 (W0 m ρ c)
theorem w1_arg4 : W1 m ρ c (Proc.devRef .tc main_arg4) = m ((c : Thread nD τ).loc main_arg4) := KerHost.h0_arg4 (W0 m ρ c)
theorem w1_arg5 : W1 m ρ c (Proc.devRef .tc main_arg5) = m ((c : Thread nD τ).loc main_arg5) := KerHost.h0_arg5 (W0 m ρ c)
theorem w1_arg6 : W1 m ρ c (Proc.devRef .tc main_arg6) = m ((c : Thread nD τ).loc main_arg6) := KerHost.h0_arg6 (W0 m ρ c)
theorem w1_arg7 : W1 m ρ c (Proc.devRef .tc main_arg7) = m ((c : Thread nD τ).loc main_arg7) := KerHost.h0_arg7 (W0 m ρ c)

/-! ## At the first region's exit: its output array, and the buffers it is not concerned with -/

theorem w2_v15 : W2 m ρ c (Proc.devRef .tc main_call0_v15) = (dat0 (V1 m ρ) c).arrAt 2 cfg0.N := W2_arr m ρ c 2
theorem w2_dinv : W2 m ρ c (Proc.devRef .tc main_call0_v14) = KerVal.dinv (F := F) (m ((c : Thread nD τ).loc main_arg1)) :=
  (W2_of_ne m ρ c main_call0_v14 (by decide)).trans (w1_dinv m ρ c)
theorem w2_src : W2 m ρ c (Proc.devRef .tc main_call0_v3) = KerVal.srcRow (m ((c : Thread nD τ).loc main_arg1)) :=
  (W2_of_ne m ρ c main_call0_v3 (by decide)).trans (w1_src m ρ c)
theorem w2_dst : W2 m ρ c (Proc.devRef .tc main_call0_v6) = KerVal.dstRow (m ((c : Thread nD τ).loc main_arg1)) :=
  (W2_of_ne m ρ c main_call0_v6 (by decide)).trans (w1_dst m ρ c)
theorem w2_arg3 : W2 m ρ c (Proc.devRef .tc main_arg3) = m ((c : Thread nD τ).loc main_arg3) :=
  (W2_of_ne m ρ c main_arg3 (by decide)).trans (w1_arg3 m ρ c)
theorem w2_arg4 : W2 m ρ c (Proc.devRef .tc main_arg4) = m ((c : Thread nD τ).loc main_arg4) :=
  (W2_of_ne m ρ c main_arg4 (by decide)).trans (w1_arg4 m ρ c)
theorem w2_arg5 : W2 m ρ c (Proc.devRef .tc main_arg5) = m ((c : Thread nD τ).loc main_arg5) :=
  (W2_of_ne m ρ c main_arg5 (by decide)).trans (w1_arg5 m ρ c)
theorem w2_arg6 : W2 m ρ c (Proc.devRef .tc main_arg6) = m ((c : Thread nD τ).loc main_arg6) :=
  (W2_of_ne m ρ c main_arg6 (by decide)).trans (w1_arg6 m ρ c)
theorem w2_arg7 : W2 m ρ c (Proc.devRef .tc main_arg7) = m ((c : Thread nD τ).loc main_arg7) :=
  (W2_of_ne m ρ c main_arg7 (by decide)).trans (w1_arg7 m ρ c)

/-! ## At the second region's entry -/

theorem v3_v31 : V3 m ρ c main_call0_v31
    = KerVal.layerK (F := F) (KerVal.dinv (m ((c : Thread nD τ).loc main_arg1))) (KerVal.srcRow (m ((c : Thread nD τ).loc main_arg1)))
        (KerVal.dstRow (m ((c : Thread nD τ).loc main_arg1))) ((dat0 (V1 m ρ) c).arrAt 2 cfg0.N) := by
  refine (KerHost.h1_agg (W2 m ρ c)).trans ?_
  rw [w2_dinv, w2_src, w2_dst, w2_v15]
theorem v3_v32 : V3 m ρ c main_call0_v32 = KerVal.biasRow (F := F) (m ((c : Thread nD τ).loc main_arg3)) := by
  refine (KerHost.h1_bias (W2 m ρ c)).trans ?_
  rw [w2_arg3]
theorem v3_v33 : V3 m ρ c main_call0_v33
    = KerVal.wcat (F := F) (m ((c : Thread nD τ).loc main_arg4)) (m ((c : Thread nD τ).loc main_arg6)) := by
  refine (KerHost.h1_wcat (W2 m ρ c)).trans ?_
  rw [w2_arg4, w2_arg6]
theorem w3_dinv : W3 m ρ c (Proc.devRef .tc main_call0_v14) = KerVal.dinv (F := F) (m ((c : Thread nD τ).loc main_arg1)) :=
  (KerHost.h1_dinv (W2 m ρ c)).trans (w2_dinv m ρ c)
theorem w3_src : W3 m ρ c (Proc.devRef .tc main_call0_v3) = KerVal.srcRow (m ((c : Thread nD τ).loc main_arg1)) :=
  (KerHost.h1_src (W2 m ρ c)).trans (w2_src m ρ c)
theorem w3_dst : W3 m ρ c (Proc.devRef .tc main_call0_v6) = KerVal.dstRow (m ((c : Thread nD τ).loc main_arg1)) :=
  (KerHost.h1_dst (W2 m ρ c)).trans (w2_dst m ρ c)
theorem w3_arg5 : W3 m ρ c (Proc.devRef .tc main_arg5) = m ((c : Thread nD τ).loc main_arg5) :=
  (KerHost.h1_arg5 (W2 m ρ c)).trans (w2_arg5 m ρ c)
theorem w3_arg7 : W3 m ρ c (Proc.devRef .tc main_arg7) = m ((c : Thread nD τ).loc main_arg7) :=
  (KerHost.h1_arg7 (W2 m ρ c)).trans (w2_arg7 m ρ c)

/-! ## At the second region's exit, and the results -/

theorem w4_v34 : W4 m ρ c (Proc.devRef .tc main_call0_v34) = (dat1 (V3 m ρ) c).arrAt 3 cfg1.N := W4_arr m ρ c 3
theorem w4_dinv : W4 m ρ c (Proc.devRef .tc main_call0_v14) = KerVal.dinv (F := F) (m ((c : Thread nD τ).loc main_arg1)) :=
  (W4_of_ne m ρ c main_call0_v14 (by decide)).trans (w3_dinv m ρ c)
theorem w4_src : W4 m ρ c (Proc.devRef .tc main_call0_v3) = KerVal.srcRow (m ((c : Thread nD τ).loc main_arg1)) :=
  (W4_of_ne m ρ c main_call0_v3 (by decide)).trans (w3_src m ρ c)
theorem w4_dst : W4 m ρ c (Proc.devRef .tc main_call0_v6) = KerVal.dstRow (m ((c : Thread nD τ).loc main_arg1)) :=
  (W4_of_ne m ρ c main_call0_v6 (by decide)).trans (w3_dst m ρ c)
theorem w4_arg5 : W4 m ρ c (Proc.devRef .tc main_arg5) = m ((c : Thread nD τ).loc main_arg5) :=
  (W4_of_ne m ρ c main_arg5 (by decide)).trans (w3_arg5 m ρ c)
theorem w4_arg7 : W4 m ρ c (Proc.devRef .tc main_arg7) = m ((c : Thread nD τ).loc main_arg7) :=
  (W4_of_ne m ρ c main_arg7 (by decide)).trans (w3_arg7 m ρ c)

/-- The aggregated second layer plus the output biases, before it is cut in two. -/
def last : FVec F S50000x512 .f32 :=
  KerVal.tail (F := F) (KerVal.dinv (m ((c : Thread nD τ).loc main_arg1))) (KerVal.srcRow (m ((c : Thread nD τ).loc main_arg1)))
    (KerVal.dstRow (m ((c : Thread nD τ).loc main_arg1))) ((dat1 (V3 m ρ) c).arrAt 3 cfg1.N)
    (m ((c : Thread nD τ).loc main_arg5)) (m ((c : Thread nD τ).loc main_arg7))

theorem w5_out0 : W5 m ρ c (Proc.devRef .tc main_v0_0) = KerVal.outL (F := F) (last m ρ c) := by
  refine (KerHost.h2_out0 (W4 m ρ c)).trans ?_
  rw [w4_dinv, w4_src, w4_dst, w4_v34, w4_arg5, w4_arg7]
  rfl
theorem w5_out1 : W5 m ρ c (Proc.devRef .tc main_v0_1) = KerVal.outR (F := F) (last m ρ c) := by
  refine (KerHost.h2_out1 (W4 m ρ c)).trans ?_
  rw [w4_dinv, w4_src, w4_dst, w4_v34, w4_arg5, w4_arg7]
  rfl

end Cert.KernelIdeal.KerChain

end
-- ==== Proof.KerPayload.lean ====
/-
  The arithmetic of the two kernel bodies, read at an index on the extended reals.

  The first body multiplies a block of 2000 rows of `x` by the 512×512 weights: at (p, q) it is the sum over j of
  x(p, j) · w(j, q) — the roundings of the operands to bf16 are the identity at the ideal values, and the accumulator
  starts at zero.

  The second body adds the bias row to every row of its block, applies the leaky rectifier, and multiplies by the
  512×512 weights: at (p, q) it is the sum over k of leaky(a(p, k) + b(0, k)) · w(k, q) — the shape casts are of a
  shape to itself, and the roundings are again the identity.
-/
import proofs.«168722_j46583215292646_2_alg».proof.Proof.Gen.KernelIdeal.Skeleton
import proofs.«168722_j46583215292646_2_alg».proof.Proof.LibPlainDot
import proofs.«168722_j46583215292646_2_alg».proof.Proof.Spec
import Idealize.ShloMosaic.Lib.Pipeline.Value
import Idealize.ShloMosaic.Lib.ValueLayout

noncomputable section

namespace Cert.KernelIdeal.Regions

open Idealize.ShloMosaic Idealize.ShloMosaic.ValueIdx

/-- The printed dimension numbers of both products are those of a plain 2000×512 by 512×512 product. -/
theorem dims_plain : dot_S2000x512_S512x512_S2000x512_1_0_0_1_n_n = DotDims.plain 2000 512 512 := rfl

/-- The first body at (p, q): row p of the block times column q of the weights. -/
theorem pay0_apply (x0 : Vec Ideal S2000x512 .f32) (x1 : Vec Ideal S512x512 .f32) (p : Fin 2000) (q : Fin 512) :
    Gen.k0_pay1 x0 x1 (ix2 p q) = ∑ j : Fin 512, x0 (ix2 p j) * x1 (ix2 j q) := by
  unfold Gen.k0_pay1
  exact Cert.LibPlainDot.matmul_plain 2000 512 512 none (truncf .bf16 x0 Gen.bitsLt_bf16_f32)
    (truncf .bf16 x1 Gen.bitsLt_bf16_f32) (ix2 p q)

/-- The rectified, biased entry the second body multiplies: `leaky (a (p, k) + b (0, k))`. -/
theorem act_apply (a : Vec Ideal S2000x512 .f32) (b : Vec Ideal S1x512 .f32) (p : Fin 2000) (k : Fin 512) :
    (select (cmpf .oge (addf (shapeCast S2000x512 a Gen.shapeCasts_S2000x512_S2000x512)
          (broadcastTo S2000x512 (shapeCast S1x512 b Gen.shapeCasts_S1x512_S1x512) Gen.broadcasts_S1x512_S2000x512))
        (broadcast S2000x512 (Scalar.ofBits (F := Ideal) .f32 0x00000000#32)))
      (addf (shapeCast S2000x512 a Gen.shapeCasts_S2000x512_S2000x512)
          (broadcastTo S2000x512 (shapeCast S1x512 b Gen.shapeCasts_S1x512_S1x512) Gen.broadcasts_S1x512_S2000x512))
      (mulf (broadcast S2000x512 (Scalar.ofBits (F := Ideal) .f32 0x3C23D70A#32))
        (addf (shapeCast S2000x512 a Gen.shapeCasts_S2000x512_S2000x512)
          (broadcastTo S2000x512 (shapeCast S1x512 b Gen.shapeCasts_S1x512_S1x512) Gen.broadcasts_S1x512_S2000x512)))
      : FVec Ideal S2000x512 .f32) (ix2 p k)
      = Cert.Gcn.leaky (a (ix2 p k) + b (ix2 (0 : Fin 1) k)) := by
  rw [shapeCast_self, shapeCast_self]
  have hb : broadcastTo S2000x512 b Gen.broadcasts_S1x512_S2000x512 (ix2 p k) = b (ix2 (0 : Fin 1) k) :=
    broadcastTo_1b_ab_apply b Gen.broadcasts_S1x512_S2000x512 p k
  unfold Cert.Gcn.leaky
  rw [← hb]
  rfl

/-- The second body at (p, q): the rectified, biased row p times column q of the weights. -/
theorem pay1_apply (a : Vec Ideal S2000x512 .f32) (b : Vec Ideal S1x512 .f32) (w : Vec Ideal S512x512 .f32)
    (p : Fin 2000) (q : Fin 512) :
    Gen.k1_pay1 a b w (ix2 p q)
      = ∑ k : Fin 512, Cert.Gcn.leaky (a (ix2 p k) + b (ix2 (0 : Fin 1) k)) * w (ix2 k q) := by
  unfold Gen.k1_pay1
  refine (Cert.LibPlainDot.matmul_plain 2000 512 512 none _ _ (ix2 p q)).trans ?_
  refine Finset.sum_congr rfl fun k _ => ?_
  refine congr (congrArg HMul.hMul ?_) ?_
  · exact act_apply a b p k
  · rw [shapeCast_self]; rfl

end Cert.KernelIdeal.Regions

end
-- ==== Proof.KerRegion0.lean ====
/-
  What the first product region leaves in its output array: x · W1, entry by entry.

  The region walks 25 blocks of 2000 rows. At block t the body multiplies rows 2000·t … 2000·t + 1999 of `x` by the
  whole 512×512 weight matrix and the result is written back to the same rows of the output. The row blocks tile the
  50000 rows, so afterwards entry (r, k) of the output is the sum over j of x(r, j) · W1(j, k).
-/
import proofs.«168722_j46583215292646_2_alg».proof.Proof.Gen.KernelIdeal.Frame
import proofs.«168722_j46583215292646_2_alg».proof.Proof.KerPayload
import Idealize.ShloMosaic.Lib.Pipeline.Value

noncomputable section

namespace Cert.KernelIdeal.Regions

open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The matrix product of a 50000×512 array by a 512×512 array, entry by entry. -/
abbrev prod0 (x : S50000x512.Idx → EReal) (w : S512x512.Idx → EReal) : S50000x512.Idx → EReal :=
  fun i => ∑ j : Fin 512, x (ix2 (i 0) j) * w (ix2 j (i 1))

/-- The zero offsets of the body's whole-buffer accesses. -/
theorem zeros2 : (![0, 0] : Fin 2 → Nat) = fun _ => 0 := funext fun a => by fin_cases a <;> rfl

/-- The index maps over the grid: the row windows sit at block t of the rows, the weights at their one block. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t of `x` is row 2000·t + p of `x`. -/
theorem read_x0 (c : Dev nD) (t : Fin cfg0.N) (p : Fin 2000) (j : Fin 512) (r : Fin 50000)
    (hr : r.val = t.val * 2000 + p.val) :
    (Gen.iblk0 V c 0 t : S2000x512.Idx → EReal) (ix2 p j) = (V c main_arg0 : S50000x512.Idx → EReal) (ix2 r j) := by
  obtain ⟨e0, e1, -⟩ := index0 t
  show (V c main_arg0 : S50000x512.Idx → EReal) (((cfg0.win 0).blk t).view.emb (ix2 p j)) = _
  refine congrArg _ ?_
  funext a; apply Fin.ext
  match a with
  | ⟨0, _⟩ => show win0_0.index t (0 : Fin 2) * 2000 + 1 * p.val = r.val; omega
  | ⟨1, _⟩ => show win0_0.index t (1 : Fin 2) * 512 + 1 * j.val = j.val; omega

/-- The weights' one block is the weights. -/
theorem read_w0 (c : Dev nD) (t : Fin cfg0.N) (j : Fin 512) (k : Fin 512) (k' : Fin 512) (hk : k'.val = k.val) :
    (Gen.iblk0 V c 1 t : S512x512.Idx → EReal) (ix2 j k) = (V c main_arg2 : S512x512.Idx → EReal) (ix2 j k') := by
  obtain ⟨-, -, e2, e3, -⟩ := index0 t
  show (V c main_arg2 : S512x512.Idx → EReal) (((cfg0.win 1).blk t).view.emb (ix2 j k)) = _
  refine congrArg _ ?_
  funext a; apply Fin.ext
  match a with
  | ⟨0, _⟩ => show win0_1.index t (0 : Fin 2) * 512 + 1 * j.val = j.val; omega
  | ⟨1, _⟩ => show win0_1.index t (1 : Fin 2) * 512 + 1 * k.val = k'.val; omega

/-- What point t writes back is block t of the product. -/
theorem flushed0 (c : Dev nD) (t : Fin cfg0.N) :
    (Gen.dat0 (F := Ideal) V c).flushed 2 t
      = ((cfg0.win 2).blk t).view.read (Elt Ideal) (prod0 (V c main_arg0) (V c main_arg2)) := by
  show (cfg0.win 2).cut (grid0.coords t) ((Gen.dat0 V c).after 2 t) = _
  rw [Gen.after0_2]
  unfold Gen.out0_2
  rw [View.canon_unit_zero zeros2]
  simp only [View.ld_unit_zero (S := S2000x512) zeros2, View.ld_unit_zero (S := S512x512) zeros2]
  obtain ⟨-, -, -, -, e4, e5⟩ := index0 t
  funext y
  obtain ⟨p, q, rfl⟩ : ∃ (p : Fin 2000) (q : Fin 512), y = ix2 p q := ⟨y 0, y 1, eq_ix2 y⟩
  show Gen.k0_pay1 (Gen.iblk0 V c 0 t) (Gen.iblk0 V c 1 t) (ix2 p q)
      = prod0 (V c main_arg0) (V c main_arg2) (((cfg0.win 2).blk t).view.emb (ix2 p q))
  refine (pay0_apply _ _ p q).trans ?_
  refine Finset.sum_congr rfl fun j _ => ?_
  refine congr (congrArg HMul.hMul ?_) ?_
  · exact read_x0 V c t p j _ (by show win0_2.index t (0 : Fin 2) * 2000 + 1 * p.val = _; omega)
  · exact read_w0 V c t j q _ (by show win0_2.index t (1 : Fin 2) * 512 + 1 * q.val = _; omega)

/-- An index of the output is in point t's block iff each coordinate is in the block's range on its axis. -/
theorem mem_block0 (t : Fin cfg0.N) (i : S50000x512.Idx) :
    i ∈ ((cfg0.win 2).blk t).view.set ↔ ∀ a : Fin 2, win0_2.index t a * S2000x512.size a ≤ (i a).val
      ∧ (i a).val < win0_2.index t a * S2000x512.size a + S2000x512.size a := by
  show i ∈ ((View.whole main_call0_v15).slice (win0_2.rect t)).set ↔ _
  rw [View.set_slice_whole, Rect.mem_set_unit]
  exact Iff.rfl

/-- Row r lies in the block of point r / 2000: the 25 row blocks tile the output. -/
theorem cover0 (i : S50000x512.Idx) :
    ∃ t : Fin cfg0.N, (cfg0.win 2).flush t = true ∧ i ∈ ((cfg0.win 2).blk t).view.set := by
  have hi0 : (i 0).val < 50000 := (i 0).isLt
  have hi1 : (i 1).val < 512 := (i 1).isLt
  have hN : grid0.N = 25 := Gen.N_0
  obtain ⟨t, ht⟩ : ∃ t : Fin cfg0.N, t.val = (i 0).val / 2000 :=
    ⟨⟨(i 0).val / 2000, by show _ < grid0.N; rw [hN]; omega⟩, rfl⟩
  obtain ⟨-, -, -, -, e4, e5⟩ := index0 t
  refine ⟨t, Gen.flush0_2 t, ?_⟩
  rw [mem_block0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 512 ≤ (i 1).val ∧ (i 1).val < win0_2.index t (1 : Fin 2) * 512 + 512
    omega

/-- The output array after the region is the product, as one function. -/
theorem arr0_eq (c : Dev nD) :
    (Gen.dat0 (F := Ideal) V c).arrAt 2 cfg0.N = prod0 (V c main_arg0) (V c main_arg2) :=
  (Gen.dat0 V c).arrAt_eq_of_cover 2 (prod0 (V c main_arg0) (V c main_arg2)) (fun t _ => flushed0 V c t) cover0

/-- The output array after the region at (r, k): row r of `x` times column k of the weights. -/
theorem arr0 (c : Dev nD) (r : Fin 50000) (k : Fin 512) :
    ((Gen.dat0 (F := Ideal) V c).arrAt 2 cfg0.N : S50000x512.Idx → EReal) (ix2 r k)
      = ∑ j : Fin 512, @HMul.hMul EReal EReal EReal _ (V c main_arg0 (ix2 r j)) (V c main_arg2 (ix2 j k)) :=
  congrFun (arr0_eq V c) (ix2 r k)

end Cert.KernelIdeal.Regions

end
-- ==== Proof.KerRegion1.lean ====
/-
  What the second product region leaves in its output array: the rectified, biased rows times the weights.

  The region walks 25 blocks of 2000 rows. At block t the body adds the one bias row to rows 2000·t … 2000·t + 1999 of
  its input, applies the leaky rectifier entry by entry, multiplies by the whole 512×512 weight matrix, and the result
  is written back to the same rows of the output. The row blocks tile the 50000 rows, so afterwards entry (r, c') of the
  output is the sum over k of leaky(a(r, k) + b(0, k)) · w(k, c').
-/
import proofs.«168722_j46583215292646_2_alg».proof.Proof.Gen.KernelIdeal.Frame
import proofs.«168722_j46583215292646_2_alg».proof.Proof.KerPayload
import Idealize.ShloMosaic.Lib.Pipeline.Value

noncomputable section

namespace Cert.KernelIdeal.Regions

open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The rectified, biased rows of a 50000×512 array times a 512×512 array, entry by entry. -/
abbrev prod1 (a : S50000x512.Idx → EReal) (b : S1x512.Idx → EReal) (w : S512x512.Idx → EReal) :
    S50000x512.Idx → EReal :=
  fun i => ∑ k : Fin 512, Cert.Gcn.leaky (a (ix2 (i 0) k) + b (ix2 (0 : Fin 1) k)) * w (ix2 k (i 1))

/-- The zero offsets of the body's whole-buffer accesses. -/
theorem zeros2' : (![0, 0] : Fin 2 → Nat) = fun _ => 0 := funext fun a => by fin_cases a <;> rfl

/-- The index maps over the grid: the row windows sit at block t of the rows, the bias row and the weights at their
    one block. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t of the input is row 2000·t + p of the input. -/
theorem read_a1 (c : Dev nD) (t : Fin cfg1.N) (p : Fin 2000) (k : Fin 512) (r : Fin 50000)
    (hr : r.val = t.val * 2000 + p.val) :
    (Gen.iblk1 V c 0 t : S2000x512.Idx → EReal) (ix2 p k)
      = (V c main_call0_v31 : S50000x512.Idx → EReal) (ix2 r k) := by
  obtain ⟨e0, e1, -⟩ := index1 t
  show (V c main_call0_v31 : S50000x512.Idx → EReal) (((cfg1.win 0).blk t).view.emb (ix2 p k)) = _
  refine congrArg _ ?_
  funext a; apply Fin.ext
  match a with
  | ⟨0, _⟩ => show win1_0.index t (0 : Fin 2) * 2000 + 1 * p.val = r.val; omega
  | ⟨1, _⟩ => show win1_0.index t (1 : Fin 2) * 512 + 1 * k.val = k.val; omega

/-- The bias row's one block is the bias row. -/
theorem read_b1 (c : Dev nD) (t : Fin cfg1.N) (k : Fin 512) :
    (Gen.iblk1 V c 1 t : S1x512.Idx → EReal) (ix2 (0 : Fin 1) k)
      = (V c main_call0_v32 : S1x512.Idx → EReal) (ix2 (0 : Fin 1) k) := by
  obtain ⟨-, -, e2, e3, -⟩ := index1 t
  show (V c main_call0_v32 : S1x512.Idx → EReal) (((cfg1.win 1).blk t).view.emb (ix2 (0 : Fin 1) k)) = _
  refine congrArg _ ?_
  funext a; apply Fin.ext
  match a with
  | ⟨0, _⟩ => show win1_1.index t (0 : Fin 2) * 1 + 1 * (0 : Fin 1).val = (0 : Fin 1).val; omega
  | ⟨1, _⟩ => show win1_1.index t (1 : Fin 2) * 512 + 1 * k.val = k.val; omega

/-- The weights' one block is the weights. -/
theorem read_w1 (c : Dev nD) (t : Fin cfg1.N) (k : Fin 512) (q : Fin 512) (q' : Fin 512) (hq : q'.val = q.val) :
    (Gen.iblk1 V c 2 t : S512x512.Idx → EReal) (ix2 k q)
      = (V c main_call0_v33 : S512x512.Idx → EReal) (ix2 k q') := by
  obtain ⟨-, -, -, -, e4, e5, -⟩ := index1 t
  show (V c main_call0_v33 : S512x512.Idx → EReal) (((cfg1.win 2).blk t).view.emb (ix2 k q)) = _
  refine congrArg _ ?_
  funext a; apply Fin.ext
  match a with
  | ⟨0, _⟩ => show win1_2.index t (0 : Fin 2) * 512 + 1 * k.val = k.val; omega
  | ⟨1, _⟩ => show win1_2.index t (1 : Fin 2) * 512 + 1 * q.val = q'.val; omega

/-- What point t writes back is block t of the rectified product. -/
theorem flushed1 (c : Dev nD) (t : Fin cfg1.N) :
    (Gen.dat1 (F := Ideal) V c).flushed 3 t
      = ((cfg1.win 3).blk t).view.read (Elt Ideal)
          (prod1 (V c main_call0_v31) (V c main_call0_v32) (V c main_call0_v33)) := by
  show (cfg1.win 3).cut (grid1.coords t) ((Gen.dat1 V c).after 3 t) = _
  rw [Gen.after1_3]
  unfold Gen.out1_3
  rw [View.canon_unit_zero zeros2']
  simp only [View.ld_unit_zero (S := S2000x512) zeros2', View.ld_unit_zero (S := S1x512) zeros2',
    View.ld_unit_zero (S := S512x512) zeros2']
  obtain ⟨-, -, -, -, -, -, e6, e7⟩ := index1 t
  funext y
  obtain ⟨p, q, rfl⟩ : ∃ (p : Fin 2000) (q : Fin 512), y = ix2 p q := ⟨y 0, y 1, eq_ix2 y⟩
  show Gen.k1_pay1 (Gen.iblk1 V c 0 t) (Gen.iblk1 V c 1 t) (Gen.iblk1 V c 2 t) (ix2 p q)
      = prod1 (V c main_call0_v31) (V c main_call0_v32) (V c main_call0_v33) (((cfg1.win 3).blk t).view.emb (ix2 p q))
  refine (pay1_apply _ _ _ p q).trans ?_
  refine Finset.sum_congr rfl fun k _ => ?_
  refine congr (congrArg HMul.hMul (congrArg Cert.Gcn.leaky (congr (congrArg HAdd.hAdd ?_) ?_))) ?_
  · exact read_a1 V c t p k _ (by show win1_3.index t (0 : Fin 2) * 2000 + 1 * p.val = _; omega)
  · exact read_b1 V c t k
  · exact read_w1 V c t k q _ (by show win1_3.index t (1 : Fin 2) * 512 + 1 * q.val = _; omega)

/-- An index of the output is in point t's block iff each coordinate is in the block's range on its axis. -/
theorem mem_block1 (t : Fin cfg1.N) (i : S50000x512.Idx) :
    i ∈ ((cfg1.win 3).blk t).view.set ↔ ∀ a : Fin 2, win1_3.index t a * S2000x512.size a ≤ (i a).val
      ∧ (i a).val < win1_3.index t a * S2000x512.size a + S2000x512.size a := by
  show i ∈ ((View.whole main_call0_v34).slice (win1_3.rect t)).set ↔ _
  rw [View.set_slice_whole, Rect.mem_set_unit]
  exact Iff.rfl

/-- Row r lies in the block of point r / 2000: the 25 row blocks tile the output. -/
theorem cover1 (i : S50000x512.Idx) :
    ∃ t : Fin cfg1.N, (cfg1.win 3).flush t = true ∧ i ∈ ((cfg1.win 3).blk t).view.set := by
  have hi0 : (i 0).val < 50000 := (i 0).isLt
  have hi1 : (i 1).val < 512 := (i 1).isLt
  have hN : grid1.N = 25 := Gen.N_1
  obtain ⟨t, ht⟩ : ∃ t : Fin cfg1.N, t.val = (i 0).val / 2000 :=
    ⟨⟨(i 0).val / 2000, by show _ < grid1.N; rw [hN]; omega⟩, rfl⟩
  obtain ⟨-, -, -, -, -, -, e6, e7⟩ := index1 t
  refine ⟨t, Gen.flush1_3 t, ?_⟩
  rw [mem_block1]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 512 ≤ (i 1).val ∧ (i 1).val < win1_3.index t (1 : Fin 2) * 512 + 512
    omega

/-- The output array after the region is the rectified product, as one function. -/
theorem arr1_eq (c : Dev nD) :
    (Gen.dat1 (F := Ideal) V c).arrAt 3 cfg1.N
      = prod1 (V c main_call0_v31) (V c main_call0_v32) (V c main_call0_v33) :=
  (Gen.dat1 V c).arrAt_eq_of_cover 3 (prod1 (V c main_call0_v31) (V c main_call0_v32) (V c main_call0_v33))
    (fun t _ => flushed1 V c t) cover1

/-- The output array after the region at (r, c'): the rectified, biased row r times column c' of the weights. -/
theorem arr1 (c : Dev nD) (r : Fin 50000) (c' : Fin 512) :
    ((Gen.dat1 (F := Ideal) V c).arrAt 3 cfg1.N : S50000x512.Idx → EReal) (ix2 r c')
      = ∑ k : Fin 512, @HMul.hMul EReal EReal EReal _
          (Cert.Gcn.leaky (@HAdd.hAdd EReal EReal EReal _ (V c main_call0_v31 (ix2 r k)) (V c main_call0_v32 (ix2 (0 : Fin 1) k))))
          (V c main_call0_v33 (ix2 k c')) :=
  congrFun (arr1_eq V c) (ix2 r c')

end Cert.KernelIdeal.Regions

end
-- ==== Proof.KerRead.lean ====
/-
  The kernel program's aggregation, read at one node and one feature, on the extended reals.

  A node vector spread along the features reads the vector at the node. A row lookup at a column of endpoint words
  reads, at edge e and feature c, the matrix at the node the word names (read signed, clamped into the node range) and
  at c. Adding rows into the rows a column of words names, from zero, gives at node n and feature c zero plus the sum of
  the added rows' entries at c over the edges whose word, read signed, is n. Put together — scale by the weights, look up
  at the sources, add into the targets, scale by the weights — the aggregation of a matrix X at (n, c) is the node-wise
  aggregation `Gcn.aggK` of column c of X.
-/
import proofs.«168722_j46583215292646_2_alg».proof.Proof.KerVal
import Idealize.ShloMosaic.PureOps.Ideal.Laws

open scoped BigOperators

noncomputable section

namespace Cert.KernelIdeal.KerVal

open Idealize.ShloMosaic Idealize.ShloMosaic.ValueIdx
open Cert.KernelIdeal Cert.KernelIdeal.Facts₀ Cert.KernelIdeal.Facts

variable [Cert.KernelIdeal.Facts]

/-- A node vector spread along the 512 features reads, at `(n, c)`, the vector at `n`. -/
theorem spread_apply (D : FVec Ideal S50000 .f32) (n : Fin 50000) (c : Fin 512) :
    spread D (ix2 n c) = D (ix1 n) :=
  Cert.LibHostBroadcast.vec_along_rows D bcast_S50000_S50000x1_0 bcast_S50000x1_S50000x512_0_1 n c

/-- The start-index position of result position `(e, c)` is `(e, 0)`. -/
theorem rowIdx_ix2 (e : Fin 450000) (c : Fin 512) :
    Cert.LibGatherRows.rowIdx (ix2 e c : (⟨2, ![450000, 512]⟩ : Shape).Idx) = ix2 e (0 : Fin 1) := by
  funext a
  match a with
  | ⟨0, _⟩ => rfl
  | ⟨1, _⟩ => rfl

/-- A row lookup at a column of words reads, at `(e, c)`, row `node idx e`, column `c`. -/
theorem gather512_apply (Y : FVec Ideal S50000x512 .f32) (idx : IVec S450000x1 32) (e : Fin 450000) (c : Fin 512) :
    Host.gather gather_S50000x512_S450000x1_S450000x512_1_0_n_n_0_1_1512 Y idx (ix2 e c)
      = Y (ix2 (Cert.Gcn.node idx e) c) := by
  refine (Cert.LibGatherRows.gather_rows_apply (N := 50000) (D := 512) (R := 450000) (by norm_num)
    gather_S50000x512_S450000x1_S450000x512_1_0_n_n_0_1_1512_wf Y idx (ix2 e c)).trans ?_
  exact congrArg (fun z => Y (ix2 (Cert.Gcn.clampIdx Cert.Gcn.nodes_pos (idx z)) c)) (rowIdx_ix2 e c)

/-- Rows added into the rows a column of words names, at `(n, c)`: the start entry plus the sum over the edges added
    into `n`. -/
theorem scatter512_from (x : FVec Ideal S50000x512 .f32) (idx : IVec S450000x1 32) (upd : FVec Ideal S450000x512 .f32)
    (n : Fin 50000) (c : Fin 512) :
    Host.scatterAdd (F := Ideal) scatter_S50000x512_S450000x1_S450000x512_1_0_0_1 x idx upd (ix2 n c)
      = x (ix2 n c) + ∑ e ∈ Cert.Gcn.into idx n, upd (ix2 e c) :=
  Cert.LibScatterRows.scatterRows_apply 50000 450000 512 scatter_S50000x512_S450000x1_S450000x512_1_0_0_1_wf x idx upd n c

/-- The same from zero. -/
theorem scatter512_apply (idx : IVec S450000x1 32) (upd : FVec Ideal S450000x512 .f32) (n : Fin 50000) (c : Fin 512) :
    Host.scatterAdd scatter_S50000x512_S450000x1_S450000x512_1_0_0_1
        (broadcastInDim S50000x512 ![] bcast_S_S50000x512 (constant (F := Ideal) S_ .f32 0x00000000#32)) idx upd (ix2 n c)
      = 0 + ∑ e ∈ Cert.Gcn.into idx n, upd (ix2 e c) := by
  refine (scatter512_from _ idx upd n c).trans ?_
  refine congrArg (fun z : EReal => z + ∑ e ∈ Cert.Gcn.into idx n, upd (ix2 e c)) ?_
  refine (Cert.LibHostBroadcast.scalar_to_any _ bcast_S_S50000x512 (ix2 n c)).trans ?_
  exact Ideal.ofBits_zero_f32

/-- One aggregation at node `n`, feature `c`: the node-wise aggregation of column `c`. -/
theorem layerK_apply (D : FVec Ideal S50000 .f32) (s d : IVec S450000 32) (X : FVec Ideal S50000x512 .f32)
    (n : Fin 50000) (c : Fin 512) :
    layerK D s d X (ix2 n c)
      = Cert.Gcn.aggK (fun n' => D (ix1 n')) (wrap s) (col d) (fun r => X (ix2 r c)) n := by
  unfold layerK Cert.Gcn.aggK
  refine (mulf_apply _ _ _).trans ?_
  refine congr (congrArg HMul.hMul (spread_apply D n c)) ?_
  refine (scatter512_apply _ _ n c).trans ?_
  refine congrArg (fun z : EReal => 0 + z) (Finset.sum_congr rfl fun e _ => ?_)
  refine (gather512_apply _ _ e c).trans ?_
  refine (mulf_apply _ _ _).trans ?_
  exact congrArg (fun z : EReal => z * X (ix2 (Cert.Gcn.node (wrap s) e) c)) (spread_apply D _ c)

end Cert.KernelIdeal.KerVal

end
-- ==== Proof.KerReadTail.lean ====
/-
  The kernel program's last stretches, read at one position on the extended reals.

  The bias row is the bias vector with a leading unit axis: at (0, k) it is the vector at k. The two weight matrices
  side by side are, at a column below 256, the first matrix at that column, and at column 256 + c', the second at c'.
  The last stretch aggregates, adds the two output biases laid end to end (spread over the rows), and cuts the left or
  the right 256 columns: at (n, c') the left cut is the aggregation of column c' plus the first bias at c', the right
  cut the aggregation of column 256 + c' plus the second bias at c'.
-/
import proofs.«168722_j46583215292646_2_alg».proof.Proof.KerRead
import Idealize.ShloMosaic.Lib.ValueLayout

open scoped BigOperators

noncomputable section

namespace Cert.KernelIdeal.KerVal

open Idealize.ShloMosaic Idealize.ShloMosaic.ValueIdx
open Cert.KernelIdeal Cert.KernelIdeal.Facts₀ Cert.KernelIdeal.Facts

variable [Cert.KernelIdeal.Facts]

/-- A column below 256, as a column of the 512. -/
abbrev colL (c' : Fin 256) : Fin 512 := ⟨c'.val, by have := c'.isLt; omega⟩
/-- Column `256 + c'` of the 512. -/
abbrev colR (c' : Fin 256) : Fin 512 := ⟨256 + c'.val, by have := c'.isLt; omega⟩

/-- The bias row at `(0, k)` is the bias vector at `k`. -/
theorem biasRow_apply (b1 : FVec Ideal S512 .f32) (k : Fin 512) : biasRow b1 (ix2 (0 : Fin 1) k) = b1 (ix1 k) :=
  shapeCast_a_1a_apply b1 shapeCasts_S512_S1x512 0 k

/-- The two weight matrices side by side, at a column of the left half. -/
theorem wcat_left (Wmu Wls : FVec Ideal S512x256 .f32) (k : Fin 512) (c' : Fin 256) :
    wcat Wmu Wls (ix2 k (colL c')) = Wmu (ix2 k c') := by
  unfold wcat
  exact concatenate_pair_apply_left (t := S512x512) (1 : Fin 2) Wmu Wls concatenates_S512x256_S512x256_S512x512_d1 (ix2 k (colL c')) rfl
    (ix2 k c') (fun b => by
      match b with
      | ⟨0, _⟩ => rfl
      | ⟨1, _⟩ => rfl)

/-- The two weight matrices side by side, at a column of the right half. -/
theorem wcat_right (Wmu Wls : FVec Ideal S512x256 .f32) (k : Fin 512) (c' : Fin 256) :
    wcat Wmu Wls (ix2 k (colR c')) = Wls (ix2 k c') := by
  unfold wcat
  exact concatenate_pair_apply_right (t := S512x512) (1 : Fin 2) Wmu Wls concatenates_S512x256_S512x256_S512x512_d1 (ix2 k (colR c')) rfl rfl
    (ix2 k c') (fun b hb => by
      match b, hb with
      | ⟨0, _⟩, _ => rfl
      | ⟨1, _⟩, hb => exact absurd rfl hb)
    (by show c'.val + 256 = 256 + c'.val; omega)

/-- The two output biases end to end, at a position of the first. -/
theorem bcat_left (bmu bls : FVec Ideal S256 .f32) (c' : Fin 256) :
    concatenate S512 0 [⟨S256, bmu⟩, ⟨S256, bls⟩] concatenates_S256_S256_S512_d0 (ix1 (colL c')) = bmu (ix1 c') :=
  concatenate_pair_apply_left (t := S512) (0 : Fin 1) bmu bls concatenates_S256_S256_S512_d0 (ix1 (colL c')) rfl
    (ix1 c') (fun b => by
      match b with
      | ⟨0, _⟩ => rfl)

/-- The two output biases end to end, at a position of the second. -/
theorem bcat_right (bmu bls : FVec Ideal S256 .f32) (c' : Fin 256) :
    concatenate S512 0 [⟨S256, bmu⟩, ⟨S256, bls⟩] concatenates_S256_S256_S512_d0 (ix1 (colR c')) = bls (ix1 c') :=
  concatenate_pair_apply_right (t := S512) (0 : Fin 1) bmu bls concatenates_S256_S256_S512_d0 (ix1 (colR c')) rfl rfl
    (ix1 c') (fun b hb => by
      match b, hb with
      | ⟨0, _⟩, hb => exact absurd rfl hb)
    (by show c'.val + 256 = 256 + c'.val; omega)

/-- The last stretch before the cut, at `(n, k)`: the aggregation of column `k` plus the biases' entry `k`. -/
theorem tail_apply (D : FVec Ideal S50000 .f32) (s d : IVec S450000 32) (X : FVec Ideal S50000x512 .f32)
    (bmu bls : FVec Ideal S256 .f32) (n : Fin 50000) (k : Fin 512) :
    tail D s d X bmu bls (ix2 n k)
      = Cert.Gcn.aggK (fun n' => D (ix1 n')) (wrap s) (col d) (fun r => X (ix2 r k)) n
        + concatenate S512 0 [⟨S256, bmu⟩, ⟨S256, bls⟩] concatenates_S256_S256_S512_d0 (ix1 k) := by
  unfold tail
  refine (addf_apply _ _ _).trans ?_
  refine congr (congrArg HAdd.hAdd (layerK_apply D s d X n k)) ?_
  exact Cert.LibHostBroadcast.vec_along_cols _ bcast_S512_S1x512_1 bcast_S1x512_S50000x512_0_1 n k

/-- The left cut at `(n, c')`. -/
theorem outL_apply (Y : FVec Ideal S50000x512 .f32) (n : Fin 50000) (c' : Fin 256) :
    outL Y (ix2 n c') = Y (ix2 n (colL c')) :=
  slice2_axis1_apply 0 Y slices_S50000x512_S50000x256_0_0 n c' (colL c') (Nat.zero_add _).symm

/-- The right cut at `(n, c')`. -/
theorem outR_apply (Y : FVec Ideal S50000x512 .f32) (n : Fin 50000) (c' : Fin 256) :
    outR Y (ix2 n c') = Y (ix2 n (colR c')) :=
  slice2_axis1_apply 256 Y slices_S50000x512_S50000x256_0_256 n c' (colR c') rfl

/-- The left result at `(n, c')`: the aggregation of column `c'` plus the first output bias at `c'`. -/
theorem tailL_apply (D : FVec Ideal S50000 .f32) (s d : IVec S450000 32) (X : FVec Ideal S50000x512 .f32)
    (bmu bls : FVec Ideal S256 .f32) (n : Fin 50000) (c' : Fin 256) :
    outL (tail D s d X bmu bls) (ix2 n c')
      = Cert.Gcn.aggK (fun n' => D (ix1 n')) (wrap s) (col d) (fun r => X (ix2 r (colL c'))) n + bmu (ix1 c') :=
  (outL_apply _ n c').trans ((tail_apply D s d X bmu bls n (colL c')).trans
    (congrArg (fun z : EReal => Cert.Gcn.aggK (fun n' => D (ix1 n')) (wrap s) (col d) (fun r => X (ix2 r (colL c'))) n + z)
      (bcat_left bmu bls c')))

/-- The right result at `(n, c')`: the aggregation of column `256 + c'` plus the second output bias at `c'`. -/
theorem tailR_apply (D : FVec Ideal S50000 .f32) (s d : IVec S450000 32) (X : FVec Ideal S50000x512 .f32)
    (bmu bls : FVec Ideal S256 .f32) (n : Fin 50000) (c' : Fin 256) :
    outR (tail D s d X bmu bls) (ix2 n c')
      = Cert.Gcn.aggK (fun n' => D (ix1 n')) (wrap s) (col d) (fun r => X (ix2 r (colR c'))) n + bls (ix1 c') :=
  (outR_apply _ n c').trans ((tail_apply D s d X bmu bls n (colR c')).trans
    (congrArg (fun z : EReal => Cert.Gcn.aggK (fun n' => D (ix1 n')) (wrap s) (col d) (fun r => X (ix2 r (colR c'))) n + z)
      (bcat_right bmu bls c')))

end Cert.KernelIdeal.KerVal

end
-- ==== Proof.KerNet.lean ====
/-
  The kernel program's two results as the two-layer network, from what its stretches and regions compute.

  Suppose the first product region enters with `x` and `W1` in its two input arrays; the second enters with the
  aggregation of the first region's output, the bias row of `b1`, and the two output weight matrices side by side; and the
  last stretch aggregates the second region's output, adds the two output biases end to end and cuts a half. Then the left
  result at (n, c') is the network's output for the first weight matrix's column c' and the first bias at c', and the
  right result the same for the second matrix and bias: the first region's array is x · W1, its aggregation plus the bias
  through the rectifier is the hidden layer, the second region multiplies the hidden layer by the weights' column, and
  the last stretch aggregates and adds the column's bias.
-/
import proofs.«168722_j46583215292646_2_alg».proof.Proof.KerRegion0
import proofs.«168722_j46583215292646_2_alg».proof.Proof.KerRegion1
import proofs.«168722_j46583215292646_2_alg».proof.Proof.KerReadTail

open scoped BigOperators

noncomputable section

namespace Cert.KernelIdeal.KerFinal

open Idealize.ShloMosaic Idealize.ShloMosaic.TcCoe Idealize.ShloMosaic.ValueIdx
open Idealize.SL Idealize.SL.Sem
open Cert.KernelIdeal

variable (V1 V3 : (c : Dev nD) → (b : Ref sig .tc) → Buf (Elt Ideal) ((c : Thread nD τ).loc b)) (c : Dev nD)
variable (D : FVec Ideal S50000 .f32) (s d : IVec S450000 32)
variable (x : FVec Ideal S50000x512 .f32) (W1 : FVec Ideal S512x512 .f32) (b1 : FVec Ideal S512 .f32)
variable (Wmu Wls : FVec Ideal S512x256 .f32)

/-- The hidden layer: what the second region multiplies, at node `r`, feature `k`. -/
theorem hidden_of (h0 : V1 c main_arg0 = x) (h2 : V1 c main_arg2 = W1)
    (h31 : V3 c main_call0_v31 = KerVal.layerK D s d ((Gen.dat0 (F := Ideal) V1 c).arrAt 2 cfg0.N))
    (h32 : V3 c main_call0_v32 = KerVal.biasRow b1) (r : Fin 50000) (k : Fin 512) :
    Cert.Gcn.leaky (@HAdd.hAdd EReal EReal EReal _ (V3 c main_call0_v31 (ix2 r k)) (V3 c main_call0_v32 (ix2 (0 : Fin 1) k)))
      = Cert.Gcn.hidden (Cert.Gcn.aggK (fun n' => D (ix1 n')) (KerVal.wrap s) (KerVal.col d))
          (fun r j => x (ix2 r j)) (fun j k => W1 (ix2 j k)) (fun k => b1 (ix1 k)) r k := by
  unfold Cert.Gcn.hidden
  refine congrArg Cert.Gcn.leaky (congr (congrArg HAdd.hAdd ?_) ?_)
  · refine (congrFun h31 (ix2 r k)).trans ?_
    refine (KerVal.layerK_apply D s d _ r k).trans ?_
    refine congrArg (fun g => Cert.Gcn.aggK (fun n' => D (ix1 n')) (KerVal.wrap s) (KerVal.col d) g r) (funext fun r' => ?_)
    refine Eq.trans (α := EReal) (Regions.arr0 V1 c r' k) ?_
    refine Finset.sum_congr rfl fun j _ => ?_
    exact congr (congrArg HMul.hMul (congrFun h0 (ix2 r' j))) (congrFun h2 (ix2 j k))
  · refine (congrFun h32 (ix2 (0 : Fin 1) k)).trans ?_
    exact KerVal.biasRow_apply b1 k

/-- The second region's array at node `r`, a column of the left half: the hidden layer times the first matrix's column. -/
theorem arr1_left (h0 : V1 c main_arg0 = x) (h2 : V1 c main_arg2 = W1)
    (h31 : V3 c main_call0_v31 = KerVal.layerK D s d ((Gen.dat0 (F := Ideal) V1 c).arrAt 2 cfg0.N))
    (h32 : V3 c main_call0_v32 = KerVal.biasRow b1) (h33 : V3 c main_call0_v33 = KerVal.wcat Wmu Wls)
    (r : Fin 50000) (c' : Fin 256) :
    ((Gen.dat1 (F := Ideal) V3 c).arrAt 3 cfg1.N : S50000x512.Idx → EReal) (ix2 r (KerVal.colL c'))
      = ∑ k : Fin 512, Cert.Gcn.hidden (Cert.Gcn.aggK (fun n' => D (ix1 n')) (KerVal.wrap s) (KerVal.col d))
          (fun r j => x (ix2 r j)) (fun j k => W1 (ix2 j k)) (fun k => b1 (ix1 k)) r k * Wmu (ix2 k c') := by
  refine Eq.trans (α := EReal) (Regions.arr1 V3 c r (KerVal.colL c')) ?_
  refine Finset.sum_congr rfl fun k _ => ?_
  refine congr (congrArg HMul.hMul (hidden_of V1 V3 c D s d x W1 b1 h0 h2 h31 h32 r k)) ?_
  exact (congrFun h33 (ix2 k (KerVal.colL c'))).trans (KerVal.wcat_left Wmu Wls k c')

/-- The same at a column of the right half: the hidden layer times the second matrix's column. -/
theorem arr1_right (h0 : V1 c main_arg0 = x) (h2 : V1 c main_arg2 = W1)
    (h31 : V3 c main_call0_v31 = KerVal.layerK D s d ((Gen.dat0 (F := Ideal) V1 c).arrAt 2 cfg0.N))
    (h32 : V3 c main_call0_v32 = KerVal.biasRow b1) (h33 : V3 c main_call0_v33 = KerVal.wcat Wmu Wls)
    (r : Fin 50000) (c' : Fin 256) :
    ((Gen.dat1 (F := Ideal) V3 c).arrAt 3 cfg1.N : S50000x512.Idx → EReal) (ix2 r (KerVal.colR c'))
      = ∑ k : Fin 512, Cert.Gcn.hidden (Cert.Gcn.aggK (fun n' => D (ix1 n')) (KerVal.wrap s) (KerVal.col d))
          (fun r j => x (ix2 r j)) (fun j k => W1 (ix2 j k)) (fun k => b1 (ix1 k)) r k * Wls (ix2 k c') := by
  refine Eq.trans (α := EReal) (Regions.arr1 V3 c r (KerVal.colR c')) ?_
  refine Finset.sum_congr rfl fun k _ => ?_
  refine congr (congrArg HMul.hMul (hidden_of V1 V3 c D s d x W1 b1 h0 h2 h31 h32 r k)) ?_
  exact (congrFun h33 (ix2 k (KerVal.colR c'))).trans (KerVal.wcat_right Wmu Wls k c')

variable (bmu bls : FVec Ideal S256 .f32)

/-- The left result at `(n, c')` is the network's output for the first matrix's column `c'` and the first bias. -/
theorem outL_of (h0 : V1 c main_arg0 = x) (h2 : V1 c main_arg2 = W1)
    (h31 : V3 c main_call0_v31 = KerVal.layerK D s d ((Gen.dat0 (F := Ideal) V1 c).arrAt 2 cfg0.N))
    (h32 : V3 c main_call0_v32 = KerVal.biasRow b1) (h33 : V3 c main_call0_v33 = KerVal.wcat Wmu Wls)
    (n : Fin 50000) (c' : Fin 256) :
    KerVal.outL (KerVal.tail D s d ((Gen.dat1 (F := Ideal) V3 c).arrAt 3 cfg1.N) bmu bls) (ix2 n c')
      = Cert.Gcn.out (Cert.Gcn.aggK (fun n' => D (ix1 n')) (KerVal.wrap s) (KerVal.col d))
          (fun r j => x (ix2 r j)) (fun j k => W1 (ix2 j k)) (fun k => b1 (ix1 k))
          (fun k => Wmu (ix2 k c')) (bmu (ix1 c')) n := by
  unfold Cert.Gcn.out
  refine (KerVal.tailL_apply D s d _ bmu bls n c').trans ?_
  refine congrArg (fun g => Cert.Gcn.aggK (fun n' => D (ix1 n')) (KerVal.wrap s) (KerVal.col d) g n + bmu (ix1 c'))
    (funext fun r => ?_)
  exact arr1_left V1 V3 c D s d x W1 b1 Wmu Wls h0 h2 h31 h32 h33 r c'

/-- The right result at `(n, c')` is the network's output for the second matrix's column `c'` and the second bias. -/
theorem outR_of (h0 : V1 c main_arg0 = x) (h2 : V1 c main_arg2 = W1)
    (h31 : V3 c main_call0_v31 = KerVal.layerK D s d ((Gen.dat0 (F := Ideal) V1 c).arrAt 2 cfg0.N))
    (h32 : V3 c main_call0_v32 = KerVal.biasRow b1) (h33 : V3 c main_call0_v33 = KerVal.wcat Wmu Wls)
    (n : Fin 50000) (c' : Fin 256) :
    KerVal.outR (KerVal.tail D s d ((Gen.dat1 (F := Ideal) V3 c).arrAt 3 cfg1.N) bmu bls) (ix2 n c')
      = Cert.Gcn.out (Cert.Gcn.aggK (fun n' => D (ix1 n')) (KerVal.wrap s) (KerVal.col d))
          (fun r j => x (ix2 r j)) (fun j k => W1 (ix2 j k)) (fun k => b1 (ix1 k))
          (fun k => Wls (ix2 k c')) (bls (ix1 c')) n := by
  unfold Cert.Gcn.out
  refine (KerVal.tailR_apply D s d _ bmu bls n c').trans ?_
  refine congrArg (fun g => Cert.Gcn.aggK (fun n' => D (ix1 n')) (KerVal.wrap s) (KerVal.col d) g n + bls (ix1 c'))
    (funext fun r => ?_)
  exact arr1_right V1 V3 c D s d x W1 b1 Wmu Wls h0 h2 h31 h32 h33 r c'

end Cert.KernelIdeal.KerFinal

end
-- ==== Proof.KerFinal.lean ====
/-
  The kernel program's two results, read at one node and one output feature, as the two-layer network of the arguments.

  The left result at (n, c') is the network's output with the weights 1/√deg of the edge list, the sources wrapped and
  the targets as a column, the features `x`, the first-layer weights and bias, column c' of the first output matrix and
  entry c' of the first output bias; the right result the same with the second output matrix and bias. The program's
  buffers at its stretches' boundaries are traced back to the launch memory, and the stretches and the two product
  regions compose to the network.
-/
import proofs.«168722_j46583215292646_2_alg».proof.Proof.KerChain
import proofs.«168722_j46583215292646_2_alg».proof.Proof.KerNet

open scoped BigOperators

noncomputable section

namespace Cert.KernelIdeal.KerFinal

open Idealize.ShloMosaic Idealize.ShloMosaic.TcCoe Idealize.ShloMosaic.ValueIdx
open Idealize.SL Idealize.SL.Sem
open Cert.KernelIdeal

variable (m : (ℓ : Loc nD τ sig) → Buf (Elt Ideal) ℓ) (ρ : Dev nD → PrngReg) (c : Dev nD)

/-- The left result at `(n, c')`. -/
theorem out0_apply (n : Fin 50000) (c' : Fin 256) :
    (Gen.W5 m ρ c (Proc.devRef .tc main_v0_0) : S50000x256.Idx → EReal) (ix2 n c')
      = Cert.Gcn.out (Cert.Gcn.aggK (fun n' => KerVal.dinv (F := Ideal) (m ((c : Thread nD τ).loc main_arg1)) (ix1 n'))
            (KerVal.wrap (KerVal.srcRow (m ((c : Thread nD τ).loc main_arg1))))
            (KerVal.col (KerVal.dstRow (m ((c : Thread nD τ).loc main_arg1)))))
          (fun r j => (m ((c : Thread nD τ).loc main_arg0) : S50000x512.Idx → EReal) (ix2 r j))
          (fun j k => (m ((c : Thread nD τ).loc main_arg2) : S512x512.Idx → EReal) (ix2 j k))
          (fun k => (m ((c : Thread nD τ).loc main_arg3) : S512.Idx → EReal) (ix1 k))
          (fun k => (m ((c : Thread nD τ).loc main_arg4) : S512x256.Idx → EReal) (ix2 k c'))
          ((m ((c : Thread nD τ).loc main_arg5) : S256.Idx → EReal) (ix1 c')) n :=
  (congrFun (KerChain.w5_out0 m ρ c) (ix2 n c')).trans
    (outL_of (Gen.V1 m ρ) (Gen.V3 m ρ) c (KerVal.dinv (F := Ideal) (m ((c : Thread nD τ).loc main_arg1)))
      (KerVal.srcRow (m ((c : Thread nD τ).loc main_arg1))) (KerVal.dstRow (m ((c : Thread nD τ).loc main_arg1)))
      (m ((c : Thread nD τ).loc main_arg0)) (m ((c : Thread nD τ).loc main_arg2)) (m ((c : Thread nD τ).loc main_arg3))
      (m ((c : Thread nD τ).loc main_arg4)) (m ((c : Thread nD τ).loc main_arg6))
      (m ((c : Thread nD τ).loc main_arg5)) (m ((c : Thread nD τ).loc main_arg7))
      (KerChain.v1_arg0 m ρ c) (KerChain.v1_arg2 m ρ c) (KerChain.v3_v31 m ρ c) (KerChain.v3_v32 m ρ c)
      (KerChain.v3_v33 m ρ c) n c')

/-- The right result at `(n, c')`. -/
theorem out1_apply (n : Fin 50000) (c' : Fin 256) :
    (Gen.W5 m ρ c (Proc.devRef .tc main_v0_1) : S50000x256.Idx → EReal) (ix2 n c')
      = Cert.Gcn.out (Cert.Gcn.aggK (fun n' => KerVal.dinv (F := Ideal) (m ((c : Thread nD τ).loc main_arg1)) (ix1 n'))
            (KerVal.wrap (KerVal.srcRow (m ((c : Thread nD τ).loc main_arg1))))
            (KerVal.col (KerVal.dstRow (m ((c : Thread nD τ).loc main_arg1)))))
          (fun r j => (m ((c : Thread nD τ).loc main_arg0) : S50000x512.Idx → EReal) (ix2 r j))
          (fun j k => (m ((c : Thread nD τ).loc main_arg2) : S512x512.Idx → EReal) (ix2 j k))
          (fun k => (m ((c : Thread nD τ).loc main_arg3) : S512.Idx → EReal) (ix1 k))
          (fun k => (m ((c : Thread nD τ).loc main_arg6) : S512x256.Idx → EReal) (ix2 k c'))
          ((m ((c : Thread nD τ).loc main_arg7) : S256.Idx → EReal) (ix1 c')) n :=
  (congrFun (KerChain.w5_out1 m ρ c) (ix2 n c')).trans
    (outR_of (Gen.V1 m ρ) (Gen.V3 m ρ) c (KerVal.dinv (F := Ideal) (m ((c : Thread nD τ).loc main_arg1)))
      (KerVal.srcRow (m ((c : Thread nD τ).loc main_arg1))) (KerVal.dstRow (m ((c : Thread nD τ).loc main_arg1)))
      (m ((c : Thread nD τ).loc main_arg0)) (m ((c : Thread nD τ).loc main_arg2)) (m ((c : Thread nD τ).loc main_arg3))
      (m ((c : Thread nD τ).loc main_arg4)) (m ((c : Thread nD τ).loc main_arg6))
      (m ((c : Thread nD τ).loc main_arg5)) (m ((c : Thread nD τ).loc main_arg7))
      (KerChain.v1_arg0 m ρ c) (KerChain.v1_arg2 m ρ c) (KerChain.v3_v31 m ρ c) (KerChain.v3_v32 m ρ c)
      (KerChain.v3_v33 m ρ c) n c')

end Cert.KernelIdeal.KerFinal

end
-- ==== Proof.Bridge.lean ====
/-
  The two programs' results are one function of the arguments.

  Read at node `n`, column `c`, the reference's result is the network `Gcn.out` over the edge-wise aggregation and the
  kernel program's is the same network over the node-wise aggregation, with the same weights, the same endpoint
  columns and the same arguments. The two aggregations agree because every weight is `1/√deg` or `0`, so nonnegative and
  never `⊤`, and because an edge added into node `n` has the nonnegative target word `n`, which the wrap leaves alone and
  the lookup's clamp keeps. No finiteness of the inputs is used.
-/
import proofs.«168722_j46583215292646_2_alg».proof.Proof.Spec
import proofs.«168722_j46583215292646_2_alg».proof.Proof.Sides
import proofs.«168722_j46583215292646_2_alg».proof.Proof.RefRead
import proofs.«168722_j46583215292646_2_alg».proof.Proof.KerFinal

noncomputable section

namespace Cert.Bridge

open Idealize.ShloMosaic Idealize.ShloMosaic.TcCoe Idealize.ShloMosaic.ValueIdx Idealize.SL.Sem
open Cert.KernelIdeal

/-- The node-wise and the edge-wise aggregation of the two programs, at the edge list `ei`. -/
theorem agg_eq (ei : IVec Cert.ReferenceIdeal.S2x400000 32) :
    Cert.Gcn.aggK (fun n' => Cert.ReferenceIdeal.RefVal.dinv (F := Ideal) ei (ix1 n')) (Cert.ReferenceIdeal.RefVal.srcN ei)
        (Cert.ReferenceIdeal.RefVal.dstC ei)
      = Cert.Gcn.aggR (fun n' => Cert.ReferenceIdeal.RefVal.dinv (F := Ideal) ei (ix1 n')) (Cert.ReferenceIdeal.RefVal.srcN ei)
          (Cert.ReferenceIdeal.RefVal.dstN ei) (Cert.ReferenceIdeal.RefVal.dstC ei) :=
  Cert.Gcn.aggK_eq_aggR _ _ _ _ (Cert.ReferenceIdeal.RefVal.dinv_nonneg ei) (Cert.ReferenceIdeal.RefVal.dinv_ne_top ei)
    (Cert.ReferenceIdeal.RefVal.dst_lookup ei)

variable (m : (ℓ : Loc nD τ sig) → Buf (Elt Ideal) ℓ) (ρ : Dev nD → PrngReg) (c : Dev nD)

/-- The reference's first result, at the kernel program's arguments, is the kernel program's first result. -/
theorem mu_eq :
    Cert.ReferenceIdeal.RefVal.mu (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      = Gen.W5 m ρ c (Proc.devRef .tc main_v0_0) := by
  funext i
  rw [eq_ix2 i]
  refine (Cert.ReferenceIdeal.RefVal.mu_apply _ _ _ _ _ _ (i 0) (i 1)).trans ?_
  refine Eq.trans ?_ (Cert.KernelIdeal.KerFinal.out0_apply m ρ c (i 0) (i 1)).symm
  rw [Cert.Sides.srcN_eq, Cert.Sides.dstC_eq, Cert.Sides.dinv_eq, agg_eq]

/-- The same for the second result. -/
theorem ls_eq :
    Cert.ReferenceIdeal.RefVal.ls (F := Ideal) (m ((c : Thread nD τ).loc main_arg0)) (m ((c : Thread nD τ).loc main_arg1))
        (m ((c : Thread nD τ).loc main_arg2)) (m ((c : Thread nD τ).loc main_arg3)) (m ((c : Thread nD τ).loc main_arg6))
        (m ((c : Thread nD τ).loc main_arg7))
      = Gen.W5 m ρ c (Proc.devRef .tc main_v0_1) := by
  funext i
  rw [eq_ix2 i]
  refine (Cert.ReferenceIdeal.RefVal.ls_apply _ _ _ _ _ _ (i 0) (i 1)).trans ?_
  refine Eq.trans ?_ (Cert.KernelIdeal.KerFinal.out1_apply m ρ c (i 0) (i 1)).symm
  rw [Cert.Sides.srcN_eq, Cert.Sides.dstC_eq, Cert.Sides.dinv_eq, agg_eq]

end Cert.Bridge

end
-- ==== Proof.lean ====
/-
  A two-layer graph convolution (a variational graph auto-encoder's encoder): the kernel program against its reference.

  Both programs compute, for 50000 nodes with 512 input features and an edge list of 400000 edges to which one
  self-loop per node is appended, the two heads `mu` and `logstd` of
      layer(h, W, b) = Â · (h · W) + b,      Â = D^(-1/2) · A · D^(-1/2),      hidden = leaky_relu(layer(x, W1, b1)),
  with `D` the in-degrees (counted with the self-loops) and `1/√0` read as `0`.

  * The reference weights every edge's message by `dinv[src] · dinv[dst]` and adds the messages up per target.
  * The kernel program computes the two dense products `x · W1` and `leaky_relu(· + b1) · [Wmu | Wls]` in two
    matrix-product regions (row blocks of 2000 nodes; the operands rounded to bf16 on the way in, which changes nothing
    at the extended reals) and applies `Â` node-wise around them: scale the rows by `dinv`, add the looked-up source rows
    into their targets, scale the sums by `dinv`; the two heads share one product against the two weight matrices side by
    side and are cut apart at the end.

  At the extended reals the two are equal index by index: a weight is `1/√deg` or `0`, hence nonnegative and never `⊤`,
  and such a factor distributes over any finite sum of extended reals; the target weight an edge's message is multiplied by
  is the weight of the node the message is added into. Nothing else is used — in particular not that the inputs are
  finite, and nothing about the edge list: out-of-range and negative endpoint words are treated alike by both programs
  (a lookup wraps a negative word once and clamps; an addition into a node that is not in range is dropped).

  The frames of the two kernel programs are the generated ones; the reference's is its run with the results forgotten.
  The ideal pass rewrote nothing, so the idealization claim is trivial.
-/
import proofs.«168722_j46583215292646_2_alg».proof.Defs
import proofs.«168722_j46583215292646_2_alg».proof.Proof.Gen.Kernel
import proofs.«168722_j46583215292646_2_alg».proof.Proof.Gen.Kernel.Skeleton
import proofs.«168722_j46583215292646_2_alg».proof.Proof.Gen.Kernel.Launch
import proofs.«168722_j46583215292646_2_alg».proof.Proof.Gen.Kernel.Points
import proofs.«168722_j46583215292646_2_alg».proof.Proof.Gen.Kernel.Frame
import proofs.«168722_j46583215292646_2_alg».proof.Proof.Gen.KernelIdeal
import proofs.«168722_j46583215292646_2_alg».proof.Proof.Gen.KernelIdeal.Skeleton
import proofs.«168722_j46583215292646_2_alg».proof.Proof.Gen.KernelIdeal.Launch
import proofs.«168722_j46583215292646_2_alg».proof.Proof.Gen.KernelIdeal.Points
import proofs.«168722_j46583215292646_2_alg».proof.Proof.Gen.KernelIdeal.Frame
import proofs.«168722_j46583215292646_2_alg».proof.Proof.Gen.ReferenceIdeal
import proofs.«168722_j46583215292646_2_alg».proof.Proof.Gen.Pre_finite_inputs
import proofs.«168722_j46583215292646_2_alg».proof.Proof.KerRun
import proofs.«168722_j46583215292646_2_alg».proof.Proof.RefValue
import proofs.«168722_j46583215292646_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with the arguments unchanged (and the results at their values, forgotten here). -/
theorem frame_referenceIdeal : Cert.frame_ReferenceIdeal := fun m ρ _ =>
  (θ_run Cert.ReferenceIdeal.defs _ _).mono (fun _ h c => (h c).2.2) (Cert.ReferenceIdeal.RefVal.run_values m ρ)

theorem preserves : Cert.preserves_Kernel_KernelIdeal := trivial

/-- From memories agreeing on the arguments both idealized programs run, and the reference's two results are the kernel
    program's: the values the kernel program's last stretch leaves in its two result buffers. -/
theorem algebraic : Cert.algebraic_KernelIdeal_ReferenceIdeal := by
  intro m ρ m' ρ' _ hagree
  refine ⟨fun c => Cert.KernelIdeal.Gen.W5 m ρ c (Proc.devRef .tc Cert.KernelIdeal.main_v0_0),
    fun c => Cert.KernelIdeal.Gen.W5 m ρ c (Proc.devRef .tc Cert.KernelIdeal.main_v0_1), ?_, ?_⟩
  · exact (θ_run Cert.KernelIdeal.defs _ _).mono (fun r h c =>
      ⟨h c Cert.KernelIdeal.main_v0_0 (by decide), h c Cert.KernelIdeal.main_v0_1 (by decide),
        (h c Cert.KernelIdeal.main_arg0 (by decide)).trans (Cert.KernelIdeal.Gen.W5_main_arg0 m ρ c),
        (h c Cert.KernelIdeal.main_arg1 (by decide)).trans (Cert.KernelIdeal.Gen.W5_main_arg1 m ρ c),
        (h c Cert.KernelIdeal.main_arg2 (by decide)).trans (Cert.KernelIdeal.Gen.W5_main_arg2 m ρ c),
        (h c Cert.KernelIdeal.main_arg3 (by decide)).trans (Cert.KernelIdeal.Gen.W5_main_arg3 m ρ c),
        (h c Cert.KernelIdeal.main_arg4 (by decide)).trans (Cert.KernelIdeal.Gen.W5_main_arg4 m ρ c),
        (h c Cert.KernelIdeal.main_arg5 (by decide)).trans (Cert.KernelIdeal.Gen.W5_main_arg5 m ρ c),
        (h c Cert.KernelIdeal.main_arg6 (by decide)).trans (Cert.KernelIdeal.Gen.W5_main_arg6 m ρ c),
        (h c Cert.KernelIdeal.main_arg7 (by decide)).trans (Cert.KernelIdeal.Gen.W5_main_arg7 m ρ c)⟩)
      (Cert.KernelIdeal.KerRun.run_all m ρ)
  · refine (θ_run Cert.ReferenceIdeal.defs _ _).mono (fun r h c => ⟨(h c).1.trans ?_, (h c).2.1.trans ?_, (h c).2.2⟩)
      (Cert.ReferenceIdeal.RefVal.run_values m' ρ')
    · rw [(hagree c).1, (hagree c).2.1, (hagree c).2.2.1, (hagree c).2.2.2.1, (hagree c).2.2.2.2.1, (hagree c).2.2.2.2.2.1]
      exact Cert.Bridge.mu_eq m ρ c
    · rw [(hagree c).1, (hagree c).2.1, (hagree c).2.2.1, (hagree c).2.2.2.1, (hagree c).2.2.2.2.2.2.1, (hagree c).2.2.2.2.2.2.2]
      exact Cert.Bridge.ls_eq m ρ c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
